-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v20_0)) (v1 : (c : Dev Cert.KernelIdeal.nD) → Buf (Elt Ideal) ((c.tc : Thread Cert.KernelIdeal.nD Cert.KernelIdeal.τ).loc Cert.KernelIdeal.main_v20_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20_0) = v0 c
          ∧ r.2.mem ((c.tc : Thread Cert.KernelIdeal.nD Cert.KernelIdeal.τ).loc Cert.KernelIdeal.main_v20_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x768 : Shape := ⟨2, ![4096, 768]⟩
abbrev S20000x768 : Shape := ⟨2, ![20000, 768]⟩
abbrev S20000x1 : Shape := ⟨2, ![20000, 1]⟩
abbrev S512x768 : Shape := ⟨2, ![512, 768]⟩
abbrev S512 : Shape := ⟨1, ![512]⟩
abbrev S1x1 : Shape := ⟨2, ![1, 1]⟩
abbrev S1 : Shape := ⟨1, ![1]⟩
abbrev S_ : Shape := ⟨0, ![]⟩

class Facts : Prop where
  bcast_S_S4096x768 : S_.BroadcastsInDim S4096x768 (![] : Fin 0 → Fin S4096x768.rank)
  reducesTo_S4096x768_S_d0_1 : S4096x768.ReducesTo [0, 1] S_
  h_S_ : 0 < S_.numel
  bcast_S_S20000x768 : S_.BroadcastsInDim S20000x768 (![] : Fin 0 → Fin S20000x768.rank)
  reducesTo_S20000x768_S_d0_1 : S20000x768.ReducesTo [0, 1] S_
  bcast_S_S20000x1 : S_.BroadcastsInDim S20000x1 (![] : Fin 0 → Fin S20000x1.rank)
  reducesTo_S20000x1_S_d0_1 : S20000x1.ReducesTo [0, 1] S_
  bcast_S_S512x768 : S_.BroadcastsInDim S512x768 (![] : Fin 0 → Fin S512x768.rank)
  reducesTo_S512x768_S_d0_1 : S512x768.ReducesTo [0, 1] S_
  bcast_S_S512 : S_.BroadcastsInDim S512 (![] : Fin 0 → Fin S512.rank)
  reducesTo_S512_S_d0 : S512.ReducesTo [0] S_
  bcast_S_S1x1 : S_.BroadcastsInDim S1x1 (![] : Fin 0 → Fin S1x1.rank)
  reducesTo_S1x1_S_d0_1 : S1x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S512 .f32) (main_arg5 : FVec F S1x1 .f32) (main_arg6 : FVec F S1 .f32) (main_v13 : IVec S_ 1) (main_v16 : IVec S512x768 1) : IVec S_ 1 :=
  let main_c_5 : IVec S_ 1 := constantI S_ 1 1#1
  let main_v17 : IVec S_ 1 := (fun x v => Host.reduce IntOp.andi x v reducesTo_S512x768_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S1x1 .f32 := Host.absf main_arg5
  let main_cst_8 : FVec F S_ .f32 := constant S_ .f32 0x7F800000#32
  let main_v25 : FVec F S1x1 .f32 := broadcastInDim S1x1 ![] bcast_S_S1x1 main_cst_8
  let main_v26 : IVec S1x1 1 := cmpf .olt main_v24 main_v25
  let main_c_9 : IVec S_ 1 := constantI S_ 1 1#1
  let main_v27 : IVec S_ 1 := (fun x v => Host.reduce IntOp.andi x v reducesTo_S1x1_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S4096x768 .f32) (main_arg1 : FVec F S20000x768 .f32) (main_arg2 : FVec F S20000x1 .f32) (main_arg3 : FVec F S512x768 .f32) (main_arg4 : FVec F S512 .f32) (main_arg5 : FVec F S1x1 .f32) (main_arg6 : FVec F S1 .f32) : IVec S_ 1 :=
  let main_v0 : FVec F S4096x768 .f32 := Host.absf main_arg0
  let main_cst : FVec F S_ .f32 := constant S_ .f32 0x7F800000#32
  let main_v1 : FVec F S4096x768 .f32 := broadcastInDim S4096x768 ![] bcast_S_S4096x768 main_cst
  let main_v2 : IVec S4096x768 1 := cmpf .olt main_v0 main_v1
  let main_c : IVec S_ 1 := constantI S_ 1 1#1
  let main_v3 : IVec S_ 1 := (fun x v => Host.reduce IntOp.andi x v reducesTo_S4096x768_S_d0_1 h_S_) main_v2 main_c
  let main_v4 : FVec F S20000x768 .f32 := Host.absf main_arg1
  let main_cst_0 : FVec F S_ .f32 := constant S_ .f32 0x7F800000#32
  let main_v5 : FVec F S20000x768 .f32 := broadcastInDim S20000x768 ![] bcast_S_S20000x768 main_cst_0
  let main_v6 : IVec S20000x768 1 := cmpf .olt main_v4 main_v5
  let main_c_1 : IVec S_ 1 := constantI S_ 1 1#1
  let main_v7 : IVec S_ 1 := (fun x v => Host.reduce IntOp.andi x v reducesTo_S20000x768_S_d0_1 h_S_) main_v6 main_c_1
  let main_v8 : IVec S_ 1 := andi main_v3 main_v7
  let main_v9 : FVec F S20000x1 .f32 := Host.absf main_arg2
  let main_cst_2 : FVec F S_ .f32 := constant S_ .f32 0x7F800000#32
  let main_v10 : FVec F S20000x1 .f32 := broadcastInDim S20000x1 ![] bcast_S_S20000x1 main_cst_2
  let main_v11 : IVec S20000x1 1 := cmpf .olt main_v9 main_v10
  let main_c_3 : IVec S_ 1 := constantI S_ 1 1#1
  let main_v12 : IVec S_ 1 := (fun x v => Host.reduce IntOp.andi x v reducesTo_S20000x1_S_d0_1 h_S_) main_v11 main_c_3
  let main_v13 : IVec S_ 1 := andi main_v8 main_v12
  let main_v14 : FVec F S512x768 .f32 := Host.absf main_arg3
  let main_cst_4 : FVec F S_ .f32 := constant S_ .f32 0x7F800000#32
  let main_v15 : FVec F S512x768 .f32 := broadcastInDim S512x768 ![] bcast_S_S512x768 main_cst_4
  let main_v16 : IVec S512x768 1 := cmpf .olt main_v14 main_v15
  fn_part1 (F := F) main_arg4 main_arg5 main_arg6 main_v13 main_v16
-- ==== Kernel.lean ====
abbrev S4096x768 : Shape := ⟨2, ![4096, 768]⟩
abbrev S20000x768 : Shape := ⟨2, ![20000, 768]⟩
abbrev S20000x1 : Shape := ⟨2, ![20000, 1]⟩
abbrev S512x768 : Shape := ⟨2, ![512, 768]⟩
abbrev S512 : Shape := ⟨1, ![512]⟩
abbrev S1x1 : Shape := ⟨2, ![1, 1]⟩
abbrev S1 : Shape := ⟨1, ![1]⟩
abbrev S1x512 : Shape := ⟨2, ![1, 512]⟩
abbrev S4096x512 : Shape := ⟨2, ![4096, 512]⟩
abbrev S512x512 : Shape := ⟨2, ![512, 512]⟩
abbrev S512x1 : Shape := ⟨2, ![512, 1]⟩
abbrev S_ : Shape := ⟨0, ![]⟩
abbrev S20480x768 : Shape := ⟨2, ![20480, 768]⟩
abbrev S20480x512 : Shape := ⟨2, ![20480, 512]⟩
abbrev S2048x768 : Shape := ⟨2, ![2048, 768]⟩
abbrev S2048x512 : Shape := ⟨2, ![2048, 512]⟩
abbrev S2048 : Shape := ⟨1, ![2048]⟩
abbrev S2048x1 : Shape := ⟨2, ![2048, 1]⟩
abbrev S20480x1 : Shape := ⟨2, ![20480, 1]⟩
abbrev S20480x128 : Shape := ⟨2, ![20480, 128]⟩
abbrev S20480 : Shape := ⟨1, ![20480]⟩
abbrev S4096x1 : Shape := ⟨2, ![4096, 1]⟩
abbrev S4096x128 : Shape := ⟨2, ![4096, 128]⟩
abbrev S512x128 : Shape := ⟨2, ![512, 128]⟩
abbrev S512x4096 : Shape := ⟨2, ![512, 4096]⟩

abbrev nBuf : Space → Nat
  | .hbm => 37
  | .vmem => 23
  | .smem => 0
  | _ => 0

abbrev bufTy : (tb : Table) → Fin (tcTables nBuf tb) → BufTy
  | .hbm, ⟨0, _⟩ => ⟨S4096x768, .f32⟩
  | .hbm, ⟨1, _⟩ => ⟨S20000x768, .f32⟩
  | .hbm, ⟨2, _⟩ => ⟨S20000x1, .f32⟩
  | .hbm, ⟨3, _⟩ => ⟨S512x768, .f32⟩
  | .hbm, ⟨4, _⟩ => ⟨S512, .f32⟩
  | .hbm, ⟨5, _⟩ => ⟨S1x1, .f32⟩
  | .hbm, ⟨6, _⟩ => ⟨S1, .f32⟩
  | .hbm, ⟨7, _⟩ => ⟨S1x512, .f32⟩
  | .hbm, ⟨8, _⟩ => ⟨S4096x512, .bf16⟩
  | .hbm, ⟨9, _⟩ => ⟨S_, .i32⟩
  | .hbm, ⟨10, _⟩ => ⟨S_, .f32⟩
  | .hbm, ⟨11, _⟩ => ⟨S20480x768, .f32⟩
  | .hbm, ⟨12, _⟩ => ⟨S20480x512, .bf16⟩
  | .hbm, ⟨13, _⟩ => ⟨S_, .f32⟩
  | .hbm, ⟨14, _⟩ => ⟨S20000x1, .f32⟩
  | .hbm, ⟨15, _⟩ => ⟨S20000x1, .f32⟩
  | .hbm, ⟨16, _⟩ => ⟨S_, .f32⟩
  | .hbm, ⟨17, _⟩ => ⟨S20000x1, .f32⟩
  | .hbm, ⟨18, _⟩ => ⟨S20000x1, .f32⟩
  | .hbm, ⟨19, _⟩ => ⟨S_, .f32⟩
  | .hbm, ⟨20, _⟩ => ⟨S20000x1, .f32⟩
  | .hbm, ⟨21, _⟩ => ⟨S20000x1, .f32⟩
  | .hbm, ⟨22, _⟩ => ⟨S_, .f32⟩
  | .hbm, ⟨23, _⟩ => ⟨S20000x1, .f32⟩
  | .hbm, ⟨24, _⟩ => ⟨S20000x1, .f32⟩
  | .hbm, ⟨25, _⟩ => ⟨S_, .i32⟩
  | .hbm, ⟨26, _⟩ => ⟨S_, .f32⟩
  | .hbm, ⟨27, _⟩ => ⟨S20480x1, .f32⟩
  | .hbm, ⟨28, _⟩ => ⟨S_, .f32⟩
  | .hbm, ⟨29, _⟩ => ⟨S20480x128, .f32⟩
  | .hbm, ⟨30, _⟩ => ⟨S20480, .f32⟩
  | .hbm, ⟨31, _⟩ => ⟨S_, .i32⟩
  | .hbm, ⟨32, _⟩ => ⟨S1, .i32⟩
  | .hbm, ⟨33, _⟩ => ⟨S20480x128, .f32⟩
  | .hbm, ⟨34, _⟩ => ⟨S20480x128, .bf16⟩
  | .hbm, ⟨35, _⟩ => ⟨S4096x1, .f32⟩
  | .hbm, ⟨36, _⟩ => ⟨S4096x1, .f32⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S1x512, .f32⟩
  | .local _ .vmem, ⟨4, _⟩ => ⟨S512x512, .bf16⟩
  | .local _ .vmem, ⟨5, _⟩ => ⟨S512x512, .bf16⟩
  | .local _ .vmem, ⟨6, _⟩ => ⟨S2048x768, .f32⟩
  | .local _ .vmem, ⟨7, _⟩ => ⟨S2048x768, .f32⟩
  | .local _ .vmem, ⟨8, _⟩ => ⟨S512x768, .f32⟩
  | .local _ .vmem, ⟨9, _⟩ => ⟨S1x512, .f32⟩
  | .local _ .vmem, ⟨10, _⟩ => ⟨S2048x512, .bf16⟩
  | .local _ .vmem, ⟨11, _⟩ => ⟨S2048x512, .bf16⟩
  | .local _ .vmem, ⟨12, _⟩ => ⟨S512x512, .bf16⟩
  | .local _ .vmem, ⟨13, _⟩ => ⟨S512x512, .bf16⟩
  | .local _ .vmem, ⟨14, _⟩ => ⟨S4096x512, .bf16⟩
  | .local _ .vmem, ⟨15, _⟩ => ⟨S4096x512, .bf16⟩
  | .local _ .vmem, ⟨16, _⟩ => ⟨S4096x128, .bf16⟩
  | .local _ .vmem, ⟨17, _⟩ => ⟨S4096x128, .bf16⟩
  | .local _ .vmem, ⟨18, _⟩ => ⟨S512x1, .f32⟩
  | .local _ .vmem, ⟨19, _⟩ => ⟨S512x1, .f32⟩
  | .local _ .vmem, ⟨20, _⟩ => ⟨S512x1, .f32⟩
  | .local _ .vmem, ⟨21, _⟩ => ⟨S512x1, .f32⟩
  | .local _ .vmem, ⟨22, _⟩ => ⟨S512x128, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_call1_v0 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20_0 : Ref sig .tc := ⟨.hbm, 35, rfl⟩
abbrev main_v20_1 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg4_1 : Ref sig .tc := ⟨.vmem, 21, rfl⟩
abbrev cc2_scratch0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc2_sem4_0 : DmaSem sig := 20
abbrev cc2_sem4_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x768 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2048x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![8, 5], ![false, false]⟩

def k2_cond2 (i : grid2.Coords) : BitVec 1 :=
  let arg1 : BitVec 32 := BitVec.ofNat 32 (i 1).val
  let c4_i32 : BitVec 32 := 4#32
  let v19 : BitVec 1 := Scalar.cmpi .eq arg1 c4_i32
  let v20 : BitVec 32 := Scalar.extui v19
  let c0_i32_11 : BitVec 32 := 0#32
  let v21 : BitVec 1 := Scalar.cmpi .ne v20 c0_i32_11
  v21

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S512x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S4096x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S4096x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S512x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S512x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

class Facts₀ : Prop where
  shapeCasts_S512_S1x512 : S512.ShapeCasts S1x512
  inb_S512x768_S512x768_0_0 : ∀ a, (![0, 0] : Fin 2 → Nat) a + S512x768.size a ≤ S512x768.size a
  h_S512x768 : 0 < S512x768.numel
  bitsLt_bf16_f32 : FTy.bits .bf16 < FTy.bits .f32
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  reduces_S512x512_S512 : S512x512.Reduces [1] S512
  shapeCasts_S512_S512x1 : S512.ShapeCasts S512x1
  broadcasts_S512x1_S512x512 : S512x1.Broadcasts S512x512
  inb_S512x512_S512x512_0_0 : ∀ a, (![0, 0] : Fin 2 → Nat) a + S512x512.size a ≤ S512x512.size a
  h_S512x512 : 0 < S512x512.numel
  packedbf16_S512x512_S512x512_0_0 : (Rect.unit (s := S512x512) ![0, 0] S512x512.size inb_S512x512_S512x512_0_0).PackedRows (EltTy.packing .bf16)
  pads_S20000x768_S20480x768_04800_000 : S20000x768.Pads (![0, 0] : Fin 2 → Nat) ![480, 0] ![0, 0] S20480x768
  h_S_ : 0 < S_.numel
  inb_S2048x768_S2048x768_0_0 : ∀ a, (![0, 0] : Fin 2 → Nat) a + S2048x768.size a ≤ S2048x768.size a
  h_S2048x768 : 0 < S2048x768.numel
  shapeCasts_S2048x768_S2048x768 : S2048x768.ShapeCasts S2048x768
  broadcasts_S1x512_S2048x512 : S1x512.Broadcasts S2048x512
  reduces_S2048x512_S2048 : S2048x512.Reduces [1] S2048
  shapeCasts_S2048_S2048x1 : S2048.ShapeCasts S2048x1
  broadcasts_S2048x1_S2048x512 : S2048x1.Broadcasts S2048x512
  inb_S2048x512_S2048x512_0_0 : ∀ a, (![0, 0] : Fin 2 → Nat) a + S2048x512.size a ≤ S2048x512.size a
  h_S2048x512 : 0 < S2048x512.numel
  packedbf16_S2048x512_S2048x512_0_0 : (Rect.unit (s := S2048x512) ![0, 0] S2048x512.size inb_S2048x512_S2048x512_0_0).PackedRows (EltTy.packing .bf16)
  bcast_S_S20000x1 : S_.BroadcastsInDim S20000x1 (![] : Fin 0 → Fin S20000x1.rank)
  shapeCasts_S1x1_S_ : S1x1.ShapeCasts S_
  shapeCasts_S1_S_ : S1.ShapeCasts S_
  pads_S20000x1_S20480x1_04800_000 : S20000x1.Pads (![0, 0] : Fin 2 → Nat) ![480, 0] ![0, 0] S20480x1
  bcast_S_S20480x128 : S_.BroadcastsInDim S20480x128 (![] : Fin 0 → Fin S20480x128.rank)
  shapeCasts_S20480x1_S20480 : S20480x1.ShapeCasts S20480
  bcast_S_S1 : S_.BroadcastsInDim S1 (![] : Fin 0 → Fin S1.rank)
  inb_S512x128_S512x128_0_0 : ∀ a, (![0, 0] : Fin 2 → Nat) a + S512x128.size a ≤ S512x128.size a
  h_S512x128 : 0 < S512x128.numel
  shapeCasts_S512x128_S512x128 : S512x128.ShapeCasts S512x128
  shapeCasts_S512x512_S512x512 : S512x512.ShapeCasts S512x512
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S512x128_S512x1_0_0 : ∀ a, (![0, 0] : Fin 2 → Nat) a + S512x1.size a ≤ S512x128.size a
  h_S512x1 : 0 < S512x1.numel
  inb_S512x1_S512x1_0_0 : ∀ a, (![0, 0] : Fin 2 → Nat) a + S512x1.size a ≤ S512x1.size a
  dot_S512x768_S512x768_S512x512_1_1_0_0_n_n_wf : DotDims.WF S512x768 S512x768 S512x512 [1] [1] [0] [0] [] []
  dot_S2048x768_S512x768_S2048x512_1_1_0_0_n_n_wf : DotDims.WF S2048x768 S512x768 S2048x512 [1] [1] [0] [0] [] []
  scatter_S20480x128_S1_S20480_0_1_1_0_wf : ScatterDims.WF S20480x128 S1 S20480 [0] [1] [1] 0
  dot_S512x512_S4096x512_S512x4096_1_1_0_0_n_n_wf : DotDims.WF S512x512 S4096x512 S512x4096 [1] [1] [0] [0] [] []
  dot_S512x4096_S4096x128_S512x128_1_0_0_1_n_n_wf : DotDims.WF S512x4096 S4096x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x768.size a ≤ S4096x768.size a
  hwx0_0 : ∀ i : grid0.Coords, EltTy.bits .f32 = 32 ∨ (Rect.block (s := S4096x768) S512x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x768.size a ≤ S512x768.size a
  hwx0_1 : ∀ i : grid0.Coords, EltTy.bits .f32 = 32 ∨ (Rect.block (s := S512x768) S512x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S4096x512.size a
  hwx0_3 : ∀ i : grid0.Coords, EltTy.bits .bf16 = 32 ∨ (Rect.block (s := S4096x512) S512x512.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x768.size a ≤ S20480x768.size a
  hwx1_0 : ∀ i : grid1.Coords, EltTy.bits .f32 = 32 ∨ (Rect.block (s := S20480x768) S2048x768.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x768.size a ≤ S512x768.size a
  hwx1_1 : ∀ i : grid1.Coords, EltTy.bits .f32 = 32 ∨ (Rect.block (s := S512x768) S512x768.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x512.size a ≤ S20480x512.size a
  hwx1_3 : ∀ i : grid1.Coords, EltTy.bits .bf16 = 32 ∨ (Rect.block (s := S20480x512) S2048x512.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x512.size a ≤ S4096x512.size a
  hwx2_0 : ∀ i : grid2.Coords, EltTy.bits .bf16 = 32 ∨ (Rect.block (s := S4096x512) S512x512.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x512.size a ≤ S20480x512.size a
  hwx2_1 : ∀ i : grid2.Coords, EltTy.bits .bf16 = 32 ∨ (Rect.block (s := S20480x512) S4096x512.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4096x128.size a ≤ S20480x128.size a
  hwx2_2 : ∀ i : grid2.Coords, EltTy.bits .bf16 = 32 ∨ (Rect.block (s := S20480x128) S4096x128.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1.size a ≤ S4096x1.size a
  hwx2_3 : ∀ i : grid2.Coords, EltTy.bits .f32 = 32 ∨ (Rect.block (s := S4096x1) S512x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S512x1.size a ≤ S4096x1.size a
  hwx2_4 : ∀ i : grid2.Coords, EltTy.bits .f32 = 32 ∨ (Rect.block (s := S4096x1) S512x1.size (cc2_transform_4 i) (hinb2_4 i)).WholeWords (EltTy.packing .f32)

variable [Facts₀]

def dot_S512x768_S512x768_S512x512_1_1_0_0_n_n : DotDims S512x768 S512x768 S512x512 where
  lhsContracting := [1]
  rhsContracting := [1]
  lhsNonContracting := [0]
  rhsNonContracting := [0]
  lhsBatch := []
  rhsBatch := []
  wf := dot_S512x768_S512x768_S512x512_1_1_0_0_n_n_wf
def dot_S2048x768_S512x768_S2048x512_1_1_0_0_n_n : DotDims S2048x768 S512x768 S2048x512 where
  lhsContracting := [1]
  rhsContracting := [1]
  lhsNonContracting := [0]
  rhsNonContracting := [0]
  lhsBatch := []
  rhsBatch := []
  wf := dot_S2048x768_S512x768_S2048x512_1_1_0_0_n_n_wf
def scatter_S20480x128_S1_S20480_0_1_1_0 : ScatterDims S20480x128 S1 S20480 where
  updateWindowDims := [0]
  insertedWindowDims := [1]
  scatterDimsToOperandDims := [1]
  indexVectorDim := 0
  wf := scatter_S20480x128_S1_S20480_0_1_1_0_wf
def dot_S512x512_S4096x512_S512x4096_1_1_0_0_n_n : DotDims S512x512 S4096x512 S512x4096 where
  lhsContracting := [1]
  rhsContracting := [1]
  lhsNonContracting := [0]
  rhsNonContracting := [0]
  lhsBatch := []
  rhsBatch := []
  wf := dot_S512x512_S4096x512_S512x4096_1_1_0_0_n_n_wf
def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf

abbrev win0_0 : Pipeline.Window sig grid0 :=
  Pipeline.Window.ofSpec (Memref.whole main_arg0) S512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v2) S2048x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S512x768.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S2048x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v1) S512x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S4096x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v19) S4096x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v20_0) S512x1.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v20_1) S512x1.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun i => !(k2_cond2 i == 1#1) | 4 => fun i => !(k2_cond2 i == 1#1) | ⟨_ + 5, h⟩ => absurd h (Nat.not_lt.2 (Nat.le_add_left _ _))

class Facts : Prop extends Facts₀ where

variable [Facts]
-- ==== ReferenceIdeal.lean ====
abbrev S4096x768 : Shape := ⟨2, ![4096, 768]⟩
abbrev S20000x768 : Shape := ⟨2, ![20000, 768]⟩
abbrev S20000x1 : Shape := ⟨2, ![20000, 1]⟩
abbrev S512x768 : Shape := ⟨2, ![512, 768]⟩
abbrev S512 : Shape := ⟨1, ![512]⟩
abbrev S1x1 : Shape := ⟨2, ![1, 1]⟩
abbrev S1 : Shape := ⟨1, ![1]⟩
abbrev S_ : Shape := ⟨0, ![]⟩
abbrev S768x512 : Shape := ⟨2, ![768, 512]⟩
abbrev S4096x512 : Shape := ⟨2, ![4096, 512]⟩
abbrev S1x512 : Shape := ⟨2, ![1, 512]⟩
abbrev S20000x512 : Shape := ⟨2, ![20000, 512]⟩
abbrev S4096 : Shape := ⟨1, ![4096]⟩
abbrev S4096x1 : Shape := ⟨2, ![4096, 1]⟩
abbrev S20000 : Shape := ⟨1, ![20000]⟩
abbrev S512x20000 : Shape := ⟨2, ![512, 20000]⟩
abbrev S4096x20000 : Shape := ⟨2, ![4096, 20000]⟩

abbrev nBuf : Space → Nat
  | .hbm => 65
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S20000x768, .f32⟩
  | .hbm, ⟨2, _⟩ => ⟨S20000x1, .f32⟩
  | .hbm, ⟨3, _⟩ => ⟨S512x768, .f32⟩
  | .hbm, ⟨4, _⟩ => ⟨S512, .f32⟩
  | .hbm, ⟨5, _⟩ => ⟨S1x1, .f32⟩
  | .hbm, ⟨6, _⟩ => ⟨S1, .f32⟩
  | .hbm, ⟨7, _⟩ => ⟨S_, .f32⟩
  | .hbm, ⟨8, _⟩ => ⟨S20000x1, .f32⟩
  | .hbm, ⟨9, _⟩ => ⟨S20000x1, .f32⟩
  | .hbm, ⟨10, _⟩ => ⟨S_, .f32⟩
  | .hbm, ⟨11, _⟩ => ⟨S20000x1, .f32⟩
  | .hbm, ⟨12, _⟩ => ⟨S20000x1, .f32⟩
  | .hbm, ⟨13, _⟩ => ⟨S768x512, .f32⟩
  | .hbm, ⟨14, _⟩ => ⟨S4096x512, .f32⟩
  | .hbm, ⟨15, _⟩ => ⟨S1x512, .f32⟩
  | .hbm, ⟨16, _⟩ => ⟨S4096x512, .f32⟩
  | .hbm, ⟨17, _⟩ => ⟨S4096x512, .f32⟩
  | .hbm, ⟨18, _⟩ => ⟨S768x512, .f32⟩
  | .hbm, ⟨19, _⟩ => ⟨S20000x512, .f32⟩
  | .hbm, ⟨20, _⟩ => ⟨S1x512, .f32⟩
  | .hbm, ⟨21, _⟩ => ⟨S20000x512, .f32⟩
  | .hbm, ⟨22, _⟩ => ⟨S20000x512, .f32⟩
  | .hbm, ⟨23, _⟩ => ⟨S1x1, .f32⟩
  | .hbm, ⟨24, _⟩ => ⟨S20000x1, .f32⟩
  | .hbm, ⟨25, _⟩ => ⟨S1x1, .f32⟩
  | .hbm, ⟨26, _⟩ => ⟨S20000x1, .f32⟩
  | .hbm, ⟨27, _⟩ => ⟨S20000x1, .f32⟩
  | .hbm, ⟨28, _⟩ => ⟨S4096x512, .f32⟩
  | .hbm, ⟨29, _⟩ => ⟨S_, .f32⟩
  | .hbm, ⟨30, _⟩ => ⟨S4096, .f32⟩
  | .hbm, ⟨31, _⟩ => ⟨S4096x1, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x512, .f32⟩
  | .hbm, ⟨37, _⟩ => ⟨S4096x512, .f32⟩
  | .hbm, ⟨38, _⟩ => ⟨S20000x512, .f32⟩
  | .hbm, ⟨39, _⟩ => ⟨S_, .f32⟩
  | .hbm, ⟨40, _⟩ => ⟨S20000, .f32⟩
  | .hbm, ⟨41, _⟩ => ⟨S20000x1, .f32⟩
  | .hbm, ⟨42, _⟩ => ⟨S20000x1, .f32⟩
  | .hbm, ⟨43, _⟩ => ⟨S_, .f32⟩
  | .hbm, ⟨44, _⟩ => ⟨S20000x1, .f32⟩
  | .hbm, ⟨45, _⟩ => ⟨S20000x1, .f32⟩
  | .hbm, ⟨46, _⟩ => ⟨S20000x512, .f32⟩
  | .hbm, ⟨47, _⟩ => ⟨S20000x512, .f32⟩
  | .hbm, ⟨48, _⟩ => ⟨S512x20000, .f32⟩
  | .hbm, ⟨49, _⟩ => ⟨S4096x20000, .f32⟩
  | .hbm, ⟨50, _⟩ => ⟨S4096x20000, .f32⟩
  | .hbm, ⟨51, _⟩ => ⟨S4096x20000, .f32⟩
  | .hbm, ⟨52, _⟩ => ⟨S_, .f32⟩
  | .hbm, ⟨53, _⟩ => ⟨S4096x20000, .f32⟩
  | .hbm, ⟨54, _⟩ => ⟨S4096x20000, .f32⟩
  | .hbm, ⟨55, _⟩ => ⟨S4096x20000, .f32⟩
  | .hbm, ⟨56, _⟩ => ⟨S4096x1, .f32⟩
  | .hbm, ⟨57, _⟩ => ⟨S4096x1, .f32⟩
  | .hbm, ⟨58, _⟩ => ⟨S4096x1, .f32⟩
  | .hbm, ⟨59, _⟩ => ⟨S_, .f32⟩
  | .hbm, ⟨60, _⟩ => ⟨S4096x1, .f32⟩
  | .hbm, ⟨61, _⟩ => ⟨S4096x1, .f32⟩
  | .hbm, ⟨62, _⟩ => ⟨S_, .f32⟩
  | .hbm, ⟨63, _⟩ => ⟨S4096x1, .f32⟩
  | .hbm, ⟨64, _⟩ => ⟨S4096x1, .f32⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_5 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_6 : Ref sig .tc := ⟨.hbm, 59, rfl⟩
abbrev main_v45 : Ref sig .tc := ⟨.hbm, 60, rfl⟩
abbrev main_v46 : Ref sig .tc := ⟨.hbm, 61, rfl⟩
abbrev main_cst_7 : Ref sig .tc := ⟨.hbm, 62, rfl⟩
abbrev main_v47 : Ref sig .tc := ⟨.hbm, 63, rfl⟩
abbrev main_v48 : Ref sig .tc := ⟨.hbm, 64, rfl⟩

abbrev nD : Nat := 1
abbrev τ : Topo := Topo.v7x

variable {F : FTy → Type} [FloatOps F]

class Facts₀ : Prop where
  bcast_S_S20000x1 : S_.BroadcastsInDim S20000x1 (![] : Fin 0 → Fin S20000x1.rank)
  transposes_S512x768_S768x512_1_0 : S512x768.Transposes [1, 0] S768x512
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  bcast_S1x512_S20000x512_0_1 : S1x512.BroadcastsInDim S20000x512 (![0, 1] : Fin 2 → Fin S20000x512.rank)
  transposes_S1x1_S1x1_1_0 : S1x1.Transposes [1, 0] S1x1
  bcast_S1_S1x1_1 : S1.BroadcastsInDim S1x1 (![1] : Fin 1 → Fin S1x1.rank)
  bcast_S1x1_S20000x1_0_1 : S1x1.BroadcastsInDim S20000x1 (![0, 1] : Fin 2 → Fin S20000x1.rank)
  reducesTo_S4096x512_S4096_d1 : S4096x512.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x512_0_1 : S4096x1.BroadcastsInDim S4096x512 (![0, 1] : Fin 2 → Fin S4096x512.rank)
  reducesTo_S20000x512_S20000_d1 : S20000x512.ReducesTo [1] S20000
  bcast_S20000_S20000x1_0 : S20000.BroadcastsInDim S20000x1 (![0] : Fin 1 → Fin S20000x1.rank)
  bcast_S20000x1_S20000x512_0_1 : S20000x1.BroadcastsInDim S20000x512 (![0, 1] : Fin 2 → Fin S20000x512.rank)
  transposes_S20000x512_S512x20000_1_0 : S20000x512.Transposes [1, 0] S512x20000
  bcast_S_S4096x20000 : S_.BroadcastsInDim S4096x20000 (![] : Fin 0 → Fin S4096x20000.rank)
  dot_S4096x768_S768x512_S4096x512_1_0_0_1_n_n_wf : DotDims.WF S4096x768 S768x512 S4096x512 [1] [0] [0] [1] [] []
  dot_S20000x768_S768x512_S20000x512_1_0_0_1_n_n_wf : DotDims.WF S20000x768 S768x512 S20000x512 [1] [0] [0] [1] [] []
  dot_S20000x1_S1x1_S20000x1_1_0_0_1_n_n_wf : DotDims.WF S20000x1 S1x1 S20000x1 [1] [0] [0] [1] [] []
  dot_S4096x512_S512x20000_S4096x20000_1_0_0_1_n_n_wf : DotDims.WF S4096x512 S512x20000 S4096x20000 [1] [0] [0] [1] [] []
  dot_S4096x20000_S20000x1_S4096x1_1_0_0_1_n_n_wf : DotDims.WF S4096x20000 S20000x1 S4096x1 [1] [0] [0] [1] [] []

variable [Facts₀]

def dot_S4096x768_S768x512_S4096x512_1_0_0_1_n_n : DotDims S4096x768 S768x512 S4096x512 where
  lhsContracting := [1]
  rhsContracting := [0]
  lhsNonContracting := [0]
  rhsNonContracting := [1]
  lhsBatch := []
  rhsBatch := []
  wf := dot_S4096x768_S768x512_S4096x512_1_0_0_1_n_n_wf
def dot_S20000x768_S768x512_S20000x512_1_0_0_1_n_n : DotDims S20000x768 S768x512 S20000x512 where
  lhsContracting := [1]
  rhsContracting := [0]
  lhsNonContracting := [0]
  rhsNonContracting := [1]
  lhsBatch := []
  rhsBatch := []
  wf := dot_S20000x768_S768x512_S20000x512_1_0_0_1_n_n_wf
def dot_S20000x1_S1x1_S20000x1_1_0_0_1_n_n : DotDims S20000x1 S1x1 S20000x1 where
  lhsContracting := [1]
  rhsContracting := [0]
  lhsNonContracting := [0]
  rhsNonContracting := [1]
  lhsBatch := []
  rhsBatch := []
  wf := dot_S20000x1_S1x1_S20000x1_1_0_0_1_n_n_wf
def dot_S4096x512_S512x20000_S4096x20000_1_0_0_1_n_n : DotDims S4096x512 S512x20000 S4096x20000 where
  lhsContracting := [1]
  rhsContracting := [0]
  lhsNonContracting := [0]
  rhsNonContracting := [1]
  lhsBatch := []
  rhsBatch := []
  wf := dot_S4096x512_S512x20000_S4096x20000_1_0_0_1_n_n_wf
def dot_S4096x20000_S20000x1_S4096x1_1_0_0_1_n_n : DotDims S4096x20000 S20000x1 S4096x1 where
  lhsContracting := [1]
  rhsContracting := [0]
  lhsNonContracting := [0]
  rhsNonContracting := [1]
  lhsBatch := []
  rhsBatch := []
  wf := dot_S4096x20000_S20000x1_S4096x1_1_0_0_1_n_n_wf

class Facts : Prop extends Facts₀ where

variable [Facts]
-- ==== Proof.KKEmbed0.lean ====
import proofs.«171527_j60000693125637_2_alg».proof.Proof.Gen.Kernel.Launch
import proofs.«171527_j60000693125637_2_alg».proof.Proof.Gen.Kernel.Skeleton
import proofs.«171527_j60000693125637_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! Region 0: the row-embedding kernel on blocks of 512 rows, at the contents `V` the region is entered with.
    A block of the output is the normalised linear image of the same block of rows; the weight matrix and the bias
    are read whole at every point. -/

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The body's accesses: every load and the store take a whole block. -/
abbrev r0_x : Rect S512x768 := Rect.unit (s := S512x768) ![0, 0] S512x768.size inb_S512x768_S512x768_0_0
abbrev r0_w : Rect S512x768 := Rect.unit (s := S512x768) ![0, 0] S512x768.size inb_S512x768_S512x768_0_0
abbrev r0_b : Rect S1x512 := Rect.unit (s := S1x512) ![0, 0] S1x512.size inb_S1x512_S1x512_0_0
abbrev r0_o : Rect S512x512 := Rect.unit (s := S512x512) ![0, 0] S512x512.size inb_S512x512_S512x512_0_0

/-- What the body leaves in the output window's buffer: its one store, over the three input blocks. -/
def out0_3 (x0 : Vec F S512x768 .f32) (x1 : Vec F S512x768 .f32) (x2 : Vec F S1x512 .f32) : Vec F S512x512 .bf16 :=
  View.canon [⟨r0_o, k0_pay1 (View.ld x0 r0_x) (View.ld x1 r0_w) (View.ld x2 r0_b)⟩]

/-- The one store covers the buffer. -/
theorem cover0_3 (p0 : Vec F S512x512 .bf16) (y : S512x512.Idx) :
    ∃ pc ∈ ([⟨r0_o, p0⟩] : List (View.Piece (Elt F) S512x512 .bf16)), y ∈ pc.1.set :=
  View.cover_of_tiled [⟨r0_o, p0⟩] S512x512.size (by rfl) y

set_option maxHeartbeats 1000000 in
/-- The body on whole staging buffers, the inputs' at read contents and the output's at anything, runs to the
    continuation with the inputs' as they were and the output's at `out0_3` of them. -/
theorem sound_kernel0 (c : Dev nD) (E : Set ℕ) (i : grid0.Coords) (arg1 : Memref sig .tc .vmem S512x768 .f32) (harg1 : arg1.IsWhole) (arg2 : Memref sig .tc .vmem S512x768 .f32) (harg2 : arg2.IsWhole) (arg3 : Memref sig .tc .vmem S1x512 .f32) (harg3 : arg3.IsWhole) (arg4 : Memref sig .tc .vmem S512x512 .bf16) (harg4 : arg4.IsWhole)
    (x0 : Vec F S512x768 .f32) (x1 : Vec F S512x768 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__embed_kernel i arg1 harg1 arg2 harg2 arg3 harg3 arg4 harg4) K := by
  simp only [cc0__embed_kernel_eq_skeleton]; unfold cc0__embed_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of the region on core `c`: the arrays as the region finds them; after the body each input's
    buffer at its block and the output's at `out0_3` of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end

end Cert.Kernel.Hand

end
-- ==== Proof.KKEmbed1.lean ====
import proofs.«171527_j60000693125637_2_alg».proof.Proof.Gen.Kernel.Launch
import proofs.«171527_j60000693125637_2_alg».proof.Proof.Gen.Kernel.Skeleton
import proofs.«171527_j60000693125637_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! Region 1: the row-embedding kernel on blocks of 2048 rows, at the contents `V` the region is entered with.
    A block of the output is the normalised linear image of the same block of rows; the weight matrix and the bias
    are read whole at every point. -/

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The body's accesses: every load and the store take a whole block. -/
abbrev r1_x : Rect S2048x768 := Rect.unit (s := S2048x768) ![0, 0] S2048x768.size inb_S2048x768_S2048x768_0_0
abbrev r1_w : Rect S512x768 := Rect.unit (s := S512x768) ![0, 0] S512x768.size inb_S512x768_S512x768_0_0
abbrev r1_b : Rect S1x512 := Rect.unit (s := S1x512) ![0, 0] S1x512.size inb_S1x512_S1x512_0_0
abbrev r1_o : Rect S2048x512 := Rect.unit (s := S2048x512) ![0, 0] S2048x512.size inb_S2048x512_S2048x512_0_0

/-- What the body leaves in the output window's buffer: its one store, over the three input blocks. -/
def out1_3 (x0 : Vec F S2048x768 .f32) (x1 : Vec F S512x768 .f32) (x2 : Vec F S1x512 .f32) : Vec F S2048x512 .bf16 :=
  View.canon [⟨r1_o, k1_pay1 (View.ld x0 r1_x) (View.ld x1 r1_w) (View.ld x2 r1_b)⟩]

/-- The one store covers the buffer. -/
theorem cover1_3 (p0 : Vec F S2048x512 .bf16) (y : S2048x512.Idx) :
    ∃ pc ∈ ([⟨r1_o, p0⟩] : List (View.Piece (Elt F) S2048x512 .bf16)), y ∈ pc.1.set :=
  View.cover_of_tiled [⟨r1_o, p0⟩] S2048x512.size (by rfl) y

set_option maxHeartbeats 1000000 in
/-- The body on whole staging buffers, the inputs' at read contents and the output's at anything, runs to the
    continuation with the inputs' as they were and the output's at `out1_3` of them. -/
theorem sound_kernel1 (c : Dev nD) (E : Set ℕ) (i : grid1.Coords) (arg1 : Memref sig .tc .vmem S2048x768 .f32) (harg1 : arg1.IsWhole) (arg2 : Memref sig .tc .vmem S512x768 .f32) (harg2 : arg2.IsWhole) (arg3 : Memref sig .tc .vmem S1x512 .f32) (harg3 : arg3.IsWhole) (arg4 : Memref sig .tc .vmem S2048x512 .bf16) (harg4 : arg4.IsWhole)
    (x0 : Vec F S2048x768 .f32) (x1 : Vec F S512x768 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__embed_kernel i arg1 harg1 arg2 harg2 arg3 harg3 arg4 harg4) K := by
  simp only [cc1__embed_kernel_eq_skeleton]; unfold cc1__embed_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of the region on core `c`: the arrays as the region finds them; after the body each input's
    buffer at its block and the output's at `out1_3` of the input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the triple applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end

end Cert.Kernel.Hand

end
-- ==== Proof.KKRetShared.lean ====
import proofs.«171527_j60000693125637_2_alg».proof.Proof.Gen.Kernel.Launch
import proofs.«171527_j60000693125637_2_alg».proof.Proof.Gen.Kernel.Skeleton
import proofs.«171527_j60000693125637_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! Region 2: the retrieval kernel on the grid of 8 query blocks by 5 exemplar blocks. What its three control cases
    share: the two branch conditions in closed form, where the two output windows are idle, the staging and
    scratch buffers by name, and the region's invariant split into the other regions' staging buffers, the
    accumulator and the generator register. -/

/-- The first branch (reset the accumulator) is taken exactly at the first exemplar block of a query block. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 5 = 0 :=
  (by decide +kernel : ∀ t : Fin grid2.N, cond2_0 (grid2.coords t) ↔ t.val % 5 = 0)

/-- The second branch (write the two results) is taken exactly at the last exemplar block. -/
abbrev cond2_1 (i : grid2.Coords) : Prop := k2_cond2 i = 1#1
theorem hcond2_1 : ∀ t : Fin cfg2.N, cond2_1 (grid2.coords t) ↔ t.val % 5 = 4 :=
  (by decide +kernel : ∀ t : Fin grid2.N, cond2_1 (grid2.coords t) ↔ t.val % 5 = 4)

/-- The input windows are never idle; an output window is idle, and not written back, away from the last exemplar block. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel
theorem liveAt2_3 : ∀ t : Fin cfg2.N, cond2_1 (grid2.coords t) → cfg2.idle 3 (grid2.coords t) = false := by decide +kernel
theorem idleAt2_4 : ∀ t : Fin cfg2.N, ¬cond2_1 (grid2.coords t) → cfg2.idle 4 (grid2.coords t) = true := by decide +kernel
theorem noFlush2_4 : ∀ t : Fin cfg2.N, ¬cond2_1 (grid2.coords t) → (cfg2.win 4).flush t = false := by decide +kernel
theorem liveAt2_4 : ∀ t : Fin cfg2.N, cond2_1 (grid2.coords t) → cfg2.idle 4 (grid2.coords t) = false := by decide +kernel

/-- Each window's current staging buffer at point `t`, and its wholeness. -/
abbrev ms2_0 (t : Fin cfg2.N) : Memref sig .tc .vmem S512x512 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S4096x512 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S4096x128 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S512x1 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S512x1 .f32 := win2_4.stage (cfg2.slots t 4)
abbrev hs2_4 (t : Fin cfg2.N) : (ms2_4 t).IsWhole := hstage2_4 ((cfg2.slots t 4).cast nbuf2_4)
/-- The accumulator: a whole scoped buffer of the kernel's own. -/
abbrev scM2_0 : Memref sig .tc .vmem S512x128 .f32 := Memref.whole cc2_scratch0
abbrev VS2_0 : View sig .tc .vmem S512x128 .f32 := scM2_0.view
/-- One staging buffer of each output window, through which its contents are stated. -/
abbrev VO2_3 : View sig .tc .vmem S512x1 .f32 := (Memref.whole cc2_stg3_0 : Memref sig .tc .vmem S512x1 .f32).view
abbrev VO2_4 : View sig .tc .vmem S512x1 .f32 := (Memref.whole cc2_stg4_0 : Memref sig .tc .vmem S512x1 .f32).view

/-- A scoped buffer held whole at some contents. -/
abbrev anyBuf (c : Dev nD) (r : Ref sig .tc) : sProp 𝕄 :=
  iprop(∃ f : Buf (Elt F) ((c : Thread nD τ).loc r), ((c : Thread nD τ).loc r) ↦{fullShare} f)

/-- The other two regions' staging buffers, each at some contents: what this region never touches. -/
def others2 (c : Dev nD) : sProp 𝕄 :=
  iprop(anyBuf (F := F) c cc0_stg0_0 ∗ anyBuf (F := F) c cc0_stg0_1 ∗ anyBuf (F := F) c cc0_stg1_0 ∗ anyBuf (F := F) c cc0_stg2_0 ∗ anyBuf (F := F) c cc0_stg3_0 ∗ anyBuf (F := F) c cc0_stg3_1 ∗ anyBuf (F := F) c cc1_stg0_0 ∗ anyBuf (F := F) c cc1_stg0_1 ∗ anyBuf (F := F) c cc1_stg1_0 ∗ anyBuf (F := F) c cc1_stg2_0 ∗ anyBuf (F := F) c cc1_stg3_0 ∗ anyBuf (F := F) c cc1_stg3_1)

theorem scr_any (c : Dev nD) : (iprop(∃ d, owns (c : Thread nD τ) scM2_0 fullShare d) : sProp 𝕄) = anyBuf (F := F) c cc2_scratch0 := by
  simp only [scM2_0, owns_whole]; rfl

/-- The class's invariant hands over the other regions' staging buffers, the accumulator at some contents and the
    generator register, -/
theorem PhiA2_in (c : Dev nD) :
    (Pipeline.ΦA spec2 c : sProp 𝕄) ⊢ iprop(others2 (F := F) c ∗ (∃ d, owns (c : Thread nD τ) scM2_0 fullShare d) ∗ (∃ r, prngReg c r)) := by
  unfold Pipeline.ΦA; rw [scopedRest2_eq, scr_any]; unfold others2
  iintro ⟨⟨R1, R2, R3, R4, R5, R6, R7, R8, R9, R10, R11, R12, HS⟩, Hg⟩
  isplitl [R1 R2 R3 R4 R5 R6 R7 R8 R9 R10 R11 R12]
  · isplitl [R1]; · iexact R1
    · isplitl [R2]; · iexact R2
      · isplitl [R3]; · iexact R3
        · isplitl [R4]; · iexact R4
          · isplitl [R5]; · iexact R5
            · isplitl [R6]; · iexact R6
              · isplitl [R7]; · iexact R7
                · isplitl [R8]; · iexact R8
                  · isplitl [R9]; · iexact R9
                    · isplitl [R10]; · iexact R10
                      · isplitl [R11]; · iexact R11
                        iexact R12
  isplitl [HS]; · iexact HS
  iexact Hg

/-- and takes them back. -/
theorem PhiA2_out (c : Dev nD) :
    iprop(others2 (F := F) c ∗ (∃ d, owns (c : Thread nD τ) scM2_0 fullShare d) ∗ (∃ r, prngReg c r)) ⊢ (Pipeline.ΦA spec2 c : sProp 𝕄) := by
  unfold Pipeline.ΦA; rw [scopedRest2_eq, scr_any]; unfold others2
  iintro ⟨⟨R1, R2, R3, R4, R5, R6, R7, R8, R9, R10, R11, R12⟩, HS, Hg⟩
  isplitl [R1 R2 R3 R4 R5 R6 R7 R8 R9 R10 R11 R12 HS]
  · isplitl [R1]; · iexact R1
    · isplitl [R2]; · iexact R2
      · isplitl [R3]; · iexact R3
        · isplitl [R4]; · iexact R4
          · isplitl [R5]; · iexact R5
            · isplitl [R6]; · iexact R6
              · isplitl [R7]; · iexact R7
                · isplitl [R8]; · iexact R8
                  · isplitl [R9]; · iexact R9
                    · isplitl [R10]; · iexact R10
                      · isplitl [R11]; · iexact R11
                        · isplitl [R12]; · iexact R12
                          iexact HS
  iexact Hg

end Cert.Kernel.Hand

end
-- ==== Proof.KKRetRuns.lean ====
import proofs.«171527_j60000693125637_2_alg».proof.Proof.KKRetShared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! Region 2's body, run whole in each of its three control cases. What the stores leave in a buffer is kept as the
    list of stored pieces (last first) that the run meets; the next module reads them back. -/

-- CASE A: the first exemplar block of a query block. The accumulator is reset to zero and the block's term added;
-- the two result windows are not touched.
set_option maxHeartbeats 2000000 in
noncomputable def kernelRun2_A (c : Dev nD) (i : grid2.Coords) (arg2 : Memref sig .tc .vmem S512x512 .bf16) (harg2 : arg2.IsWhole) (arg3 : Memref sig .tc .vmem S4096x512 .bf16) (harg3 : arg3.IsWhole) (arg4 : Memref sig .tc .vmem S4096x128 .bf16) (harg4 : arg4.IsWhole) (arg5 : Memref sig .tc .vmem S512x1 .f32) (harg5 : arg5.IsWhole) (arg6 : Memref sig .tc .vmem S512x1 .f32) (harg6 : arg6.IsWhole) (arg7 : Memref sig .tc .vmem S512x128 .f32) (harg7 : arg7.IsWhole) (hc0 : cond2_0 i) (hc1 : ¬cond2_1 i)
    (x0 : Vec F S512x512 .bf16) (x1 : Vec F S4096x512 .bf16) (x2 : Vec F S4096x128 .bf16) :
    { LS0 : List (View.Piece (Elt F) S512x128 .f32) //
      ∀ (xi3 xi4 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc2__retrieve_kernel i arg2 harg2 arg3 harg3 arg4 harg4 arg5 harg5 arg6 harg6 arg7 harg7) K } := by
  refine ⟨?_, fun xi3 xi4 E K => ?run⟩
  case run =>
    simp only [cc2__retrieve_kernel_eq_skeleton]; unfold cc2__retrieve_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

-- CASE B: a middle exemplar block. The block's term is added to the accumulator the point before left.
set_option maxHeartbeats 2000000 in
noncomputable def kernelRun2_B (c : Dev nD) (i : grid2.Coords) (arg2 : Memref sig .tc .vmem S512x512 .bf16) (harg2 : arg2.IsWhole) (arg3 : Memref sig .tc .vmem S4096x512 .bf16) (harg3 : arg3.IsWhole) (arg4 : Memref sig .tc .vmem S4096x128 .bf16) (harg4 : arg4.IsWhole) (arg5 : Memref sig .tc .vmem S512x1 .f32) (harg5 : arg5.IsWhole) (arg6 : Memref sig .tc .vmem S512x1 .f32) (harg6 : arg6.IsWhole) (arg7 : Memref sig .tc .vmem S512x128 .f32) (harg7 : arg7.IsWhole) (hc0 : ¬cond2_0 i) (hc1 : ¬cond2_1 i)
    (x0 : Vec F S512x512 .bf16) (x1 : Vec F S4096x512 .bf16) (x2 : Vec F S4096x128 .bf16) (xs0 : Vec F S512x128 .f32) :
    { LS0 : List (View.Piece (Elt F) S512x128 .f32) //
      ∀ (xi3 xi4 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc2__retrieve_kernel i arg2 harg2 arg3 harg3 arg4 harg4 arg5 harg5 arg6 harg6 arg7 harg7) K } := by
  refine ⟨?_, fun xi3 xi4 E K => ?run⟩
  case run =>
    simp only [cc2__retrieve_kernel_eq_skeleton]; unfold cc2__retrieve_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

-- CASE C: the last exemplar block. The block's term is added, and the accumulator's first column and its logistic
-- image are stored into the two result windows.
set_option maxHeartbeats 2000000 in
noncomputable def kernelRun2_C (c : Dev nD) (i : grid2.Coords) (arg2 : Memref sig .tc .vmem S512x512 .bf16) (harg2 : arg2.IsWhole) (arg3 : Memref sig .tc .vmem S4096x512 .bf16) (harg3 : arg3.IsWhole) (arg4 : Memref sig .tc .vmem S4096x128 .bf16) (harg4 : arg4.IsWhole) (arg5 : Memref sig .tc .vmem S512x1 .f32) (harg5 : arg5.IsWhole) (arg6 : Memref sig .tc .vmem S512x1 .f32) (harg6 : arg6.IsWhole) (arg7 : Memref sig .tc .vmem S512x128 .f32) (harg7 : arg7.IsWhole) (hc0 : ¬cond2_0 i) (hc1 : cond2_1 i)
    (x0 : Vec F S512x512 .bf16) (x1 : Vec F S4096x512 .bf16) (x2 : Vec F S4096x128 .bf16) (xs0 : Vec F S512x128 .f32) :
    Σ' (L3 : List (View.Piece (Elt F) S512x1 .f32)) (L4 : List (View.Piece (Elt F) S512x1 .f32)), { LS0 : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc2__retrieve_kernel i arg2 harg2 arg3 harg3 arg4 harg4 arg5 harg5 arg6 harg6 arg7 harg7) K } := by
  refine ⟨?_, ?_, ?_, fun E K => ?run⟩
  case run =>
    simp only [cc2__retrieve_kernel_eq_skeleton]; unfold cc2__retrieve_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, Hk⟩
    obtain rfl := harg2.eq_unread hf0; obtain rfl := harg3.eq_unread hf1; obtain rfl := harg4.eq_unread hf2
    obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact HS0

end Cert.Kernel.Hand

end
-- ==== Proof.KKRetData.lean ====
import proofs.«171527_j60000693125637_2_alg».proof.Proof.KKRetRuns

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! Region 2: what each control case leaves, the accumulation over the grid's points, the invariant that carries the
    accumulator from one point to the next, the proof data and the body obligation — at the contents `V` the region
    is entered with. -/

/-! ## What each case leaves -/

/-- Case A's pieces for the accumulator cover it. -/
theorem scover2_A (c : Dev nD) (i : grid2.Coords) (arg2 : Memref sig .tc .vmem S512x512 .bf16) (harg2 : arg2.IsWhole) (arg3 : Memref sig .tc .vmem S4096x512 .bf16) (harg3 : arg3.IsWhole) (arg4 : Memref sig .tc .vmem S4096x128 .bf16) (harg4 : arg4.IsWhole) (arg5 : Memref sig .tc .vmem S512x1 .f32) (harg5 : arg5.IsWhole) (arg6 : Memref sig .tc .vmem S512x1 .f32) (harg6 : arg6.IsWhole) (arg7 : Memref sig .tc .vmem S512x128 .f32) (harg7 : arg7.IsWhole) (hc0 : cond2_0 i) (hc1 : ¬cond2_1 i) (x0 : Vec F S512x512 .bf16) (x1 : Vec F S4096x512 .bf16) (x2 : Vec F S4096x128 .bf16) (y : S512x128.Idx) :
    ∃ pc ∈ (kernelRun2_A c i arg2 harg2 arg3 harg3 arg4 harg4 arg5 harg5 arg6 harg6 arg7 harg7 hc0 hc1 x0 x1 x2).1, y ∈ pc.1.set :=
  View.cover_of_tiledL (kernelRun2_A c i arg2 harg2 arg3 harg3 arg4 harg4 arg5 harg5 arg6 harg6 arg7 harg7 hc0 hc1 x0 x1 x2).1 S512x128.size (by sl_kernel_rfl) y
/-- What case A leaves in the accumulator: its pieces read back. -/
def sout2_A (c : Dev nD) (i : grid2.Coords) (arg2 : Memref sig .tc .vmem S512x512 .bf16) (harg2 : arg2.IsWhole) (arg3 : Memref sig .tc .vmem S4096x512 .bf16) (harg3 : arg3.IsWhole) (arg4 : Memref sig .tc .vmem S4096x128 .bf16) (harg4 : arg4.IsWhole) (arg5 : Memref sig .tc .vmem S512x1 .f32) (harg5 : arg5.IsWhole) (arg6 : Memref sig .tc .vmem S512x1 .f32) (harg6 : arg6.IsWhole) (arg7 : Memref sig .tc .vmem S512x128 .f32) (harg7 : arg7.IsWhole) (hc0 : cond2_0 i) (hc1 : ¬cond2_1 i) (x0 : Vec F S512x512 .bf16) (x1 : Vec F S4096x512 .bf16) (x2 : Vec F S4096x128 .bf16) : Vec F S512x128 .f32 :=
  VS2_0.read (Elt F) (VS2_0.writes (Elt F) VS2_0.junk (kernelRun2_A c i arg2 harg2 arg3 harg3 arg4 harg4 arg5 harg5 arg6 harg6 arg7 harg7 hc0 hc1 x0 x1 x2).1)

theorem scover2_B (c : Dev nD) (i : grid2.Coords) (arg2 : Memref sig .tc .vmem S512x512 .bf16) (harg2 : arg2.IsWhole) (arg3 : Memref sig .tc .vmem S4096x512 .bf16) (harg3 : arg3.IsWhole) (arg4 : Memref sig .tc .vmem S4096x128 .bf16) (harg4 : arg4.IsWhole) (arg5 : Memref sig .tc .vmem S512x1 .f32) (harg5 : arg5.IsWhole) (arg6 : Memref sig .tc .vmem S512x1 .f32) (harg6 : arg6.IsWhole) (arg7 : Memref sig .tc .vmem S512x128 .f32) (harg7 : arg7.IsWhole) (hc0 : ¬cond2_0 i) (hc1 : ¬cond2_1 i) (x0 : Vec F S512x512 .bf16) (x1 : Vec F S4096x512 .bf16) (x2 : Vec F S4096x128 .bf16) (xs0 : Vec F S512x128 .f32) (y : S512x128.Idx) :
    ∃ pc ∈ (kernelRun2_B c i arg2 harg2 arg3 harg3 arg4 harg4 arg5 harg5 arg6 harg6 arg7 harg7 hc0 hc1 x0 x1 x2 xs0).1, y ∈ pc.1.set :=
  View.cover_of_tiledL (kernelRun2_B c i arg2 harg2 arg3 harg3 arg4 harg4 arg5 harg5 arg6 harg6 arg7 harg7 hc0 hc1 x0 x1 x2 xs0).1 S512x128.size (by sl_kernel_rfl) y
def sout2_B (c : Dev nD) (i : grid2.Coords) (arg2 : Memref sig .tc .vmem S512x512 .bf16) (harg2 : arg2.IsWhole) (arg3 : Memref sig .tc .vmem S4096x512 .bf16) (harg3 : arg3.IsWhole) (arg4 : Memref sig .tc .vmem S4096x128 .bf16) (harg4 : arg4.IsWhole) (arg5 : Memref sig .tc .vmem S512x1 .f32) (harg5 : arg5.IsWhole) (arg6 : Memref sig .tc .vmem S512x1 .f32) (harg6 : arg6.IsWhole) (arg7 : Memref sig .tc .vmem S512x128 .f32) (harg7 : arg7.IsWhole) (hc0 : ¬cond2_0 i) (hc1 : ¬cond2_1 i) (x0 : Vec F S512x512 .bf16) (x1 : Vec F S4096x512 .bf16) (x2 : Vec F S4096x128 .bf16) (xs0 : Vec F S512x128 .f32) : Vec F S512x128 .f32 :=
  VS2_0.read (Elt F) (VS2_0.writes (Elt F) VS2_0.junk (kernelRun2_B c i arg2 harg2 arg3 harg3 arg4 harg4 arg5 harg5 arg6 harg6 arg7 harg7 hc0 hc1 x0 x1 x2 xs0).1)

theorem cover2_C_3 (c : Dev nD) (i : grid2.Coords) (arg2 : Memref sig .tc .vmem S512x512 .bf16) (harg2 : arg2.IsWhole) (arg3 : Memref sig .tc .vmem S4096x512 .bf16) (harg3 : arg3.IsWhole) (arg4 : Memref sig .tc .vmem S4096x128 .bf16) (harg4 : arg4.IsWhole) (arg5 : Memref sig .tc .vmem S512x1 .f32) (harg5 : arg5.IsWhole) (arg6 : Memref sig .tc .vmem S512x1 .f32) (harg6 : arg6.IsWhole) (arg7 : Memref sig .tc .vmem S512x128 .f32) (harg7 : arg7.IsWhole) (hc0 : ¬cond2_0 i) (hc1 : cond2_1 i) (x0 : Vec F S512x512 .bf16) (x1 : Vec F S4096x512 .bf16) (x2 : Vec F S4096x128 .bf16) (xs0 : Vec F S512x128 .f32) (y : S512x1.Idx) :
    ∃ pc ∈ (kernelRun2_C c i arg2 harg2 arg3 harg3 arg4 harg4 arg5 harg5 arg6 harg6 arg7 harg7 hc0 hc1 x0 x1 x2 xs0).1, y ∈ pc.1.set :=
  View.cover_of_tiledL (kernelRun2_C c i arg2 harg2 arg3 harg3 arg4 harg4 arg5 harg5 arg6 harg6 arg7 harg7 hc0 hc1 x0 x1 x2 xs0).1 S512x1.size (by sl_kernel_rfl) y
def out2_C_3 (c : Dev nD) (i : grid2.Coords) (arg2 : Memref sig .tc .vmem S512x512 .bf16) (harg2 : arg2.IsWhole) (arg3 : Memref sig .tc .vmem S4096x512 .bf16) (harg3 : arg3.IsWhole) (arg4 : Memref sig .tc .vmem S4096x128 .bf16) (harg4 : arg4.IsWhole) (arg5 : Memref sig .tc .vmem S512x1 .f32) (harg5 : arg5.IsWhole) (arg6 : Memref sig .tc .vmem S512x1 .f32) (harg6 : arg6.IsWhole) (arg7 : Memref sig .tc .vmem S512x128 .f32) (harg7 : arg7.IsWhole) (hc0 : ¬cond2_0 i) (hc1 : cond2_1 i) (x0 : Vec F S512x512 .bf16) (x1 : Vec F S4096x512 .bf16) (x2 : Vec F S4096x128 .bf16) (xs0 : Vec F S512x128 .f32) : Vec F S512x1 .f32 :=
  VO2_3.read (Elt F) (VO2_3.writes (Elt F) VO2_3.junk (kernelRun2_C c i arg2 harg2 arg3 harg3 arg4 harg4 arg5 harg5 arg6 harg6 arg7 harg7 hc0 hc1 x0 x1 x2 xs0).1)
theorem cover2_C_4 (c : Dev nD) (i : grid2.Coords) (arg2 : Memref sig .tc .vmem S512x512 .bf16) (harg2 : arg2.IsWhole) (arg3 : Memref sig .tc .vmem S4096x512 .bf16) (harg3 : arg3.IsWhole) (arg4 : Memref sig .tc .vmem S4096x128 .bf16) (harg4 : arg4.IsWhole) (arg5 : Memref sig .tc .vmem S512x1 .f32) (harg5 : arg5.IsWhole) (arg6 : Memref sig .tc .vmem S512x1 .f32) (harg6 : arg6.IsWhole) (arg7 : Memref sig .tc .vmem S512x128 .f32) (harg7 : arg7.IsWhole) (hc0 : ¬cond2_0 i) (hc1 : cond2_1 i) (x0 : Vec F S512x512 .bf16) (x1 : Vec F S4096x512 .bf16) (x2 : Vec F S4096x128 .bf16) (xs0 : Vec F S512x128 .f32) (y : S512x1.Idx) :
    ∃ pc ∈ (kernelRun2_C c i arg2 harg2 arg3 harg3 arg4 harg4 arg5 harg5 arg6 harg6 arg7 harg7 hc0 hc1 x0 x1 x2 xs0).2.1, y ∈ pc.1.set :=
  View.cover_of_tiledL (kernelRun2_C c i arg2 harg2 arg3 harg3 arg4 harg4 arg5 harg5 arg6 harg6 arg7 harg7 hc0 hc1 x0 x1 x2 xs0).2.1 S512x1.size (by sl_kernel_rfl) y
def out2_C_4 (c : Dev nD) (i : grid2.Coords) (arg2 : Memref sig .tc .vmem S512x512 .bf16) (harg2 : arg2.IsWhole) (arg3 : Memref sig .tc .vmem S4096x512 .bf16) (harg3 : arg3.IsWhole) (arg4 : Memref sig .tc .vmem S4096x128 .bf16) (harg4 : arg4.IsWhole) (arg5 : Memref sig .tc .vmem S512x1 .f32) (harg5 : arg5.IsWhole) (arg6 : Memref sig .tc .vmem S512x1 .f32) (harg6 : arg6.IsWhole) (arg7 : Memref sig .tc .vmem S512x128 .f32) (harg7 : arg7.IsWhole) (hc0 : ¬cond2_0 i) (hc1 : cond2_1 i) (x0 : Vec F S512x512 .bf16) (x1 : Vec F S4096x512 .bf16) (x2 : Vec F S4096x128 .bf16) (xs0 : Vec F S512x128 .f32) : Vec F S512x1 .f32 :=
  VO2_4.read (Elt F) (VO2_4.writes (Elt F) VO2_4.junk (kernelRun2_C c i arg2 harg2 arg3 harg3 arg4 harg4 arg5 harg5 arg6 harg6 arg7 harg7 hc0 hc1 x0 x1 x2 xs0).2.1)
theorem scover2_C (c : Dev nD) (i : grid2.Coords) (arg2 : Memref sig .tc .vmem S512x512 .bf16) (harg2 : arg2.IsWhole) (arg3 : Memref sig .tc .vmem S4096x512 .bf16) (harg3 : arg3.IsWhole) (arg4 : Memref sig .tc .vmem S4096x128 .bf16) (harg4 : arg4.IsWhole) (arg5 : Memref sig .tc .vmem S512x1 .f32) (harg5 : arg5.IsWhole) (arg6 : Memref sig .tc .vmem S512x1 .f32) (harg6 : arg6.IsWhole) (arg7 : Memref sig .tc .vmem S512x128 .f32) (harg7 : arg7.IsWhole) (hc0 : ¬cond2_0 i) (hc1 : cond2_1 i) (x0 : Vec F S512x512 .bf16) (x1 : Vec F S4096x512 .bf16) (x2 : Vec F S4096x128 .bf16) (xs0 : Vec F S512x128 .f32) (y : S512x128.Idx) :
    ∃ pc ∈ (kernelRun2_C c i arg2 harg2 arg3 harg3 arg4 harg4 arg5 harg5 arg6 harg6 arg7 harg7 hc0 hc1 x0 x1 x2 xs0).2.2.1, y ∈ pc.1.set :=
  View.cover_of_tiledL (kernelRun2_C c i arg2 harg2 arg3 harg3 arg4 harg4 arg5 harg5 arg6 harg6 arg7 harg7 hc0 hc1 x0 x1 x2 xs0).2.2.1 S512x128.size (by sl_kernel_rfl) y
def sout2_C (c : Dev nD) (i : grid2.Coords) (arg2 : Memref sig .tc .vmem S512x512 .bf16) (harg2 : arg2.IsWhole) (arg3 : Memref sig .tc .vmem S4096x512 .bf16) (harg3 : arg3.IsWhole) (arg4 : Memref sig .tc .vmem S4096x128 .bf16) (harg4 : arg4.IsWhole) (arg5 : Memref sig .tc .vmem S512x1 .f32) (harg5 : arg5.IsWhole) (arg6 : Memref sig .tc .vmem S512x1 .f32) (harg6 : arg6.IsWhole) (arg7 : Memref sig .tc .vmem S512x128 .f32) (harg7 : arg7.IsWhole) (hc0 : ¬cond2_0 i) (hc1 : cond2_1 i) (x0 : Vec F S512x512 .bf16) (x1 : Vec F S4096x512 .bf16) (x2 : Vec F S4096x128 .bf16) (xs0 : Vec F S512x128 .f32) : Vec F S512x128 .f32 :=
  VS2_0.read (Elt F) (VS2_0.writes (Elt F) VS2_0.junk (kernelRun2_C c i arg2 harg2 arg3 harg3 arg4 harg4 arg5 harg5 arg6 harg6 arg7 harg7 hc0 hc1 x0 x1 x2 xs0).2.2.1)

/-- A result window's buffer at a point that stores nothing into it: a placeholder nothing consults. -/
def junk2 : Vec F S512x1 .f32 := VO2_3.read (Elt F) VO2_3.junk

section
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## What the buffers hold after each point -/

/-- THE ACCUMULATION. After the body at position `n`: the two result windows' buffers and the accumulator — the case
    the closed forms select at `n`, run at the point's buffers and input blocks, the accumulator it adds to at what
    position `n - 1` left. -/
def outsAt2 (c : Dev nD) : (n : ℕ) → n < cfg2.N → Vec F S512x1 .f32 × Vec F S512x1 .f32 × Vec F S512x128 .f32
  | 0, hn => (junk2, junk2, sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩))
  | n + 1, hn =>
    if h0 : (n + 1) % 5 = 0 then
      (junk2, junk2, sout2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) ((hcond2_0 ⟨n + 1, hn⟩).mpr h0) (fun h => (fun h => by (try dsimp only at h); omega) ((hcond2_1 ⟨n + 1, hn⟩).mp h)) (iblk2 V c 0 ⟨n + 1, hn⟩) (iblk2 V c 1 ⟨n + 1, hn⟩) (iblk2 V c 2 ⟨n + 1, hn⟩))
    else
      if h1 : (n + 1) % 5 = 4 then
        (out2_C_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2.2,
         out2_C_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2.2,
         sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2.2)
      else
        (junk2, junk2, sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2.2)

/-- `outsAt2` at a point of case A. -/
theorem outsAt2_A (c : Dev nD) (t : Fin cfg2.N) (h0 : t.val % 5 = 0) (h1 : ¬t.val % 5 = 4) :
    outsAt2 V c t.val t.isLt = (junk2, junk2, sout2_A c (grid2.coords t) (ms2_0 t) (hs2_0 t) (ms2_1 t) (hs2_1 t) (ms2_2 t) (hs2_2 t) (ms2_3 t) (hs2_3 t) (ms2_4 t) (hs2_4 t) scM2_0 (Memref.isWhole_whole _) ((hcond2_0 t).mpr h0) (fun h => h1 ((hcond2_1 t).mp h)) (iblk2 V c 0 t) (iblk2 V c 1 t) (iblk2 V c 2 t)) := by
  obtain ⟨n, hn⟩ := t
  cases n with
  | zero => exact rfl
  | succ n => exact (dif_pos h0).trans rfl

/-- at a point of case B, over what the point before left, -/
theorem outsAt2_B (c : Dev nD) (t : Fin cfg2.N) (h0 : ¬t.val % 5 = 0) (h1 : ¬t.val % 5 = 4) :
    outsAt2 V c t.val t.isLt = (junk2, junk2, sout2_B c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- and at a point of case C. -/
theorem outsAt2_C (c : Dev nD) (t : Fin cfg2.N) (h0 : ¬t.val % 5 = 0) (h1 : t.val % 5 = 4) :
    outsAt2 V c t.val t.isLt =
      (out2_C_3 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.2,
       out2_C_4 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.2,
       sout2_C c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the class's; afterwards the other regions'
    staging buffers, the accumulator at what the point before left in it, and the generator register. -/
def PhiS2 (c : Dev nD) : (n : ℕ) → n ≤ cfg2.N → sProp 𝕄
  | 0, _ => Pipeline.ΦA spec2 c
  | n + 1, hn => iprop(others2 (F := F) c ∗ owns (c : Thread nD τ) scM2_0 fullShare ((outsAt2 V c n hn).2.2) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(others2 (F := F) c ∗ owns (c : Thread nD τ) scM2_0 fullShare ((outsAt2 V c n hn).2.2) ∗ (∃ r, prngReg c r)) := rfl
theorem PhiS2_pos (c : Dev nD) (n : ℕ) (h : n ≤ cfg2.N) (hz : n ≠ 0) :
    PhiS2 V c n h = iprop(others2 (F := F) c ∗ owns (c : Thread nD τ) scM2_0 fullShare ((outsAt2 V c (n - 1) (by omega)).2.2) ∗ (∃ r, prngReg c r)) := by
  cases n with
  | zero => exact absurd rfl hz
  | succ n => rfl

/-! ## The proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
    | ⟨4, _⟩ => (outsAt2 V c t.val t.isLt).2.1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]
theorem after2_4 (c : Dev nD) (t : Fin cfg2.N) : (dat2 V c).after 4 t = (outsAt2 V c t.val t.isLt).2.1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

end

end Cert.Kernel.Hand

end
-- ==== Proof.KKRetBody.lean ====
import proofs.«171527_j60000693125637_2_alg».proof.Proof.KKRetData

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! Region 2: the body obligation at every point, and how the class's invariant enters and leaves the tracked one. -/

section
variable (V : (c : Dev nD) → (b : Ref sig .tc) → Buf (Elt F) ((c : Thread nD τ).loc b))

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

/-- Before any point the invariant yields the other regions' staging buffers, the accumulator at SOME contents and the
    generator register. -/
theorem Phi2_any (c : Dev nD) (t : Fin cfg2.N) :
    (dat2 V c).Φ t.castSucc ⊢ iprop(others2 (F := F) c ∗ (∃ d, owns (c : Thread nD τ) scM2_0 fullShare d) ∗ (∃ r, prngReg c r)) := by
  rw [PhiS2_castSucc V c t]
  by_cases hz : t.val = 0
  · rw [PhiS2_zero V c _ _ hz]; exact PhiA2_in c
  · rw [PhiS2_pos V c _ _ hz]
    iintro ⟨Ho, HS, Hg⟩
    isplitl [Ho]; · iexact Ho
    isplitl [HS]; · iexists _; iexact HS
    iexact Hg

set_option maxHeartbeats 4800000 in
/-- The body at any point: the inputs' buffers hold their blocks; the closed forms say which case the point is in; the
    invariant hands the run the accumulator (at what the point before left, or at anything where the case resets it)
    and takes it back at this point's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 40 := lt_of_lt_of_eq t.isLt (show cfg2.N = 40 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  by_cases h0 : t.val % 5 = 0
  · have h1 : ¬t.val % 5 = 4 := by omega
    have hc0 : cond2_0 (grid2.coords t) := (hcond2_0 t).mpr h0
    have hc1 : ¬cond2_1 (grid2.coords t) := fun h => h1 ((hcond2_1 t).mp h)
    rw [Dat.leavesExact_idle (dat2 V c) 3 t (idleAt2_3 t hc1) (noFlush2_3 t hc1),
      Dat.leavesExact_idle (dat2 V c) 4 t (idleAt2_4 t hc1) (noFlush2_4 t hc1)]
    rw [outsAt2_A V c t h0 h1]
    unfold sout2_A; (try dsimp only)
    iintro ⟨HΦ, Ho, ⟨%d0, H0⟩, ⟨%d1, H1⟩, ⟨%d2, H2⟩, ⟨%d3, H3⟩, ⟨%d4, H4⟩⟩
    ihave HΦ' := (Phi2_any V c t) $$ HΦ
    icases HΦ' with ⟨Hoth, HS0, Hg⟩
    iapply ((kernelRun2_A c (grid2.coords t) _ _ _ _ _ _ _ _ _ _ _ _ hc0 hc1 (iblk2 V c 0 t) (iblk2 V c 1 t) (iblk2 V c 2 t)).2 _ _ Set.univ _)
    isplitl [H0]; · iexact H0
    isplitl [H1]; · iexact H1
    isplitl [H2]; · iexact H2
    isplitl [H3]; · iexact H3
    isplitl [H4]; · iexact H4
    isplitl [HS0]; · iexact HS0
    iintro ⟨H0, H1, H2, H3, H4, ⟨%es0, HS0⟩⟩
    isplitl [Hoth HS0 Hg]
    · isplitl [Hoth]; · iexact Hoth
      isplitl [HS0]
      · unfold owns; iexists _; isplitr
        swap; · iexact HS0
        ipureintro; exact View.read_writes_of_cover _ _ _ _ _ (scover2_A c _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexists _; iexact H3
    iexists _; iexact H4
  · have hz : t.val ≠ 0 := fun h => h0 (by rw [h])
    have hc0 : ¬cond2_0 (grid2.coords t) := fun h => h0 ((hcond2_0 t).mp h)
    by_cases h1 : t.val % 5 = 4
    · have hc1 : cond2_1 (grid2.coords t) := (hcond2_1 t).mpr h1
      rw [show (dat2 V c).leavesExact 3 t = owns (c : Thread nD τ) (ms2_3 t) fullShare ((dat2 V c).after 3 t) from by
        unfold Dat.leavesExact; rw [liveAt2_3 t hc1], after2_3]
      rw [show (dat2 V c).leavesExact 4 t = owns (c : Thread nD τ) (ms2_4 t) fullShare ((dat2 V c).after 4 t) from by
        unfold Dat.leavesExact; rw [liveAt2_4 t hc1], after2_4]
      rw [outsAt2_C V c t h0 h1]
      unfold out2_C_3 out2_C_4 sout2_C; (try dsimp only)
      rw [PhiS2_castSucc V c t, PhiS2_pos V c _ _ hz]
      iintro ⟨⟨Hoth, HS0, Hg⟩, Ho, ⟨%d0, H0⟩, ⟨%d1, H1⟩, ⟨%d2, H2⟩, ⟨%d3, H3⟩, ⟨%d4, H4⟩⟩
      iapply ((kernelRun2_C c (grid2.coords t) _ _ _ _ _ _ _ _ _ _ _ _ hc0 hc1 (iblk2 V c 0 t) (iblk2 V c 1 t) (iblk2 V c 2 t) _).2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      iintro ⟨H0, H1, H2, ⟨%e3, H3⟩, ⟨%e4, H4⟩, ⟨%es0, HS0⟩⟩
      isplitl [Hoth HS0 Hg]
      · isplitl [Hoth]; · iexact Hoth
        isplitl [HS0]
        · unfold owns; iexists _; isplitr
          swap; · iexact HS0
          ipureintro; exact View.read_writes_of_cover _ _ _ _ _ (scover2_C c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover2_C_3 c _ _ _ _ _ _ _ _ _ _ _ _ _ _ _ _ _ _ _)
      unfold owns; iexists _; isplitr
      swap; · iexact H4
      ipureintro; exact View.read_writes_of_cover _ _ _ _ _ (cover2_C_4 c _ _ _ _ _ _ _ _ _ _ _ _ _ _ _ _ _ _ _)
    · have hc1 : ¬cond2_1 (grid2.coords t) := fun h => h1 ((hcond2_1 t).mp h)
      rw [Dat.leavesExact_idle (dat2 V c) 3 t (idleAt2_3 t hc1) (noFlush2_3 t hc1),
        Dat.leavesExact_idle (dat2 V c) 4 t (idleAt2_4 t hc1) (noFlush2_4 t hc1)]
      rw [outsAt2_B V c t h0 h1]
      unfold sout2_B; (try dsimp only)
      rw [PhiS2_castSucc V c t, PhiS2_pos V c _ _ hz]
      iintro ⟨⟨Hoth, HS0, Hg⟩, Ho, ⟨%d0, H0⟩, ⟨%d1, H1⟩, ⟨%d2, H2⟩, ⟨%d3, H3⟩, ⟨%d4, H4⟩⟩
      iapply ((kernelRun2_B c (grid2.coords t) _ _ _ _ _ _ _ _ _ _ _ _ hc0 hc1 (iblk2 V c 0 t) (iblk2 V c 1 t) (iblk2 V c 2 t) _).2 _ _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [Hoth HS0 Hg]
      · isplitl [Hoth]; · iexact Hoth
        isplitl [HS0]
        · unfold owns; iexists _; isplitr
          swap; · iexact HS0
          ipureintro; exact View.read_writes_of_cover _ _ _ _ _ (scover2_B c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexists _; iexact H3
      iexists _; iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class's back: the accumulator's contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht]
  have h : (iprop(others2 (F := F) c ∗ owns (c : Thread nD τ) scM2_0 fullShare ((outsAt2 V c (t.val - 1) (by have := t.isLt; omega)).2.2) ∗ (∃ r, prngReg c r)) : sProp 𝕄)
      ⊢ iprop(others2 (F := F) c ∗ (∃ d, owns (c : Thread nD τ) scM2_0 fullShare d) ∗ (∃ r, prngReg c r)) := by
    iintro ⟨Ho, HS, Hg⟩
    isplitl [Ho]; · iexact Ho
    isplitl [HS]; · iexists _; iexact HS
    iexact Hg
  exact h.trans (PhiA2_out c)

theorem hout2 (c : Dev nD) : (dat2 V c).Φ (Fin.last cfg2.N) ⊢ Pipeline.ΦA spec2 c :=
  Phi_out2 V c _ (by rw [Fin.val_last]; have : cfg2.N = 40 := N_2; omega)

end

end Cert.Kernel.Hand

end
-- ==== Proof.KKRun.lean ====
import proofs.«171527_j60000693125637_2_alg».proof.Proof.KKEmbed0
import proofs.«171527_j60000693125637_2_alg».proof.Proof.KKEmbed1
import proofs.«171527_j60000693125637_2_alg».proof.Proof.KKRetBody
import proofs.«171527_j60000693125637_2_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! THE RUN. @main is nine items: a host stretch, region 0, two host stretches, region 1, three host stretches,
    region 2. The buffers' contents at each boundary are a fold from the launch memory: a host stretch's operations
    applied, a region's arrays replaced by what its write-backs leave. One launch over the nine items gives every
    unscoped buffer at the last boundary's contents in every final memory. -/

variable (m : (ℓ : Loc nD τ sig) → Buf (Elt F) ℓ)

/-- Core `c`'s buffers at launch. -/
abbrev B0 : Dev nD → Valuation τ sig (Elt F) := fun c b => m (c, b)
abbrev E0 : (c : Dev nD) → (b : Ref sig .tc) → Buf (Elt F) ((c : Thread nD τ).loc b) := fun c b => B0 m c b
abbrev B1 : Dev nD → Valuation τ sig (Elt F) := fun c => StableHlo.after hostOps0 (B0 m c)
abbrev E1 : (c : Dev nD) → (b : Ref sig .tc) → Buf (Elt F) ((c : Thread nD τ).loc b) := fun c b => B1 m c b
theorem B1_keep (c : Dev nD) (r : Ref sig .tc) (h : r ∉ hostOps0_W) : B1 m c r = B0 m c r :=
  StableHlo.after_of_writes_sub hostOps0 _ hostOps0_writes h

/-- At region 0's exit: its arrays at what its write-backs leave, every other buffer as entered. -/
def B2 (c : Dev nD) : Valuation τ sig (Elt F) :=
  Pipeline.withArrays spec0 c (B1 m c) fun w => (dat0 (E1 m) c).arrAt w cfg0.N
theorem B2_arr (c : Dev nD) (w : Fin cfg0.W) :
    B2 m c (Proc.devRef .tc (Pipeline.arrRef spec0 w)) = (dat0 (E1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
/-- An input window's array leaves the region as it entered. -/
theorem B2_in (c : Dev nD) (w : Fin cfg0.W) (hw : (cfg0.win w).isOut = false) :
    B2 m c (Proc.devRef .tc (Pipeline.arrRef spec0 w)) = B1 m c (Proc.devRef .tc (Pipeline.arrRef spec0 w)) :=
  (B2_arr m c w).trans (((dat0 (E1 m) c).arrAt_in w hw _).trans (A_eq0 (E1 m) c w))
abbrev E2 : (c : Dev nD) → (b : Ref sig .tc) → Buf (Elt F) ((c : Thread nD τ).loc b) := fun c b => B2 m c b
theorem hF0 (c : Dev nD) (w : Fin cfg0.W) : (dat0 (E1 m) c).arrAt w cfg0.N = E2 m c (Pipeline.arrRef spec0 w) :=
  (B2_arr m c w).symm
theorem hrest0 (c : Dev nD) : ∀ b, b ∉ Finset.univ.image (Pipeline.arrRef spec0) → E2 m c b = E1 m c b :=
  fun b hb => B2_of_ne m c b fun w e => hb (Finset.mem_image.mpr ⟨w, Finset.mem_univ _, e⟩)

abbrev B3 : Dev nD → Valuation τ sig (Elt F) := fun c => StableHlo.after hostOps1 (B2 m c)
abbrev E3 : (c : Dev nD) → (b : Ref sig .tc) → Buf (Elt F) ((c : Thread nD τ).loc b) := fun c b => B3 m c b
theorem B3_keep (c : Dev nD) (r : Ref sig .tc) (h : r ∉ hostOps1_W) : B3 m c r = B2 m c r :=
  StableHlo.after_of_writes_sub hostOps1 _ hostOps1_writes h

abbrev B4 : Dev nD → Valuation τ sig (Elt F) := fun c => StableHlo.after hostOps1_1 (B3 m c)
abbrev E4 : (c : Dev nD) → (b : Ref sig .tc) → Buf (Elt F) ((c : Thread nD τ).loc b) := fun c b => B4 m c b
theorem B4_keep (c : Dev nD) (r : Ref sig .tc) (h : r ∉ hostOps1_1_W) : B4 m c r = B3 m c r :=
  StableHlo.after_of_writes_sub hostOps1_1 _ hostOps1_1_writes h

/-- At region 1's exit: its arrays at what its write-backs leave, every other buffer as entered. -/
def B5 (c : Dev nD) : Valuation τ sig (Elt F) :=
  Pipeline.withArrays spec1 c (B4 m c) fun w => (dat1 (E4 m) c).arrAt w cfg1.N
theorem B5_arr (c : Dev nD) (w : Fin cfg1.W) :
    B5 m c (Proc.devRef .tc (Pipeline.arrRef spec1 w)) = (dat1 (E4 m) c).arrAt w cfg1.N := by
  unfold B5; exact Pipeline.withArrays_arr spec1 launch1.win.arr_inj c _ _ w
theorem B5_of_ne (c : Dev nD) (b : Ref sig .tc) (hb : ∀ w, Pipeline.arrRef spec1 w ≠ b) :
    B5 m c (Proc.devRef .tc b) = B4 m c (Proc.devRef .tc b) := by
  unfold B5; exact Pipeline.withArrays_of_ne spec1 c _ _ b hb
/-- An input window's array leaves the region as it entered. -/
theorem B5_in (c : Dev nD) (w : Fin cfg1.W) (hw : (cfg1.win w).isOut = false) :
    B5 m c (Proc.devRef .tc (Pipeline.arrRef spec1 w)) = B4 m c (Proc.devRef .tc (Pipeline.arrRef spec1 w)) :=
  (B5_arr m c w).trans (((dat1 (E4 m) c).arrAt_in w hw _).trans (A_eq1 (E4 m) c w))
abbrev E5 : (c : Dev nD) → (b : Ref sig .tc) → Buf (Elt F) ((c : Thread nD τ).loc b) := fun c b => B5 m c b
theorem hF1 (c : Dev nD) (w : Fin cfg1.W) : (dat1 (E4 m) c).arrAt w cfg1.N = E5 m c (Pipeline.arrRef spec1 w) :=
  (B5_arr m c w).symm
theorem hrest1 (c : Dev nD) : ∀ b, b ∉ Finset.univ.image (Pipeline.arrRef spec1) → E5 m c b = E4 m c b :=
  fun b hb => B5_of_ne m c b fun w e => hb (Finset.mem_image.mpr ⟨w, Finset.mem_univ _, e⟩)

abbrev B6 : Dev nD → Valuation τ sig (Elt F) := fun c => StableHlo.after hostOps2 (B5 m c)
abbrev E6 : (c : Dev nD) → (b : Ref sig .tc) → Buf (Elt F) ((c : Thread nD τ).loc b) := fun c b => B6 m c b
theorem B6_keep (c : Dev nD) (r : Ref sig .tc) (h : r ∉ hostOps2_W) : B6 m c r = B5 m c r :=
  StableHlo.after_of_writes_sub hostOps2 _ hostOps2_writes h

abbrev B7 : Dev nD → Valuation τ sig (Elt F) := fun c => StableHlo.after hostOps2_1 (B6 m c)
abbrev E7 : (c : Dev nD) → (b : Ref sig .tc) → Buf (Elt F) ((c : Thread nD τ).loc b) := fun c b => B7 m c b
theorem B7_keep (c : Dev nD) (r : Ref sig .tc) (h : r ∉ hostOps2_1_W) : B7 m c r = B6 m c r :=
  StableHlo.after_of_writes_sub hostOps2_1 _ hostOps2_1_writes h

abbrev B8 : Dev nD → Valuation τ sig (Elt F) := fun c => StableHlo.after hostOps2_2 (B7 m c)
abbrev E8 : (c : Dev nD) → (b : Ref sig .tc) → Buf (Elt F) ((c : Thread nD τ).loc b) := fun c b => B8 m c b
theorem B8_keep (c : Dev nD) (r : Ref sig .tc) (h : r ∉ hostOps2_2_W) : B8 m c r = B7 m c r :=
  StableHlo.after_of_writes_sub hostOps2_2 _ hostOps2_2_writes h

/-- At region 2's exit: its arrays at what its write-backs leave, every other buffer as entered. -/
def B9 (c : Dev nD) : Valuation τ sig (Elt F) :=
  Pipeline.withArrays spec2 c (B8 m c) fun w => (dat2 (E8 m) c).arrAt w cfg2.N
theorem B9_arr (c : Dev nD) (w : Fin cfg2.W) :
    B9 m c (Proc.devRef .tc (Pipeline.arrRef spec2 w)) = (dat2 (E8 m) c).arrAt w cfg2.N := by
  unfold B9; exact Pipeline.withArrays_arr spec2 launch2.win.arr_inj c _ _ w
theorem B9_of_ne (c : Dev nD) (b : Ref sig .tc) (hb : ∀ w, Pipeline.arrRef spec2 w ≠ b) :
    B9 m c (Proc.devRef .tc b) = B8 m c (Proc.devRef .tc b) := by
  unfold B9; exact Pipeline.withArrays_of_ne spec2 c _ _ b hb
/-- An input window's array leaves the region as it entered. -/
theorem B9_in (c : Dev nD) (w : Fin cfg2.W) (hw : (cfg2.win w).isOut = false) :
    B9 m c (Proc.devRef .tc (Pipeline.arrRef spec2 w)) = B8 m c (Proc.devRef .tc (Pipeline.arrRef spec2 w)) :=
  (B9_arr m c w).trans (((dat2 (E8 m) c).arrAt_in w hw _).trans (A_eq2 (E8 m) c w))
abbrev E9 : (c : Dev nD) → (b : Ref sig .tc) → Buf (Elt F) ((c : Thread nD τ).loc b) := fun c b => B9 m c b
theorem hF2 (c : Dev nD) (w : Fin cfg2.W) : (dat2 (E8 m) c).arrAt w cfg2.N = E9 m c (Pipeline.arrRef spec2 w) :=
  (B9_arr m c w).symm
theorem hrest2 (c : Dev nD) : ∀ b, b ∉ Finset.univ.image (Pipeline.arrRef spec2) → E9 m c b = E8 m c b :=
  fun b hb => B9_of_ne m c b fun w e => hb (Finset.mem_image.mpr ⟨w, Finset.mem_univ _, e⟩)

/-! ## The arguments end as launched: no host operation writes one, and a region only reads one -/
theorem B9_main_arg0 (c : Dev nD) : B9 m c (Proc.devRef .tc main_arg0) = m ((c : Thread nD τ).loc main_arg0) :=
  (B9_of_ne m c main_arg0 (by decide)).trans <| (B8_keep m c main_arg0 (by decide)).trans <| (B7_keep m c main_arg0 (by decide)).trans <|
  (B6_keep m c main_arg0 (by decide)).trans <| (B5_of_ne m c main_arg0 (by decide)).trans <| (B4_keep m c main_arg0 (by decide)).trans <|
  (B3_keep m c main_arg0 (by decide)).trans <| (B2_in m c 0 rfl).trans <| (B1_keep m c main_arg0 (by decide)).trans rfl
theorem B9_main_arg1 (c : Dev nD) : B9 m c (Proc.devRef .tc main_arg1) = m ((c : Thread nD τ).loc main_arg1) :=
  (B9_of_ne m c main_arg1 (by decide)).trans <| (B8_keep m c main_arg1 (by decide)).trans <| (B7_keep m c main_arg1 (by decide)).trans <|
  (B6_keep m c main_arg1 (by decide)).trans <| (B5_of_ne m c main_arg1 (by decide)).trans <| (B4_keep m c main_arg1 (by decide)).trans <|
  (B3_keep m c main_arg1 (by decide)).trans <| (B2_of_ne m c main_arg1 (by decide)).trans <| (B1_keep m c main_arg1 (by decide)).trans rfl
theorem B9_main_arg2 (c : Dev nD) : B9 m c (Proc.devRef .tc main_arg2) = m ((c : Thread nD τ).loc main_arg2) :=
  (B9_of_ne m c main_arg2 (by decide)).trans <| (B8_keep m c main_arg2 (by decide)).trans <| (B7_keep m c main_arg2 (by decide)).trans <|
  (B6_keep m c main_arg2 (by decide)).trans <| (B5_of_ne m c main_arg2 (by decide)).trans <| (B4_keep m c main_arg2 (by decide)).trans <|
  (B3_keep m c main_arg2 (by decide)).trans <| (B2_of_ne m c main_arg2 (by decide)).trans <| (B1_keep m c main_arg2 (by decide)).trans rfl
theorem B9_main_arg3 (c : Dev nD) : B9 m c (Proc.devRef .tc main_arg3) = m ((c : Thread nD τ).loc main_arg3) :=
  (B9_of_ne m c main_arg3 (by decide)).trans <| (B8_keep m c main_arg3 (by decide)).trans <| (B7_keep m c main_arg3 (by decide)).trans <|
  (B6_keep m c main_arg3 (by decide)).trans <| (B5_in m c 1 rfl).trans <| (B4_keep m c main_arg3 (by decide)).trans <|
  (B3_keep m c main_arg3 (by decide)).trans <| (B2_in m c 1 rfl).trans <| (B1_keep m c main_arg3 (by decide)).trans rfl
theorem B9_main_arg4 (c : Dev nD) : B9 m c (Proc.devRef .tc main_arg4) = m ((c : Thread nD τ).loc main_arg4) :=
  (B9_of_ne m c main_arg4 (by decide)).trans <| (B8_keep m c main_arg4 (by decide)).trans <| (B7_keep m c main_arg4 (by decide)).trans <|
  (B6_keep m c main_arg4 (by decide)).trans <| (B5_of_ne m c main_arg4 (by decide)).trans <| (B4_keep m c main_arg4 (by decide)).trans <|
  (B3_keep m c main_arg4 (by decide)).trans <| (B2_of_ne m c main_arg4 (by decide)).trans <| (B1_keep m c main_arg4 (by decide)).trans rfl
theorem B9_main_arg5 (c : Dev nD) : B9 m c (Proc.devRef .tc main_arg5) = m ((c : Thread nD τ).loc main_arg5) :=
  (B9_of_ne m c main_arg5 (by decide)).trans <| (B8_keep m c main_arg5 (by decide)).trans <| (B7_keep m c main_arg5 (by decide)).trans <|
  (B6_keep m c main_arg5 (by decide)).trans <| (B5_of_ne m c main_arg5 (by decide)).trans <| (B4_keep m c main_arg5 (by decide)).trans <|
  (B3_keep m c main_arg5 (by decide)).trans <| (B2_of_ne m c main_arg5 (by decide)).trans <| (B1_keep m c main_arg5 (by decide)).trans rfl
theorem B9_main_arg6 (c : Dev nD) : B9 m c (Proc.devRef .tc main_arg6) = m ((c : Thread nD τ).loc main_arg6) :=
  (B9_of_ne m c main_arg6 (by decide)).trans <| (B8_keep m c main_arg6 (by decide)).trans <| (B7_keep m c main_arg6 (by decide)).trans <|
  (B6_keep m c main_arg6 (by decide)).trans <| (B5_of_ne m c main_arg6 (by decide)).trans <| (B4_keep m c main_arg6 (by decide)).trans <|
  (B3_keep m c main_arg6 (by decide)).trans <| (B2_of_ne m c main_arg6 (by decide)).trans <| (B1_keep m c main_arg6 (by decide)).trans rfl

/-! ## The proof data family and the thread state -/

abbrev admH : (p : Fin 3) → (pcfgs (F := F) p).Adm := fun p => (cfgs p).toPCfg_adm
def pdatsH : (p : Fin 3) → (c : Dev nD) → Dat τ (Elt F) Unit ℕ (UR sig nD τ) ℕ (Pipeline.pin (pcfgs (F := F)) admH p) c
  | ⟨0, _⟩ => fun c => dat0 (E1 m) c
  | ⟨1, _⟩ => fun c => dat1 (E4 m) c
  | ⟨2, _⟩ => fun c => dat2 (E8 m) c
abbrev 𝒱H : Variants := Variants.none
abbrev LH : GSem nD τ sig → Finset Unit := fun _ => ∅
abbrev lvH : GSem nD τ sig → Unit → ℕ := fun _ _ => 0
/-- What rides beside the buffers through every item: the generator register at some state, and nothing owed. -/
abbrev RH (c : Dev nD) : sProp 𝕄 := iprop((∃ r, prngReg c r) ∗ ∃ W, owes (c : Thread nD τ) (0 : CellTallies nD τ sig Unit) W)
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents. -/
abbrev TH (c : Dev nD) : sProp 𝕄 := iprop(StableHlo.held (c : Thread nD τ) (Pipeline.ucRefs τ sig) (B9 m c) ∗ ∃ r, prngReg c r)

/-! ## The regions as items -/

set_option backward.isDefEq.respectTransparency.types false in
/-- Region 0 over the thread state: entered from every unscoped buffer at `B1`, left at `B2`. Its arrays are
    split out of the unscoped buffers and put back at the exit contents; the generator register goes into the
    invariant and comes out; nothing is owed; the kernel has no semaphore of its own. -/
def reg0 : Pipeline.RegionSeg (pcfgs (F := F)) admH (pdatsH m) () defs₀ 𝒱H LH lvH 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ LH lvH 0 fun _ _ => rfl
  pre c := iprop(StableHlo.held (c : Thread nD τ) (Pipeline.ucRefs τ sig) (B1 m c) ∗ RH c)
  post c := iprop(StableHlo.held (c : Thread nD τ) (Pipeline.ucRefs τ sig) (B2 m c) ∗ RH c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) admH (pdatsH m) launch0.win launch0.arr_whole c
      ((pdatsH m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m) ((pdatsH m 0 c).share_full fun _ => rfl)
      (E1 m c) (E2 m c) ((pdatsH m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `B4`, left at `B5`. Its arrays are
    split out of the unscoped buffers and put back at the exit contents; the generator register goes into the
    invariant and comes out; nothing is owed; the kernel has no semaphore of its own. -/
def reg1 : Pipeline.RegionSeg (pcfgs (F := F)) admH (pdatsH m) () defs₀ 𝒱H LH lvH 1 where
  win := launch1.win.to₀
  block_pos := launch1.block_pos
  stage_whole := launch1.stage_whole
  K := PEmpty
  osem k := k.elim
  ho := Pipeline.OwnSemFacts.none _
  hbody c := (body_obligation1 (E4 m) c).loose
  hwaits := Pipeline.hwaits_of_owed_zero _ _ _ _ LH lvH 1 fun _ _ => rfl
  pre c := iprop(StableHlo.held (c : Thread nD τ) (Pipeline.ucRefs τ sig) (B4 m c) ∗ RH c)
  post c := iprop(StableHlo.held (c : Thread nD τ) (Pipeline.ucRefs τ sig) (B5 m c) ∗ RH c)
  X c := iprop(∃ r, prngReg c r)
  Y c := iprop(∃ r, prngReg c r)
  Z c := Pipeline.unscopedRest (Ix := Unit) (Name := ℕ) (U := UR sig nD τ) (Lvl := ℕ) spec1 c (E4 m c)
  hentry c := by
    rw [Pipeline.ownSems0_none]
    have hsplit := Pipeline.arrays_of_unscopedBufs (p := 1) (pcfgs (F := F)) admH (pdatsH m) launch1.win launch1.arr_whole c
      ((pdatsH m 1 c).share_full fun _ => rfl) (E4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsH m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsH m) ((pdatsH m 1 c).share_full fun _ => rfl)
      (E4 m c) (E5 m c) ((pdatsH m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `B8`, left at `B9`. Its arrays are
    split out of the unscoped buffers and put back at the exit contents; the generator register goes into the
    invariant and comes out; nothing is owed; the kernel has no semaphore of its own. -/
def reg2 : Pipeline.RegionSeg (pcfgs (F := F)) admH (pdatsH m) () defs₀ 𝒱H LH lvH 2 where
  win := launch2.win.to₀
  block_pos := launch2.block_pos
  stage_whole := launch2.stage_whole
  K := PEmpty
  osem k := k.elim
  ho := Pipeline.OwnSemFacts.none _
  hbody c := (body_obligation2 (E8 m) c).loose
  hwaits := Pipeline.hwaits_of_owed_zero _ _ _ _ LH lvH 2 fun _ _ => rfl
  pre c := iprop(StableHlo.held (c : Thread nD τ) (Pipeline.ucRefs τ sig) (B8 m c) ∗ RH c)
  post c := iprop(TH m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E8 m c)
  hentry c := by
    rw [Pipeline.ownSems0_none]
    have hsplit := Pipeline.arrays_of_unscopedBufs (p := 2) (pcfgs (F := F)) admH (pdatsH m) launch2.win launch2.arr_whole c
      ((pdatsH m 2 c).share_full fun _ => rfl) (E8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (E8 m) c)
    unfold Pipeline.ΦA
    iintro ⟨Hp, -, Hr⟩
    isplitl [Hr]; · iexact Hr
    iexact Hp
  hout c := by
    rw [Pipeline.ownSems0_none]
    refine BIBase.Entails.trans (hout2 (E8 m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdatsH m) ((pdatsH m 2 c).share_full fun _ => rfl)
      (E8 m c) (E9 m c) ((pdatsH m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as items, and the launch -/

abbrev segsH : List (Pipeline.Seg (pcfgs (F := F)) admH (pdatsH m) () defs₀ 𝒱H LH lvH) :=
  [ .host (hsegH hostOps0 hostOps0_sub hostOps0_fresh (B0 m)),
    .region (reg0 m),
    .host (hsegH hostOps1 hostOps1_sub hostOps1_fresh (B2 m)),
    .host (hsegH hostOps1_1 hostOps1_1_sub hostOps1_1_fresh (B3 m)),
    .region (reg1 m),
    .host (hsegH hostOps2 hostOps2_sub hostOps2_fresh (B5 m)),
    .host (hsegH hostOps2_1 hostOps2_1_sub hostOps2_1_fresh (B6 m)),
    .host (hsegH hostOps2_2 hostOps2_2_sub hostOps2_2_fresh (B7 m)),
    .region (reg2 m) ]

set_option backward.isDefEq.respectTransparency.types false in
/-- At the compiled mesh, from any memory with zero counters, every weakly fair execution of @main terminates, nothing
    faulting, and every final memory holds each unscoped buffer at the last boundary's contents `B9`. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = B9 m c b) :=
  Pipeline.θ_run_regions_kit (pcfgs (F := F)) admH (pdatsH m) () cellOf_inj emb₁ defs₀ 𝒱H LH lvH m ρ main (segsH m)
    (fun c Q => by
      rewrite [main_chain c, Pipeline.Seg.run_eq_chain,
        show (segsH m).map Pipeline.Seg.prog = [
          StableHlo.seq hostOps0,
          Prog.lift (.customCall (Pipeline.entry 0) ()),
          StableHlo.seq hostOps1,
          StableHlo.seq hostOps1_1,
          Prog.lift (.customCall (Pipeline.entry 1) ()),
          StableHlo.seq hostOps2,
          StableHlo.seq hostOps2_1,
          StableHlo.seq hostOps2_2,
          Prog.lift (.customCall (Pipeline.entry 2) ()) ] from rfl]
      exact .rfl)
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ RH c)) (Tₙ := TH m)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach LH lvH fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B9 m c b)
    (hfin := fun c s' => by
      iintro ⟨⟨Hh, -⟩, HSI⟩
      unfold StableHlo.held
      imodintro
      iapply (pointsTo_read_all (Pipeline.ucRefs τ sig) (fun b => (((c : Thread nD τ)).1, b)) (B9 m c) s')
      isplitl [Hh] <;> iassumption)
    (hQ := fun s h c => h c)

/-- THE FRAME, at any `F`: every argument array ends as launched. -/
theorem frame_all (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (B9_main_arg0 m c),
     (h c _ (mem_uc main_arg1 (by decide))).trans (B9_main_arg1 m c),
     (h c _ (mem_uc main_arg2 (by decide))).trans (B9_main_arg2 m c),
     (h c _ (mem_uc main_arg3 (by decide))).trans (B9_main_arg3 m c),
     (h c _ (mem_uc main_arg4 (by decide))).trans (B9_main_arg4 m c),
     (h c _ (mem_uc main_arg5 (by decide))).trans (B9_main_arg5 m c),
     (h c _ (mem_uc main_arg6 (by decide))).trans (B9_main_arg6 m c)⟩) (run_all m ρ)

end Cert.Kernel.Hand

end
-- ==== Proof.KIEmbed0.lean ====
import proofs.«171527_j60000693125637_2_alg».proof.Proof.Gen.KernelIdeal.Launch
import proofs.«171527_j60000693125637_2_alg».proof.Proof.Gen.KernelIdeal.Skeleton
import proofs.«171527_j60000693125637_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! Region 0: the row-embedding kernel on blocks of 512 rows, at the contents `V` the region is entered with.
    A block of the output is the normalised linear image of the same block of rows; the weight matrix and the bias
    are read whole at every point. -/

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The body's accesses: every load and the store take a whole block. -/
abbrev r0_x : Rect S512x768 := Rect.unit (s := S512x768) ![0, 0] S512x768.size inb_S512x768_S512x768_0_0
abbrev r0_w : Rect S512x768 := Rect.unit (s := S512x768) ![0, 0] S512x768.size inb_S512x768_S512x768_0_0
abbrev r0_b : Rect S1x512 := Rect.unit (s := S1x512) ![0, 0] S1x512.size inb_S1x512_S1x512_0_0
abbrev r0_o : Rect S512x512 := Rect.unit (s := S512x512) ![0, 0] S512x512.size inb_S512x512_S512x512_0_0

/-- What the body leaves in the output window's buffer: its one store, over the three input blocks. -/
def out0_3 (x0 : Vec F S512x768 .f32) (x1 : Vec F S512x768 .f32) (x2 : Vec F S1x512 .f32) : Vec F S512x512 .bf16 :=
  View.canon [⟨r0_o, k0_pay1 (View.ld x0 r0_x) (View.ld x1 r0_w) (View.ld x2 r0_b)⟩]

/-- The one store covers the buffer. -/
theorem cover0_3 (p0 : Vec F S512x512 .bf16) (y : S512x512.Idx) :
    ∃ pc ∈ ([⟨r0_o, p0⟩] : List (View.Piece (Elt F) S512x512 .bf16)), y ∈ pc.1.set :=
  View.cover_of_tiled [⟨r0_o, p0⟩] S512x512.size (by rfl) y

set_option maxHeartbeats 1000000 in
/-- The body on whole staging buffers, the inputs' at read contents and the output's at anything, runs to the
    continuation with the inputs' as they were and the output's at `out0_3` of them. -/
theorem sound_kernel0 (c : Dev nD) (E : Set ℕ) (i : grid0.Coords) (arg1 : Memref sig .tc .vmem S512x768 .f32) (harg1 : arg1.IsWhole) (arg2 : Memref sig .tc .vmem S512x768 .f32) (harg2 : arg2.IsWhole) (arg3 : Memref sig .tc .vmem S1x512 .f32) (harg3 : arg3.IsWhole) (arg4 : Memref sig .tc .vmem S512x512 .bf16) (harg4 : arg4.IsWhole)
    (x0 : Vec F S512x768 .f32) (x1 : Vec F S512x768 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__embed_kernel i arg1 harg1 arg2 harg2 arg3 harg3 arg4 harg4) K := by
  simp only [cc0__embed_kernel_eq_skeleton]; unfold cc0__embed_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of the region on core `c`: the arrays as the region finds them; after the body each input's
    buffer at its block and the output's at `out0_3` of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end

end Cert.KernelIdeal.Hand

end
-- ==== Proof.KIEmbed1.lean ====
import proofs.«171527_j60000693125637_2_alg».proof.Proof.Gen.KernelIdeal.Launch
import proofs.«171527_j60000693125637_2_alg».proof.Proof.Gen.KernelIdeal.Skeleton
import proofs.«171527_j60000693125637_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! Region 1: the row-embedding kernel on blocks of 2048 rows, at the contents `V` the region is entered with.
    A block of the output is the normalised linear image of the same block of rows; the weight matrix and the bias
    are read whole at every point. -/

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The body's accesses: every load and the store take a whole block. -/
abbrev r1_x : Rect S2048x768 := Rect.unit (s := S2048x768) ![0, 0] S2048x768.size inb_S2048x768_S2048x768_0_0
abbrev r1_w : Rect S512x768 := Rect.unit (s := S512x768) ![0, 0] S512x768.size inb_S512x768_S512x768_0_0
abbrev r1_b : Rect S1x512 := Rect.unit (s := S1x512) ![0, 0] S1x512.size inb_S1x512_S1x512_0_0
abbrev r1_o : Rect S2048x512 := Rect.unit (s := S2048x512) ![0, 0] S2048x512.size inb_S2048x512_S2048x512_0_0

/-- What the body leaves in the output window's buffer: its one store, over the three input blocks. -/
def out1_3 (x0 : Vec F S2048x768 .f32) (x1 : Vec F S512x768 .f32) (x2 : Vec F S1x512 .f32) : Vec F S2048x512 .bf16 :=
  View.canon [⟨r1_o, k1_pay1 (View.ld x0 r1_x) (View.ld x1 r1_w) (View.ld x2 r1_b)⟩]

/-- The one store covers the buffer. -/
theorem cover1_3 (p0 : Vec F S2048x512 .bf16) (y : S2048x512.Idx) :
    ∃ pc ∈ ([⟨r1_o, p0⟩] : List (View.Piece (Elt F) S2048x512 .bf16)), y ∈ pc.1.set :=
  View.cover_of_tiled [⟨r1_o, p0⟩] S2048x512.size (by rfl) y

set_option maxHeartbeats 1000000 in
/-- The body on whole staging buffers, the inputs' at read contents and the output's at anything, runs to the
    continuation with the inputs' as they were and the output's at `out1_3` of them. -/
theorem sound_kernel1 (c : Dev nD) (E : Set ℕ) (i : grid1.Coords) (arg1 : Memref sig .tc .vmem S2048x768 .f32) (harg1 : arg1.IsWhole) (arg2 : Memref sig .tc .vmem S512x768 .f32) (harg2 : arg2.IsWhole) (arg3 : Memref sig .tc .vmem S1x512 .f32) (harg3 : arg3.IsWhole) (arg4 : Memref sig .tc .vmem S2048x512 .bf16) (harg4 : arg4.IsWhole)
    (x0 : Vec F S2048x768 .f32) (x1 : Vec F S512x768 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__embed_kernel i arg1 harg1 arg2 harg2 arg3 harg3 arg4 harg4) K := by
  simp only [cc1__embed_kernel_eq_skeleton]; unfold cc1__embed_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of the region on core `c`: the arrays as the region finds them; after the body each input's
    buffer at its block and the output's at `out1_3` of the input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the triple applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end

end Cert.KernelIdeal.Hand

end
-- ==== Proof.KIRetShared.lean ====
import proofs.«171527_j60000693125637_2_alg».proof.Proof.Gen.KernelIdeal.Launch
import proofs.«171527_j60000693125637_2_alg».proof.Proof.Gen.KernelIdeal.Skeleton
import proofs.«171527_j60000693125637_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! Region 2: the retrieval kernel on the grid of 8 query blocks by 5 exemplar blocks. What its three control cases
    share: the two branch conditions in closed form, where the two output windows are idle, the staging and
    scratch buffers by name, and the region's invariant split into the other regions' staging buffers, the
    accumulator and the generator register. -/

/-- The first branch (reset the accumulator) is taken exactly at the first exemplar block of a query block. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 5 = 0 :=
  (by decide +kernel : ∀ t : Fin grid2.N, cond2_0 (grid2.coords t) ↔ t.val % 5 = 0)

/-- The second branch (write the two results) is taken exactly at the last exemplar block. -/
abbrev cond2_1 (i : grid2.Coords) : Prop := k2_cond2 i = 1#1
theorem hcond2_1 : ∀ t : Fin cfg2.N, cond2_1 (grid2.coords t) ↔ t.val % 5 = 4 :=
  (by decide +kernel : ∀ t : Fin grid2.N, cond2_1 (grid2.coords t) ↔ t.val % 5 = 4)

/-- The input windows are never idle; an output window is idle, and not written back, away from the last exemplar block. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel
theorem liveAt2_3 : ∀ t : Fin cfg2.N, cond2_1 (grid2.coords t) → cfg2.idle 3 (grid2.coords t) = false := by decide +kernel
theorem idleAt2_4 : ∀ t : Fin cfg2.N, ¬cond2_1 (grid2.coords t) → cfg2.idle 4 (grid2.coords t) = true := by decide +kernel
theorem noFlush2_4 : ∀ t : Fin cfg2.N, ¬cond2_1 (grid2.coords t) → (cfg2.win 4).flush t = false := by decide +kernel
theorem liveAt2_4 : ∀ t : Fin cfg2.N, cond2_1 (grid2.coords t) → cfg2.idle 4 (grid2.coords t) = false := by decide +kernel

/-- Each window's current staging buffer at point `t`, and its wholeness. -/
abbrev ms2_0 (t : Fin cfg2.N) : Memref sig .tc .vmem S512x512 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S4096x512 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S4096x128 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S512x1 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S512x1 .f32 := win2_4.stage (cfg2.slots t 4)
abbrev hs2_4 (t : Fin cfg2.N) : (ms2_4 t).IsWhole := hstage2_4 ((cfg2.slots t 4).cast nbuf2_4)
/-- The accumulator: a whole scoped buffer of the kernel's own. -/
abbrev scM2_0 : Memref sig .tc .vmem S512x128 .f32 := Memref.whole cc2_scratch0
abbrev VS2_0 : View sig .tc .vmem S512x128 .f32 := scM2_0.view
/-- One staging buffer of each output window, through which its contents are stated. -/
abbrev VO2_3 : View sig .tc .vmem S512x1 .f32 := (Memref.whole cc2_stg3_0 : Memref sig .tc .vmem S512x1 .f32).view
abbrev VO2_4 : View sig .tc .vmem S512x1 .f32 := (Memref.whole cc2_stg4_0 : Memref sig .tc .vmem S512x1 .f32).view

/-- A scoped buffer held whole at some contents. -/
abbrev anyBuf (c : Dev nD) (r : Ref sig .tc) : sProp 𝕄 :=
  iprop(∃ f : Buf (Elt F) ((c : Thread nD τ).loc r), ((c : Thread nD τ).loc r) ↦{fullShare} f)

/-- The other two regions' staging buffers, each at some contents: what this region never touches. -/
def others2 (c : Dev nD) : sProp 𝕄 :=
  iprop(anyBuf (F := F) c cc0_stg0_0 ∗ anyBuf (F := F) c cc0_stg0_1 ∗ anyBuf (F := F) c cc0_stg1_0 ∗ anyBuf (F := F) c cc0_stg2_0 ∗ anyBuf (F := F) c cc0_stg3_0 ∗ anyBuf (F := F) c cc0_stg3_1 ∗ anyBuf (F := F) c cc1_stg0_0 ∗ anyBuf (F := F) c cc1_stg0_1 ∗ anyBuf (F := F) c cc1_stg1_0 ∗ anyBuf (F := F) c cc1_stg2_0 ∗ anyBuf (F := F) c cc1_stg3_0 ∗ anyBuf (F := F) c cc1_stg3_1)

theorem scr_any (c : Dev nD) : (iprop(∃ d, owns (c : Thread nD τ) scM2_0 fullShare d) : sProp 𝕄) = anyBuf (F := F) c cc2_scratch0 := by
  simp only [scM2_0, owns_whole]; rfl

/-- The class's invariant hands over the other regions' staging buffers, the accumulator at some contents and the
    generator register, -/
theorem PhiA2_in (c : Dev nD) :
    (Pipeline.ΦA spec2 c : sProp 𝕄) ⊢ iprop(others2 (F := F) c ∗ (∃ d, owns (c : Thread nD τ) scM2_0 fullShare d) ∗ (∃ r, prngReg c r)) := by
  unfold Pipeline.ΦA; rw [scopedRest2_eq, scr_any]; unfold others2
  iintro ⟨⟨R1, R2, R3, R4, R5, R6, R7, R8, R9, R10, R11, R12, HS⟩, Hg⟩
  isplitl [R1 R2 R3 R4 R5 R6 R7 R8 R9 R10 R11 R12]
  · isplitl [R1]; · iexact R1
    · isplitl [R2]; · iexact R2
      · isplitl [R3]; · iexact R3
        · isplitl [R4]; · iexact R4
          · isplitl [R5]; · iexact R5
            · isplitl [R6]; · iexact R6
              · isplitl [R7]; · iexact R7
                · isplitl [R8]; · iexact R8
                  · isplitl [R9]; · iexact R9
                    · isplitl [R10]; · iexact R10
                      · isplitl [R11]; · iexact R11
                        iexact R12
  isplitl [HS]; · iexact HS
  iexact Hg

/-- and takes them back. -/
theorem PhiA2_out (c : Dev nD) :
    iprop(others2 (F := F) c ∗ (∃ d, owns (c : Thread nD τ) scM2_0 fullShare d) ∗ (∃ r, prngReg c r)) ⊢ (Pipeline.ΦA spec2 c : sProp 𝕄) := by
  unfold Pipeline.ΦA; rw [scopedRest2_eq, scr_any]; unfold others2
  iintro ⟨⟨R1, R2, R3, R4, R5, R6, R7, R8, R9, R10, R11, R12⟩, HS, Hg⟩
  isplitl [R1 R2 R3 R4 R5 R6 R7 R8 R9 R10 R11 R12 HS]
  · isplitl [R1]; · iexact R1
    · isplitl [R2]; · iexact R2
      · isplitl [R3]; · iexact R3
        · isplitl [R4]; · iexact R4
          · isplitl [R5]; · iexact R5
            · isplitl [R6]; · iexact R6
              · isplitl [R7]; · iexact R7
                · isplitl [R8]; · iexact R8
                  · isplitl [R9]; · iexact R9
                    · isplitl [R10]; · iexact R10
                      · isplitl [R11]; · iexact R11
                        · isplitl [R12]; · iexact R12
                          iexact HS
  iexact Hg

end Cert.KernelIdeal.Hand

end
-- ==== Proof.KIRetRuns.lean ====
import proofs.«171527_j60000693125637_2_alg».proof.Proof.KIRetShared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! Region 2's body, run whole in each of its three control cases. What the stores leave in a buffer is kept as the
    list of stored pieces (last first) that the run meets; the next module reads them back. -/

-- CASE A: the first exemplar block of a query block. The accumulator is reset to zero and the block's term added;
-- the two result windows are not touched.
set_option maxHeartbeats 2000000 in
noncomputable def kernelRun2_A (c : Dev nD) (i : grid2.Coords) (arg2 : Memref sig .tc .vmem S512x512 .bf16) (harg2 : arg2.IsWhole) (arg3 : Memref sig .tc .vmem S4096x512 .bf16) (harg3 : arg3.IsWhole) (arg4 : Memref sig .tc .vmem S4096x128 .bf16) (harg4 : arg4.IsWhole) (arg5 : Memref sig .tc .vmem S512x1 .f32) (harg5 : arg5.IsWhole) (arg6 : Memref sig .tc .vmem S512x1 .f32) (harg6 : arg6.IsWhole) (arg7 : Memref sig .tc .vmem S512x128 .f32) (harg7 : arg7.IsWhole) (hc0 : cond2_0 i) (hc1 : ¬cond2_1 i)
    (x0 : Vec F S512x512 .bf16) (x1 : Vec F S4096x512 .bf16) (x2 : Vec F S4096x128 .bf16) :
    { LS0 : List (View.Piece (Elt F) S512x128 .f32) //
      ∀ (xi3 xi4 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc2__retrieve_kernel i arg2 harg2 arg3 harg3 arg4 harg4 arg5 harg5 arg6 harg6 arg7 harg7) K } := by
  refine ⟨?_, fun xi3 xi4 E K => ?run⟩
  case run =>
    simp only [cc2__retrieve_kernel_eq_skeleton]; unfold cc2__retrieve_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

-- CASE B: a middle exemplar block. The block's term is added to the accumulator the point before left.
set_option maxHeartbeats 2000000 in
noncomputable def kernelRun2_B (c : Dev nD) (i : grid2.Coords) (arg2 : Memref sig .tc .vmem S512x512 .bf16) (harg2 : arg2.IsWhole) (arg3 : Memref sig .tc .vmem S4096x512 .bf16) (harg3 : arg3.IsWhole) (arg4 : Memref sig .tc .vmem S4096x128 .bf16) (harg4 : arg4.IsWhole) (arg5 : Memref sig .tc .vmem S512x1 .f32) (harg5 : arg5.IsWhole) (arg6 : Memref sig .tc .vmem S512x1 .f32) (harg6 : arg6.IsWhole) (arg7 : Memref sig .tc .vmem S512x128 .f32) (harg7 : arg7.IsWhole) (hc0 : ¬cond2_0 i) (hc1 : ¬cond2_1 i)
    (x0 : Vec F S512x512 .bf16) (x1 : Vec F S4096x512 .bf16) (x2 : Vec F S4096x128 .bf16) (xs0 : Vec F S512x128 .f32) :
    { LS0 : List (View.Piece (Elt F) S512x128 .f32) //
      ∀ (xi3 xi4 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc2__retrieve_kernel i arg2 harg2 arg3 harg3 arg4 harg4 arg5 harg5 arg6 harg6 arg7 harg7) K } := by
  refine ⟨?_, fun xi3 xi4 E K => ?run⟩
  case run =>
    simp only [cc2__retrieve_kernel_eq_skeleton]; unfold cc2__retrieve_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

-- CASE C: the last exemplar block. The block's term is added, and the accumulator's first column and its logistic
-- image are stored into the two result windows.
set_option maxHeartbeats 2000000 in
noncomputable def kernelRun2_C (c : Dev nD) (i : grid2.Coords) (arg2 : Memref sig .tc .vmem S512x512 .bf16) (harg2 : arg2.IsWhole) (arg3 : Memref sig .tc .vmem S4096x512 .bf16) (harg3 : arg3.IsWhole) (arg4 : Memref sig .tc .vmem S4096x128 .bf16) (harg4 : arg4.IsWhole) (arg5 : Memref sig .tc .vmem S512x1 .f32) (harg5 : arg5.IsWhole) (arg6 : Memref sig .tc .vmem S512x1 .f32) (harg6 : arg6.IsWhole) (arg7 : Memref sig .tc .vmem S512x128 .f32) (harg7 : arg7.IsWhole) (hc0 : ¬cond2_0 i) (hc1 : cond2_1 i)
    (x0 : Vec F S512x512 .bf16) (x1 : Vec F S4096x512 .bf16) (x2 : Vec F S4096x128 .bf16) (xs0 : Vec F S512x128 .f32) :
    Σ' (L3 : List (View.Piece (Elt F) S512x1 .f32)) (L4 : List (View.Piece (Elt F) S512x1 .f32)), { LS0 : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc2__retrieve_kernel i arg2 harg2 arg3 harg3 arg4 harg4 arg5 harg5 arg6 harg6 arg7 harg7) K } := by
  refine ⟨?_, ?_, ?_, fun E K => ?run⟩
  case run =>
    simp only [cc2__retrieve_kernel_eq_skeleton]; unfold cc2__retrieve_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, Hk⟩
    obtain rfl := harg2.eq_unread hf0; obtain rfl := harg3.eq_unread hf1; obtain rfl := harg4.eq_unread hf2
    obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact HS0

end Cert.KernelIdeal.Hand

end
-- ==== Proof.KIRetData.lean ====
import proofs.«171527_j60000693125637_2_alg».proof.Proof.KIRetRuns

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! Region 2: what each control case leaves, the accumulation over the grid's points, the invariant that carries the
    accumulator from one point to the next, the proof data and the body obligation — at the contents `V` the region
    is entered with. -/

/-! ## What each case leaves -/

/-- Case A's pieces for the accumulator cover it. -/
theorem scover2_A (c : Dev nD) (i : grid2.Coords) (arg2 : Memref sig .tc .vmem S512x512 .bf16) (harg2 : arg2.IsWhole) (arg3 : Memref sig .tc .vmem S4096x512 .bf16) (harg3 : arg3.IsWhole) (arg4 : Memref sig .tc .vmem S4096x128 .bf16) (harg4 : arg4.IsWhole) (arg5 : Memref sig .tc .vmem S512x1 .f32) (harg5 : arg5.IsWhole) (arg6 : Memref sig .tc .vmem S512x1 .f32) (harg6 : arg6.IsWhole) (arg7 : Memref sig .tc .vmem S512x128 .f32) (harg7 : arg7.IsWhole) (hc0 : cond2_0 i) (hc1 : ¬cond2_1 i) (x0 : Vec F S512x512 .bf16) (x1 : Vec F S4096x512 .bf16) (x2 : Vec F S4096x128 .bf16) (y : S512x128.Idx) :
    ∃ pc ∈ (kernelRun2_A c i arg2 harg2 arg3 harg3 arg4 harg4 arg5 harg5 arg6 harg6 arg7 harg7 hc0 hc1 x0 x1 x2).1, y ∈ pc.1.set :=
  View.cover_of_tiledL (kernelRun2_A c i arg2 harg2 arg3 harg3 arg4 harg4 arg5 harg5 arg6 harg6 arg7 harg7 hc0 hc1 x0 x1 x2).1 S512x128.size (by sl_kernel_rfl) y
/-- What case A leaves in the accumulator: its pieces read back. -/
def sout2_A (c : Dev nD) (i : grid2.Coords) (arg2 : Memref sig .tc .vmem S512x512 .bf16) (harg2 : arg2.IsWhole) (arg3 : Memref sig .tc .vmem S4096x512 .bf16) (harg3 : arg3.IsWhole) (arg4 : Memref sig .tc .vmem S4096x128 .bf16) (harg4 : arg4.IsWhole) (arg5 : Memref sig .tc .vmem S512x1 .f32) (harg5 : arg5.IsWhole) (arg6 : Memref sig .tc .vmem S512x1 .f32) (harg6 : arg6.IsWhole) (arg7 : Memref sig .tc .vmem S512x128 .f32) (harg7 : arg7.IsWhole) (hc0 : cond2_0 i) (hc1 : ¬cond2_1 i) (x0 : Vec F S512x512 .bf16) (x1 : Vec F S4096x512 .bf16) (x2 : Vec F S4096x128 .bf16) : Vec F S512x128 .f32 :=
  VS2_0.read (Elt F) (VS2_0.writes (Elt F) VS2_0.junk (kernelRun2_A c i arg2 harg2 arg3 harg3 arg4 harg4 arg5 harg5 arg6 harg6 arg7 harg7 hc0 hc1 x0 x1 x2).1)

theorem scover2_B (c : Dev nD) (i : grid2.Coords) (arg2 : Memref sig .tc .vmem S512x512 .bf16) (harg2 : arg2.IsWhole) (arg3 : Memref sig .tc .vmem S4096x512 .bf16) (harg3 : arg3.IsWhole) (arg4 : Memref sig .tc .vmem S4096x128 .bf16) (harg4 : arg4.IsWhole) (arg5 : Memref sig .tc .vmem S512x1 .f32) (harg5 : arg5.IsWhole) (arg6 : Memref sig .tc .vmem S512x1 .f32) (harg6 : arg6.IsWhole) (arg7 : Memref sig .tc .vmem S512x128 .f32) (harg7 : arg7.IsWhole) (hc0 : ¬cond2_0 i) (hc1 : ¬cond2_1 i) (x0 : Vec F S512x512 .bf16) (x1 : Vec F S4096x512 .bf16) (x2 : Vec F S4096x128 .bf16) (xs0 : Vec F S512x128 .f32) (y : S512x128.Idx) :
    ∃ pc ∈ (kernelRun2_B c i arg2 harg2 arg3 harg3 arg4 harg4 arg5 harg5 arg6 harg6 arg7 harg7 hc0 hc1 x0 x1 x2 xs0).1, y ∈ pc.1.set :=
  View.cover_of_tiledL (kernelRun2_B c i arg2 harg2 arg3 harg3 arg4 harg4 arg5 harg5 arg6 harg6 arg7 harg7 hc0 hc1 x0 x1 x2 xs0).1 S512x128.size (by sl_kernel_rfl) y
def sout2_B (c : Dev nD) (i : grid2.Coords) (arg2 : Memref sig .tc .vmem S512x512 .bf16) (harg2 : arg2.IsWhole) (arg3 : Memref sig .tc .vmem S4096x512 .bf16) (harg3 : arg3.IsWhole) (arg4 : Memref sig .tc .vmem S4096x128 .bf16) (harg4 : arg4.IsWhole) (arg5 : Memref sig .tc .vmem S512x1 .f32) (harg5 : arg5.IsWhole) (arg6 : Memref sig .tc .vmem S512x1 .f32) (harg6 : arg6.IsWhole) (arg7 : Memref sig .tc .vmem S512x128 .f32) (harg7 : arg7.IsWhole) (hc0 : ¬cond2_0 i) (hc1 : ¬cond2_1 i) (x0 : Vec F S512x512 .bf16) (x1 : Vec F S4096x512 .bf16) (x2 : Vec F S4096x128 .bf16) (xs0 : Vec F S512x128 .f32) : Vec F S512x128 .f32 :=
  VS2_0.read (Elt F) (VS2_0.writes (Elt F) VS2_0.junk (kernelRun2_B c i arg2 harg2 arg3 harg3 arg4 harg4 arg5 harg5 arg6 harg6 arg7 harg7 hc0 hc1 x0 x1 x2 xs0).1)

theorem cover2_C_3 (c : Dev nD) (i : grid2.Coords) (arg2 : Memref sig .tc .vmem S512x512 .bf16) (harg2 : arg2.IsWhole) (arg3 : Memref sig .tc .vmem S4096x512 .bf16) (harg3 : arg3.IsWhole) (arg4 : Memref sig .tc .vmem S4096x128 .bf16) (harg4 : arg4.IsWhole) (arg5 : Memref sig .tc .vmem S512x1 .f32) (harg5 : arg5.IsWhole) (arg6 : Memref sig .tc .vmem S512x1 .f32) (harg6 : arg6.IsWhole) (arg7 : Memref sig .tc .vmem S512x128 .f32) (harg7 : arg7.IsWhole) (hc0 : ¬cond2_0 i) (hc1 : cond2_1 i) (x0 : Vec F S512x512 .bf16) (x1 : Vec F S4096x512 .bf16) (x2 : Vec F S4096x128 .bf16) (xs0 : Vec F S512x128 .f32) (y : S512x1.Idx) :
    ∃ pc ∈ (kernelRun2_C c i arg2 harg2 arg3 harg3 arg4 harg4 arg5 harg5 arg6 harg6 arg7 harg7 hc0 hc1 x0 x1 x2 xs0).1, y ∈ pc.1.set :=
  View.cover_of_tiledL (kernelRun2_C c i arg2 harg2 arg3 harg3 arg4 harg4 arg5 harg5 arg6 harg6 arg7 harg7 hc0 hc1 x0 x1 x2 xs0).1 S512x1.size (by sl_kernel_rfl) y
def out2_C_3 (c : Dev nD) (i : grid2.Coords) (arg2 : Memref sig .tc .vmem S512x512 .bf16) (harg2 : arg2.IsWhole) (arg3 : Memref sig .tc .vmem S4096x512 .bf16) (harg3 : arg3.IsWhole) (arg4 : Memref sig .tc .vmem S4096x128 .bf16) (harg4 : arg4.IsWhole) (arg5 : Memref sig .tc .vmem S512x1 .f32) (harg5 : arg5.IsWhole) (arg6 : Memref sig .tc .vmem S512x1 .f32) (harg6 : arg6.IsWhole) (arg7 : Memref sig .tc .vmem S512x128 .f32) (harg7 : arg7.IsWhole) (hc0 : ¬cond2_0 i) (hc1 : cond2_1 i) (x0 : Vec F S512x512 .bf16) (x1 : Vec F S4096x512 .bf16) (x2 : Vec F S4096x128 .bf16) (xs0 : Vec F S512x128 .f32) : Vec F S512x1 .f32 :=
  VO2_3.read (Elt F) (VO2_3.writes (Elt F) VO2_3.junk (kernelRun2_C c i arg2 harg2 arg3 harg3 arg4 harg4 arg5 harg5 arg6 harg6 arg7 harg7 hc0 hc1 x0 x1 x2 xs0).1)
theorem cover2_C_4 (c : Dev nD) (i : grid2.Coords) (arg2 : Memref sig .tc .vmem S512x512 .bf16) (harg2 : arg2.IsWhole) (arg3 : Memref sig .tc .vmem S4096x512 .bf16) (harg3 : arg3.IsWhole) (arg4 : Memref sig .tc .vmem S4096x128 .bf16) (harg4 : arg4.IsWhole) (arg5 : Memref sig .tc .vmem S512x1 .f32) (harg5 : arg5.IsWhole) (arg6 : Memref sig .tc .vmem S512x1 .f32) (harg6 : arg6.IsWhole) (arg7 : Memref sig .tc .vmem S512x128 .f32) (harg7 : arg7.IsWhole) (hc0 : ¬cond2_0 i) (hc1 : cond2_1 i) (x0 : Vec F S512x512 .bf16) (x1 : Vec F S4096x512 .bf16) (x2 : Vec F S4096x128 .bf16) (xs0 : Vec F S512x128 .f32) (y : S512x1.Idx) :
    ∃ pc ∈ (kernelRun2_C c i arg2 harg2 arg3 harg3 arg4 harg4 arg5 harg5 arg6 harg6 arg7 harg7 hc0 hc1 x0 x1 x2 xs0).2.1, y ∈ pc.1.set :=
  View.cover_of_tiledL (kernelRun2_C c i arg2 harg2 arg3 harg3 arg4 harg4 arg5 harg5 arg6 harg6 arg7 harg7 hc0 hc1 x0 x1 x2 xs0).2.1 S512x1.size (by sl_kernel_rfl) y
def out2_C_4 (c : Dev nD) (i : grid2.Coords) (arg2 : Memref sig .tc .vmem S512x512 .bf16) (harg2 : arg2.IsWhole) (arg3 : Memref sig .tc .vmem S4096x512 .bf16) (harg3 : arg3.IsWhole) (arg4 : Memref sig .tc .vmem S4096x128 .bf16) (harg4 : arg4.IsWhole) (arg5 : Memref sig .tc .vmem S512x1 .f32) (harg5 : arg5.IsWhole) (arg6 : Memref sig .tc .vmem S512x1 .f32) (harg6 : arg6.IsWhole) (arg7 : Memref sig .tc .vmem S512x128 .f32) (harg7 : arg7.IsWhole) (hc0 : ¬cond2_0 i) (hc1 : cond2_1 i) (x0 : Vec F S512x512 .bf16) (x1 : Vec F S4096x512 .bf16) (x2 : Vec F S4096x128 .bf16) (xs0 : Vec F S512x128 .f32) : Vec F S512x1 .f32 :=
  VO2_4.read (Elt F) (VO2_4.writes (Elt F) VO2_4.junk (kernelRun2_C c i arg2 harg2 arg3 harg3 arg4 harg4 arg5 harg5 arg6 harg6 arg7 harg7 hc0 hc1 x0 x1 x2 xs0).2.1)
theorem scover2_C (c : Dev nD) (i : grid2.Coords) (arg2 : Memref sig .tc .vmem S512x512 .bf16) (harg2 : arg2.IsWhole) (arg3 : Memref sig .tc .vmem S4096x512 .bf16) (harg3 : arg3.IsWhole) (arg4 : Memref sig .tc .vmem S4096x128 .bf16) (harg4 : arg4.IsWhole) (arg5 : Memref sig .tc .vmem S512x1 .f32) (harg5 : arg5.IsWhole) (arg6 : Memref sig .tc .vmem S512x1 .f32) (harg6 : arg6.IsWhole) (arg7 : Memref sig .tc .vmem S512x128 .f32) (harg7 : arg7.IsWhole) (hc0 : ¬cond2_0 i) (hc1 : cond2_1 i) (x0 : Vec F S512x512 .bf16) (x1 : Vec F S4096x512 .bf16) (x2 : Vec F S4096x128 .bf16) (xs0 : Vec F S512x128 .f32) (y : S512x128.Idx) :
    ∃ pc ∈ (kernelRun2_C c i arg2 harg2 arg3 harg3 arg4 harg4 arg5 harg5 arg6 harg6 arg7 harg7 hc0 hc1 x0 x1 x2 xs0).2.2.1, y ∈ pc.1.set :=
  View.cover_of_tiledL (kernelRun2_C c i arg2 harg2 arg3 harg3 arg4 harg4 arg5 harg5 arg6 harg6 arg7 harg7 hc0 hc1 x0 x1 x2 xs0).2.2.1 S512x128.size (by sl_kernel_rfl) y
def sout2_C (c : Dev nD) (i : grid2.Coords) (arg2 : Memref sig .tc .vmem S512x512 .bf16) (harg2 : arg2.IsWhole) (arg3 : Memref sig .tc .vmem S4096x512 .bf16) (harg3 : arg3.IsWhole) (arg4 : Memref sig .tc .vmem S4096x128 .bf16) (harg4 : arg4.IsWhole) (arg5 : Memref sig .tc .vmem S512x1 .f32) (harg5 : arg5.IsWhole) (arg6 : Memref sig .tc .vmem S512x1 .f32) (harg6 : arg6.IsWhole) (arg7 : Memref sig .tc .vmem S512x128 .f32) (harg7 : arg7.IsWhole) (hc0 : ¬cond2_0 i) (hc1 : cond2_1 i) (x0 : Vec F S512x512 .bf16) (x1 : Vec F S4096x512 .bf16) (x2 : Vec F S4096x128 .bf16) (xs0 : Vec F S512x128 .f32) : Vec F S512x128 .f32 :=
  VS2_0.read (Elt F) (VS2_0.writes (Elt F) VS2_0.junk (kernelRun2_C c i arg2 harg2 arg3 harg3 arg4 harg4 arg5 harg5 arg6 harg6 arg7 harg7 hc0 hc1 x0 x1 x2 xs0).2.2.1)

/-- A result window's buffer at a point that stores nothing into it: a placeholder nothing consults. -/
def junk2 : Vec F S512x1 .f32 := VO2_3.read (Elt F) VO2_3.junk

section
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## What the buffers hold after each point -/

/-- THE ACCUMULATION. After the body at position `n`: the two result windows' buffers and the accumulator — the case
    the closed forms select at `n`, run at the point's buffers and input blocks, the accumulator it adds to at what
    position `n - 1` left. -/
def outsAt2 (c : Dev nD) : (n : ℕ) → n < cfg2.N → Vec F S512x1 .f32 × Vec F S512x1 .f32 × Vec F S512x128 .f32
  | 0, hn => (junk2, junk2, sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩))
  | n + 1, hn =>
    if h0 : (n + 1) % 5 = 0 then
      (junk2, junk2, sout2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) ((hcond2_0 ⟨n + 1, hn⟩).mpr h0) (fun h => (fun h => by (try dsimp only at h); omega) ((hcond2_1 ⟨n + 1, hn⟩).mp h)) (iblk2 V c 0 ⟨n + 1, hn⟩) (iblk2 V c 1 ⟨n + 1, hn⟩) (iblk2 V c 2 ⟨n + 1, hn⟩))
    else
      if h1 : (n + 1) % 5 = 4 then
        (out2_C_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2.2,
         out2_C_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2.2,
         sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2.2)
      else
        (junk2, junk2, sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2.2)

/-- `outsAt2` at a point of case A. -/
theorem outsAt2_A (c : Dev nD) (t : Fin cfg2.N) (h0 : t.val % 5 = 0) (h1 : ¬t.val % 5 = 4) :
    outsAt2 V c t.val t.isLt = (junk2, junk2, sout2_A c (grid2.coords t) (ms2_0 t) (hs2_0 t) (ms2_1 t) (hs2_1 t) (ms2_2 t) (hs2_2 t) (ms2_3 t) (hs2_3 t) (ms2_4 t) (hs2_4 t) scM2_0 (Memref.isWhole_whole _) ((hcond2_0 t).mpr h0) (fun h => h1 ((hcond2_1 t).mp h)) (iblk2 V c 0 t) (iblk2 V c 1 t) (iblk2 V c 2 t)) := by
  obtain ⟨n, hn⟩ := t
  cases n with
  | zero => exact rfl
  | succ n => exact (dif_pos h0).trans rfl

/-- at a point of case B, over what the point before left, -/
theorem outsAt2_B (c : Dev nD) (t : Fin cfg2.N) (h0 : ¬t.val % 5 = 0) (h1 : ¬t.val % 5 = 4) :
    outsAt2 V c t.val t.isLt = (junk2, junk2, sout2_B c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- and at a point of case C. -/
theorem outsAt2_C (c : Dev nD) (t : Fin cfg2.N) (h0 : ¬t.val % 5 = 0) (h1 : t.val % 5 = 4) :
    outsAt2 V c t.val t.isLt =
      (out2_C_3 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.2,
       out2_C_4 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.2,
       sout2_C c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the class's; afterwards the other regions'
    staging buffers, the accumulator at what the point before left in it, and the generator register. -/
def PhiS2 (c : Dev nD) : (n : ℕ) → n ≤ cfg2.N → sProp 𝕄
  | 0, _ => Pipeline.ΦA spec2 c
  | n + 1, hn => iprop(others2 (F := F) c ∗ owns (c : Thread nD τ) scM2_0 fullShare ((outsAt2 V c n hn).2.2) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(others2 (F := F) c ∗ owns (c : Thread nD τ) scM2_0 fullShare ((outsAt2 V c n hn).2.2) ∗ (∃ r, prngReg c r)) := rfl
theorem PhiS2_pos (c : Dev nD) (n : ℕ) (h : n ≤ cfg2.N) (hz : n ≠ 0) :
    PhiS2 V c n h = iprop(others2 (F := F) c ∗ owns (c : Thread nD τ) scM2_0 fullShare ((outsAt2 V c (n - 1) (by omega)).2.2) ∗ (∃ r, prngReg c r)) := by
  cases n with
  | zero => exact absurd rfl hz
  | succ n => rfl

/-! ## The proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
    | ⟨4, _⟩ => (outsAt2 V c t.val t.isLt).2.1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]
theorem after2_4 (c : Dev nD) (t : Fin cfg2.N) : (dat2 V c).after 4 t = (outsAt2 V c t.val t.isLt).2.1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

end

end Cert.KernelIdeal.Hand

end
-- ==== Proof.KIRetBody.lean ====
import proofs.«171527_j60000693125637_2_alg».proof.Proof.KIRetData

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! Region 2: the body obligation at every point, and how the class's invariant enters and leaves the tracked one. -/

section
variable (V : (c : Dev nD) → (b : Ref sig .tc) → Buf (Elt F) ((c : Thread nD τ).loc b))

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

/-- Before any point the invariant yields the other regions' staging buffers, the accumulator at SOME contents and the
    generator register. -/
theorem Phi2_any (c : Dev nD) (t : Fin cfg2.N) :
    (dat2 V c).Φ t.castSucc ⊢ iprop(others2 (F := F) c ∗ (∃ d, owns (c : Thread nD τ) scM2_0 fullShare d) ∗ (∃ r, prngReg c r)) := by
  rw [PhiS2_castSucc V c t]
  by_cases hz : t.val = 0
  · rw [PhiS2_zero V c _ _ hz]; exact PhiA2_in c
  · rw [PhiS2_pos V c _ _ hz]
    iintro ⟨Ho, HS, Hg⟩
    isplitl [Ho]; · iexact Ho
    isplitl [HS]; · iexists _; iexact HS
    iexact Hg

set_option maxHeartbeats 4800000 in
/-- The body at any point: the inputs' buffers hold their blocks; the closed forms say which case the point is in; the
    invariant hands the run the accumulator (at what the point before left, or at anything where the case resets it)
    and takes it back at this point's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 40 := lt_of_lt_of_eq t.isLt (show cfg2.N = 40 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  by_cases h0 : t.val % 5 = 0
  · have h1 : ¬t.val % 5 = 4 := by omega
    have hc0 : cond2_0 (grid2.coords t) := (hcond2_0 t).mpr h0
    have hc1 : ¬cond2_1 (grid2.coords t) := fun h => h1 ((hcond2_1 t).mp h)
    rw [Dat.leavesExact_idle (dat2 V c) 3 t (idleAt2_3 t hc1) (noFlush2_3 t hc1),
      Dat.leavesExact_idle (dat2 V c) 4 t (idleAt2_4 t hc1) (noFlush2_4 t hc1)]
    rw [outsAt2_A V c t h0 h1]
    unfold sout2_A; (try dsimp only)
    iintro ⟨HΦ, Ho, ⟨%d0, H0⟩, ⟨%d1, H1⟩, ⟨%d2, H2⟩, ⟨%d3, H3⟩, ⟨%d4, H4⟩⟩
    ihave HΦ' := (Phi2_any V c t) $$ HΦ
    icases HΦ' with ⟨Hoth, HS0, Hg⟩
    iapply ((kernelRun2_A c (grid2.coords t) _ _ _ _ _ _ _ _ _ _ _ _ hc0 hc1 (iblk2 V c 0 t) (iblk2 V c 1 t) (iblk2 V c 2 t)).2 _ _ Set.univ _)
    isplitl [H0]; · iexact H0
    isplitl [H1]; · iexact H1
    isplitl [H2]; · iexact H2
    isplitl [H3]; · iexact H3
    isplitl [H4]; · iexact H4
    isplitl [HS0]; · iexact HS0
    iintro ⟨H0, H1, H2, H3, H4, ⟨%es0, HS0⟩⟩
    isplitl [Hoth HS0 Hg]
    · isplitl [Hoth]; · iexact Hoth
      isplitl [HS0]
      · unfold owns; iexists _; isplitr
        swap; · iexact HS0
        ipureintro; exact View.read_writes_of_cover _ _ _ _ _ (scover2_A c _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexists _; iexact H3
    iexists _; iexact H4
  · have hz : t.val ≠ 0 := fun h => h0 (by rw [h])
    have hc0 : ¬cond2_0 (grid2.coords t) := fun h => h0 ((hcond2_0 t).mp h)
    by_cases h1 : t.val % 5 = 4
    · have hc1 : cond2_1 (grid2.coords t) := (hcond2_1 t).mpr h1
      rw [show (dat2 V c).leavesExact 3 t = owns (c : Thread nD τ) (ms2_3 t) fullShare ((dat2 V c).after 3 t) from by
        unfold Dat.leavesExact; rw [liveAt2_3 t hc1], after2_3]
      rw [show (dat2 V c).leavesExact 4 t = owns (c : Thread nD τ) (ms2_4 t) fullShare ((dat2 V c).after 4 t) from by
        unfold Dat.leavesExact; rw [liveAt2_4 t hc1], after2_4]
      rw [outsAt2_C V c t h0 h1]
      unfold out2_C_3 out2_C_4 sout2_C; (try dsimp only)
      rw [PhiS2_castSucc V c t, PhiS2_pos V c _ _ hz]
      iintro ⟨⟨Hoth, HS0, Hg⟩, Ho, ⟨%d0, H0⟩, ⟨%d1, H1⟩, ⟨%d2, H2⟩, ⟨%d3, H3⟩, ⟨%d4, H4⟩⟩
      iapply ((kernelRun2_C c (grid2.coords t) _ _ _ _ _ _ _ _ _ _ _ _ hc0 hc1 (iblk2 V c 0 t) (iblk2 V c 1 t) (iblk2 V c 2 t) _).2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      iintro ⟨H0, H1, H2, ⟨%e3, H3⟩, ⟨%e4, H4⟩, ⟨%es0, HS0⟩⟩
      isplitl [Hoth HS0 Hg]
      · isplitl [Hoth]; · iexact Hoth
        isplitl [HS0]
        · unfold owns; iexists _; isplitr
          swap; · iexact HS0
          ipureintro; exact View.read_writes_of_cover _ _ _ _ _ (scover2_C c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover2_C_3 c _ _ _ _ _ _ _ _ _ _ _ _ _ _ _ _ _ _ _)
      unfold owns; iexists _; isplitr
      swap; · iexact H4
      ipureintro; exact View.read_writes_of_cover _ _ _ _ _ (cover2_C_4 c _ _ _ _ _ _ _ _ _ _ _ _ _ _ _ _ _ _ _)
    · have hc1 : ¬cond2_1 (grid2.coords t) := fun h => h1 ((hcond2_1 t).mp h)
      rw [Dat.leavesExact_idle (dat2 V c) 3 t (idleAt2_3 t hc1) (noFlush2_3 t hc1),
        Dat.leavesExact_idle (dat2 V c) 4 t (idleAt2_4 t hc1) (noFlush2_4 t hc1)]
      rw [outsAt2_B V c t h0 h1]
      unfold sout2_B; (try dsimp only)
      rw [PhiS2_castSucc V c t, PhiS2_pos V c _ _ hz]
      iintro ⟨⟨Hoth, HS0, Hg⟩, Ho, ⟨%d0, H0⟩, ⟨%d1, H1⟩, ⟨%d2, H2⟩, ⟨%d3, H3⟩, ⟨%d4, H4⟩⟩
      iapply ((kernelRun2_B c (grid2.coords t) _ _ _ _ _ _ _ _ _ _ _ _ hc0 hc1 (iblk2 V c 0 t) (iblk2 V c 1 t) (iblk2 V c 2 t) _).2 _ _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [Hoth HS0 Hg]
      · isplitl [Hoth]; · iexact Hoth
        isplitl [HS0]
        · unfold owns; iexists _; isplitr
          swap; · iexact HS0
          ipureintro; exact View.read_writes_of_cover _ _ _ _ _ (scover2_B c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexists _; iexact H3
      iexists _; iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class's back: the accumulator's contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht]
  have h : (iprop(others2 (F := F) c ∗ owns (c : Thread nD τ) scM2_0 fullShare ((outsAt2 V c (t.val - 1) (by have := t.isLt; omega)).2.2) ∗ (∃ r, prngReg c r)) : sProp 𝕄)
      ⊢ iprop(others2 (F := F) c ∗ (∃ d, owns (c : Thread nD τ) scM2_0 fullShare d) ∗ (∃ r, prngReg c r)) := by
    iintro ⟨Ho, HS, Hg⟩
    isplitl [Ho]; · iexact Ho
    isplitl [HS]; · iexists _; iexact HS
    iexact Hg
  exact h.trans (PhiA2_out c)

theorem hout2 (c : Dev nD) : (dat2 V c).Φ (Fin.last cfg2.N) ⊢ Pipeline.ΦA spec2 c :=
  Phi_out2 V c _ (by rw [Fin.val_last]; have : cfg2.N = 40 := N_2; omega)

end

end Cert.KernelIdeal.Hand

end
-- ==== Proof.KIRun.lean ====
import proofs.«171527_j60000693125637_2_alg».proof.Proof.KIEmbed0
import proofs.«171527_j60000693125637_2_alg».proof.Proof.KIEmbed1
import proofs.«171527_j60000693125637_2_alg».proof.Proof.KIRetBody
import proofs.«171527_j60000693125637_2_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! THE RUN. @main is nine items: a host stretch, region 0, two host stretches, region 1, three host stretches,
    region 2. The buffers' contents at each boundary are a fold from the launch memory: a host stretch's operations
    applied, a region's arrays replaced by what its write-backs leave. One launch over the nine items gives every
    unscoped buffer at the last boundary's contents in every final memory. -/

variable (m : (ℓ : Loc nD τ sig) → Buf (Elt F) ℓ)

/-- Core `c`'s buffers at launch. -/
abbrev B0 : Dev nD → Valuation τ sig (Elt F) := fun c b => m (c, b)
abbrev E0 : (c : Dev nD) → (b : Ref sig .tc) → Buf (Elt F) ((c : Thread nD τ).loc b) := fun c b => B0 m c b
abbrev B1 : Dev nD → Valuation τ sig (Elt F) := fun c => StableHlo.after hostOps0 (B0 m c)
abbrev E1 : (c : Dev nD) → (b : Ref sig .tc) → Buf (Elt F) ((c : Thread nD τ).loc b) := fun c b => B1 m c b
theorem B1_keep (c : Dev nD) (r : Ref sig .tc) (h : r ∉ hostOps0_W) : B1 m c r = B0 m c r :=
  StableHlo.after_of_writes_sub hostOps0 _ hostOps0_writes h

/-- At region 0's exit: its arrays at what its write-backs leave, every other buffer as entered. -/
def B2 (c : Dev nD) : Valuation τ sig (Elt F) :=
  Pipeline.withArrays spec0 c (B1 m c) fun w => (dat0 (E1 m) c).arrAt w cfg0.N
theorem B2_arr (c : Dev nD) (w : Fin cfg0.W) :
    B2 m c (Proc.devRef .tc (Pipeline.arrRef spec0 w)) = (dat0 (E1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
/-- An input window's array leaves the region as it entered. -/
theorem B2_in (c : Dev nD) (w : Fin cfg0.W) (hw : (cfg0.win w).isOut = false) :
    B2 m c (Proc.devRef .tc (Pipeline.arrRef spec0 w)) = B1 m c (Proc.devRef .tc (Pipeline.arrRef spec0 w)) :=
  (B2_arr m c w).trans (((dat0 (E1 m) c).arrAt_in w hw _).trans (A_eq0 (E1 m) c w))
abbrev E2 : (c : Dev nD) → (b : Ref sig .tc) → Buf (Elt F) ((c : Thread nD τ).loc b) := fun c b => B2 m c b
theorem hF0 (c : Dev nD) (w : Fin cfg0.W) : (dat0 (E1 m) c).arrAt w cfg0.N = E2 m c (Pipeline.arrRef spec0 w) :=
  (B2_arr m c w).symm
theorem hrest0 (c : Dev nD) : ∀ b, b ∉ Finset.univ.image (Pipeline.arrRef spec0) → E2 m c b = E1 m c b :=
  fun b hb => B2_of_ne m c b fun w e => hb (Finset.mem_image.mpr ⟨w, Finset.mem_univ _, e⟩)

abbrev B3 : Dev nD → Valuation τ sig (Elt F) := fun c => StableHlo.after hostOps1 (B2 m c)
abbrev E3 : (c : Dev nD) → (b : Ref sig .tc) → Buf (Elt F) ((c : Thread nD τ).loc b) := fun c b => B3 m c b
theorem B3_keep (c : Dev nD) (r : Ref sig .tc) (h : r ∉ hostOps1_W) : B3 m c r = B2 m c r :=
  StableHlo.after_of_writes_sub hostOps1 _ hostOps1_writes h

abbrev B4 : Dev nD → Valuation τ sig (Elt F) := fun c => StableHlo.after hostOps1_1 (B3 m c)
abbrev E4 : (c : Dev nD) → (b : Ref sig .tc) → Buf (Elt F) ((c : Thread nD τ).loc b) := fun c b => B4 m c b
theorem B4_keep (c : Dev nD) (r : Ref sig .tc) (h : r ∉ hostOps1_1_W) : B4 m c r = B3 m c r :=
  StableHlo.after_of_writes_sub hostOps1_1 _ hostOps1_1_writes h

/-- At region 1's exit: its arrays at what its write-backs leave, every other buffer as entered. -/
def B5 (c : Dev nD) : Valuation τ sig (Elt F) :=
  Pipeline.withArrays spec1 c (B4 m c) fun w => (dat1 (E4 m) c).arrAt w cfg1.N
theorem B5_arr (c : Dev nD) (w : Fin cfg1.W) :
    B5 m c (Proc.devRef .tc (Pipeline.arrRef spec1 w)) = (dat1 (E4 m) c).arrAt w cfg1.N := by
  unfold B5; exact Pipeline.withArrays_arr spec1 launch1.win.arr_inj c _ _ w
theorem B5_of_ne (c : Dev nD) (b : Ref sig .tc) (hb : ∀ w, Pipeline.arrRef spec1 w ≠ b) :
    B5 m c (Proc.devRef .tc b) = B4 m c (Proc.devRef .tc b) := by
  unfold B5; exact Pipeline.withArrays_of_ne spec1 c _ _ b hb
/-- An input window's array leaves the region as it entered. -/
theorem B5_in (c : Dev nD) (w : Fin cfg1.W) (hw : (cfg1.win w).isOut = false) :
    B5 m c (Proc.devRef .tc (Pipeline.arrRef spec1 w)) = B4 m c (Proc.devRef .tc (Pipeline.arrRef spec1 w)) :=
  (B5_arr m c w).trans (((dat1 (E4 m) c).arrAt_in w hw _).trans (A_eq1 (E4 m) c w))
abbrev E5 : (c : Dev nD) → (b : Ref sig .tc) → Buf (Elt F) ((c : Thread nD τ).loc b) := fun c b => B5 m c b
theorem hF1 (c : Dev nD) (w : Fin cfg1.W) : (dat1 (E4 m) c).arrAt w cfg1.N = E5 m c (Pipeline.arrRef spec1 w) :=
  (B5_arr m c w).symm
theorem hrest1 (c : Dev nD) : ∀ b, b ∉ Finset.univ.image (Pipeline.arrRef spec1) → E5 m c b = E4 m c b :=
  fun b hb => B5_of_ne m c b fun w e => hb (Finset.mem_image.mpr ⟨w, Finset.mem_univ _, e⟩)

abbrev B6 : Dev nD → Valuation τ sig (Elt F) := fun c => StableHlo.after hostOps2 (B5 m c)
abbrev E6 : (c : Dev nD) → (b : Ref sig .tc) → Buf (Elt F) ((c : Thread nD τ).loc b) := fun c b => B6 m c b
theorem B6_keep (c : Dev nD) (r : Ref sig .tc) (h : r ∉ hostOps2_W) : B6 m c r = B5 m c r :=
  StableHlo.after_of_writes_sub hostOps2 _ hostOps2_writes h

abbrev B7 : Dev nD → Valuation τ sig (Elt F) := fun c => StableHlo.after hostOps2_1 (B6 m c)
abbrev E7 : (c : Dev nD) → (b : Ref sig .tc) → Buf (Elt F) ((c : Thread nD τ).loc b) := fun c b => B7 m c b
theorem B7_keep (c : Dev nD) (r : Ref sig .tc) (h : r ∉ hostOps2_1_W) : B7 m c r = B6 m c r :=
  StableHlo.after_of_writes_sub hostOps2_1 _ hostOps2_1_writes h

abbrev B8 : Dev nD → Valuation τ sig (Elt F) := fun c => StableHlo.after hostOps2_2 (B7 m c)
abbrev E8 : (c : Dev nD) → (b : Ref sig .tc) → Buf (Elt F) ((c : Thread nD τ).loc b) := fun c b => B8 m c b
theorem B8_keep (c : Dev nD) (r : Ref sig .tc) (h : r ∉ hostOps2_2_W) : B8 m c r = B7 m c r :=
  StableHlo.after_of_writes_sub hostOps2_2 _ hostOps2_2_writes h

/-- At region 2's exit: its arrays at what its write-backs leave, every other buffer as entered. -/
def B9 (c : Dev nD) : Valuation τ sig (Elt F) :=
  Pipeline.withArrays spec2 c (B8 m c) fun w => (dat2 (E8 m) c).arrAt w cfg2.N
theorem B9_arr (c : Dev nD) (w : Fin cfg2.W) :
    B9 m c (Proc.devRef .tc (Pipeline.arrRef spec2 w)) = (dat2 (E8 m) c).arrAt w cfg2.N := by
  unfold B9; exact Pipeline.withArrays_arr spec2 launch2.win.arr_inj c _ _ w
theorem B9_of_ne (c : Dev nD) (b : Ref sig .tc) (hb : ∀ w, Pipeline.arrRef spec2 w ≠ b) :
    B9 m c (Proc.devRef .tc b) = B8 m c (Proc.devRef .tc b) := by
  unfold B9; exact Pipeline.withArrays_of_ne spec2 c _ _ b hb
/-- An input window's array leaves the region as it entered. -/
theorem B9_in (c : Dev nD) (w : Fin cfg2.W) (hw : (cfg2.win w).isOut = false) :
    B9 m c (Proc.devRef .tc (Pipeline.arrRef spec2 w)) = B8 m c (Proc.devRef .tc (Pipeline.arrRef spec2 w)) :=
  (B9_arr m c w).trans (((dat2 (E8 m) c).arrAt_in w hw _).trans (A_eq2 (E8 m) c w))
abbrev E9 : (c : Dev nD) → (b : Ref sig .tc) → Buf (Elt F) ((c : Thread nD τ).loc b) := fun c b => B9 m c b
theorem hF2 (c : Dev nD) (w : Fin cfg2.W) : (dat2 (E8 m) c).arrAt w cfg2.N = E9 m c (Pipeline.arrRef spec2 w) :=
  (B9_arr m c w).symm
theorem hrest2 (c : Dev nD) : ∀ b, b ∉ Finset.univ.image (Pipeline.arrRef spec2) → E9 m c b = E8 m c b :=
  fun b hb => B9_of_ne m c b fun w e => hb (Finset.mem_image.mpr ⟨w, Finset.mem_univ _, e⟩)

/-! ## The arguments end as launched: no host operation writes one, and a region only reads one -/
theorem B9_main_arg0 (c : Dev nD) : B9 m c (Proc.devRef .tc main_arg0) = m ((c : Thread nD τ).loc main_arg0) :=
  (B9_of_ne m c main_arg0 (by decide)).trans <| (B8_keep m c main_arg0 (by decide)).trans <| (B7_keep m c main_arg0 (by decide)).trans <|
  (B6_keep m c main_arg0 (by decide)).trans <| (B5_of_ne m c main_arg0 (by decide)).trans <| (B4_keep m c main_arg0 (by decide)).trans <|
  (B3_keep m c main_arg0 (by decide)).trans <| (B2_in m c 0 rfl).trans <| (B1_keep m c main_arg0 (by decide)).trans rfl
theorem B9_main_arg1 (c : Dev nD) : B9 m c (Proc.devRef .tc main_arg1) = m ((c : Thread nD τ).loc main_arg1) :=
  (B9_of_ne m c main_arg1 (by decide)).trans <| (B8_keep m c main_arg1 (by decide)).trans <| (B7_keep m c main_arg1 (by decide)).trans <|
  (B6_keep m c main_arg1 (by decide)).trans <| (B5_of_ne m c main_arg1 (by decide)).trans <| (B4_keep m c main_arg1 (by decide)).trans <|
  (B3_keep m c main_arg1 (by decide)).trans <| (B2_of_ne m c main_arg1 (by decide)).trans <| (B1_keep m c main_arg1 (by decide)).trans rfl
theorem B9_main_arg2 (c : Dev nD) : B9 m c (Proc.devRef .tc main_arg2) = m ((c : Thread nD τ).loc main_arg2) :=
  (B9_of_ne m c main_arg2 (by decide)).trans <| (B8_keep m c main_arg2 (by decide)).trans <| (B7_keep m c main_arg2 (by decide)).trans <|
  (B6_keep m c main_arg2 (by decide)).trans <| (B5_of_ne m c main_arg2 (by decide)).trans <| (B4_keep m c main_arg2 (by decide)).trans <|
  (B3_keep m c main_arg2 (by decide)).trans <| (B2_of_ne m c main_arg2 (by decide)).trans <| (B1_keep m c main_arg2 (by decide)).trans rfl
theorem B9_main_arg3 (c : Dev nD) : B9 m c (Proc.devRef .tc main_arg3) = m ((c : Thread nD τ).loc main_arg3) :=
  (B9_of_ne m c main_arg3 (by decide)).trans <| (B8_keep m c main_arg3 (by decide)).trans <| (B7_keep m c main_arg3 (by decide)).trans <|
  (B6_keep m c main_arg3 (by decide)).trans <| (B5_in m c 1 rfl).trans <| (B4_keep m c main_arg3 (by decide)).trans <|
  (B3_keep m c main_arg3 (by decide)).trans <| (B2_in m c 1 rfl).trans <| (B1_keep m c main_arg3 (by decide)).trans rfl
theorem B9_main_arg4 (c : Dev nD) : B9 m c (Proc.devRef .tc main_arg4) = m ((c : Thread nD τ).loc main_arg4) :=
  (B9_of_ne m c main_arg4 (by decide)).trans <| (B8_keep m c main_arg4 (by decide)).trans <| (B7_keep m c main_arg4 (by decide)).trans <|
  (B6_keep m c main_arg4 (by decide)).trans <| (B5_of_ne m c main_arg4 (by decide)).trans <| (B4_keep m c main_arg4 (by decide)).trans <|
  (B3_keep m c main_arg4 (by decide)).trans <| (B2_of_ne m c main_arg4 (by decide)).trans <| (B1_keep m c main_arg4 (by decide)).trans rfl
theorem B9_main_arg5 (c : Dev nD) : B9 m c (Proc.devRef .tc main_arg5) = m ((c : Thread nD τ).loc main_arg5) :=
  (B9_of_ne m c main_arg5 (by decide)).trans <| (B8_keep m c main_arg5 (by decide)).trans <| (B7_keep m c main_arg5 (by decide)).trans <|
  (B6_keep m c main_arg5 (by decide)).trans <| (B5_of_ne m c main_arg5 (by decide)).trans <| (B4_keep m c main_arg5 (by decide)).trans <|
  (B3_keep m c main_arg5 (by decide)).trans <| (B2_of_ne m c main_arg5 (by decide)).trans <| (B1_keep m c main_arg5 (by decide)).trans rfl
theorem B9_main_arg6 (c : Dev nD) : B9 m c (Proc.devRef .tc main_arg6) = m ((c : Thread nD τ).loc main_arg6) :=
  (B9_of_ne m c main_arg6 (by decide)).trans <| (B8_keep m c main_arg6 (by decide)).trans <| (B7_keep m c main_arg6 (by decide)).trans <|
  (B6_keep m c main_arg6 (by decide)).trans <| (B5_of_ne m c main_arg6 (by decide)).trans <| (B4_keep m c main_arg6 (by decide)).trans <|
  (B3_keep m c main_arg6 (by decide)).trans <| (B2_of_ne m c main_arg6 (by decide)).trans <| (B1_keep m c main_arg6 (by decide)).trans rfl

/-! ## The proof data family and the thread state -/

abbrev admH : (p : Fin 3) → (pcfgs (F := F) p).Adm := fun p => (cfgs p).toPCfg_adm
def pdatsH : (p : Fin 3) → (c : Dev nD) → Dat τ (Elt F) Unit ℕ (UR sig nD τ) ℕ (Pipeline.pin (pcfgs (F := F)) admH p) c
  | ⟨0, _⟩ => fun c => dat0 (E1 m) c
  | ⟨1, _⟩ => fun c => dat1 (E4 m) c
  | ⟨2, _⟩ => fun c => dat2 (E8 m) c
abbrev 𝒱H : Variants := Variants.none
abbrev LH : GSem nD τ sig → Finset Unit := fun _ => ∅
abbrev lvH : GSem nD τ sig → Unit → ℕ := fun _ _ => 0
/-- What rides beside the buffers through every item: the generator register at some state, and nothing owed. -/
abbrev RH (c : Dev nD) : sProp 𝕄 := iprop((∃ r, prngReg c r) ∗ ∃ W, owes (c : Thread nD τ) (0 : CellTallies nD τ sig Unit) W)
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents. -/
abbrev TH (c : Dev nD) : sProp 𝕄 := iprop(StableHlo.held (c : Thread nD τ) (Pipeline.ucRefs τ sig) (B9 m c) ∗ ∃ r, prngReg c r)

/-! ## The regions as items -/

set_option backward.isDefEq.respectTransparency.types false in
/-- Region 0 over the thread state: entered from every unscoped buffer at `B1`, left at `B2`. Its arrays are
    split out of the unscoped buffers and put back at the exit contents; the generator register goes into the
    invariant and comes out; nothing is owed; the kernel has no semaphore of its own. -/
def reg0 : Pipeline.RegionSeg (pcfgs (F := F)) admH (pdatsH m) () defs₀ 𝒱H LH lvH 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ LH lvH 0 fun _ _ => rfl
  pre c := iprop(StableHlo.held (c : Thread nD τ) (Pipeline.ucRefs τ sig) (B1 m c) ∗ RH c)
  post c := iprop(StableHlo.held (c : Thread nD τ) (Pipeline.ucRefs τ sig) (B2 m c) ∗ RH c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) admH (pdatsH m) launch0.win launch0.arr_whole c
      ((pdatsH m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m) ((pdatsH m 0 c).share_full fun _ => rfl)
      (E1 m c) (E2 m c) ((pdatsH m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `B4`, left at `B5`. Its arrays are
    split out of the unscoped buffers and put back at the exit contents; the generator register goes into the
    invariant and comes out; nothing is owed; the kernel has no semaphore of its own. -/
def reg1 : Pipeline.RegionSeg (pcfgs (F := F)) admH (pdatsH m) () defs₀ 𝒱H LH lvH 1 where
  win := launch1.win.to₀
  block_pos := launch1.block_pos
  stage_whole := launch1.stage_whole
  K := PEmpty
  osem k := k.elim
  ho := Pipeline.OwnSemFacts.none _
  hbody c := (body_obligation1 (E4 m) c).loose
  hwaits := Pipeline.hwaits_of_owed_zero _ _ _ _ LH lvH 1 fun _ _ => rfl
  pre c := iprop(StableHlo.held (c : Thread nD τ) (Pipeline.ucRefs τ sig) (B4 m c) ∗ RH c)
  post c := iprop(StableHlo.held (c : Thread nD τ) (Pipeline.ucRefs τ sig) (B5 m c) ∗ RH c)
  X c := iprop(∃ r, prngReg c r)
  Y c := iprop(∃ r, prngReg c r)
  Z c := Pipeline.unscopedRest (Ix := Unit) (Name := ℕ) (U := UR sig nD τ) (Lvl := ℕ) spec1 c (E4 m c)
  hentry c := by
    rw [Pipeline.ownSems0_none]
    have hsplit := Pipeline.arrays_of_unscopedBufs (p := 1) (pcfgs (F := F)) admH (pdatsH m) launch1.win launch1.arr_whole c
      ((pdatsH m 1 c).share_full fun _ => rfl) (E4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsH m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsH m) ((pdatsH m 1 c).share_full fun _ => rfl)
      (E4 m c) (E5 m c) ((pdatsH m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `B8`, left at `B9`. Its arrays are
    split out of the unscoped buffers and put back at the exit contents; the generator register goes into the
    invariant and comes out; nothing is owed; the kernel has no semaphore of its own. -/
def reg2 : Pipeline.RegionSeg (pcfgs (F := F)) admH (pdatsH m) () defs₀ 𝒱H LH lvH 2 where
  win := launch2.win.to₀
  block_pos := launch2.block_pos
  stage_whole := launch2.stage_whole
  K := PEmpty
  osem k := k.elim
  ho := Pipeline.OwnSemFacts.none _
  hbody c := (body_obligation2 (E8 m) c).loose
  hwaits := Pipeline.hwaits_of_owed_zero _ _ _ _ LH lvH 2 fun _ _ => rfl
  pre c := iprop(StableHlo.held (c : Thread nD τ) (Pipeline.ucRefs τ sig) (B8 m c) ∗ RH c)
  post c := iprop(TH m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E8 m c)
  hentry c := by
    rw [Pipeline.ownSems0_none]
    have hsplit := Pipeline.arrays_of_unscopedBufs (p := 2) (pcfgs (F := F)) admH (pdatsH m) launch2.win launch2.arr_whole c
      ((pdatsH m 2 c).share_full fun _ => rfl) (E8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (E8 m) c)
    unfold Pipeline.ΦA
    iintro ⟨Hp, -, Hr⟩
    isplitl [Hr]; · iexact Hr
    iexact Hp
  hout c := by
    rw [Pipeline.ownSems0_none]
    refine BIBase.Entails.trans (hout2 (E8 m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdatsH m) ((pdatsH m 2 c).share_full fun _ => rfl)
      (E8 m c) (E9 m c) ((pdatsH m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as items, and the launch -/

abbrev segsH : List (Pipeline.Seg (pcfgs (F := F)) admH (pdatsH m) () defs₀ 𝒱H LH lvH) :=
  [ .host (hsegH hostOps0 hostOps0_sub hostOps0_fresh (B0 m)),
    .region (reg0 m),
    .host (hsegH hostOps1 hostOps1_sub hostOps1_fresh (B2 m)),
    .host (hsegH hostOps1_1 hostOps1_1_sub hostOps1_1_fresh (B3 m)),
    .region (reg1 m),
    .host (hsegH hostOps2 hostOps2_sub hostOps2_fresh (B5 m)),
    .host (hsegH hostOps2_1 hostOps2_1_sub hostOps2_1_fresh (B6 m)),
    .host (hsegH hostOps2_2 hostOps2_2_sub hostOps2_2_fresh (B7 m)),
    .region (reg2 m) ]

set_option backward.isDefEq.respectTransparency.types false in
/-- At the compiled mesh, from any memory with zero counters, every weakly fair execution of @main terminates, nothing
    faulting, and every final memory holds each unscoped buffer at the last boundary's contents `B9`. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = B9 m c b) :=
  Pipeline.θ_run_regions_kit (pcfgs (F := F)) admH (pdatsH m) () cellOf_inj emb₁ defs₀ 𝒱H LH lvH m ρ main (segsH m)
    (fun c Q => by
      rewrite [main_chain c, Pipeline.Seg.run_eq_chain,
        show (segsH m).map Pipeline.Seg.prog = [
          StableHlo.seq hostOps0,
          Prog.lift (.customCall (Pipeline.entry 0) ()),
          StableHlo.seq hostOps1,
          StableHlo.seq hostOps1_1,
          Prog.lift (.customCall (Pipeline.entry 1) ()),
          StableHlo.seq hostOps2,
          StableHlo.seq hostOps2_1,
          StableHlo.seq hostOps2_2,
          Prog.lift (.customCall (Pipeline.entry 2) ()) ] from rfl]
      exact .rfl)
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ RH c)) (Tₙ := TH m)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach LH lvH fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B9 m c b)
    (hfin := fun c s' => by
      iintro ⟨⟨Hh, -⟩, HSI⟩
      unfold StableHlo.held
      imodintro
      iapply (pointsTo_read_all (Pipeline.ucRefs τ sig) (fun b => (((c : Thread nD τ)).1, b)) (B9 m c) s')
      isplitl [Hh] <;> iassumption)
    (hQ := fun s h c => h c)

/-- THE FRAME, at any `F`: every argument array ends as launched. -/
theorem frame_all (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (B9_main_arg0 m c),
     (h c _ (mem_uc main_arg1 (by decide))).trans (B9_main_arg1 m c),
     (h c _ (mem_uc main_arg2 (by decide))).trans (B9_main_arg2 m c),
     (h c _ (mem_uc main_arg3 (by decide))).trans (B9_main_arg3 m c),
     (h c _ (mem_uc main_arg4 (by decide))).trans (B9_main_arg4 m c),
     (h c _ (mem_uc main_arg5 (by decide))).trans (B9_main_arg5 m c),
     (h c _ (mem_uc main_arg6 (by decide))).trans (B9_main_arg6 m c)⟩) (run_all m ρ)

end Cert.KernelIdeal.Hand

end
-- ==== Proof.LibWholeStoreLoad.lean ====
/-
  A load, through ANY rectangle, of a buffer into which ONE store through the whole block was made reads the stored
  value at the rectangle's indices — an accumulator stored whole and read back through one of its columns. Any
  shape, element type and view.
-/
import Idealize.ShloMosaic.Lib.Pipeline.Value

noncomputable section

namespace Cert.LibWholeStoreLoad

open Idealize.ShloMosaic

/-- A load, through any rectangle, of what ONE store through the whole block left reads the payload there. -/
theorem readCov_whole_piece {sig : RefSig} {κ : Kind} {sp : Space} {S : Shape} {e : EltTy} {Val : EltTy → Type} [∀ e, Nonempty (Val e)]
    (v : View sig κ sp S e) {off : Fin S.rank → Nat} (h : off = fun _ => 0)
    (inb : ∀ a, off a + S.size a ≤ S.size a) (w : S.Idx → Val e) (r : Rect S) :
    v.readCov [(⟨Rect.unit off S.size inb, w⟩ : View.Piece Val S e)] r = View.ld w r := by
  subst h
  rw [View.readCov_eq_canon_ld _ _ _ (fun y => ⟨_, List.mem_singleton_self _, by
    show y ∈ (Rect.whole S).set; rw [Rect.set_whole]; exact Finset.mem_univ y⟩), View.canon_unit_zero rfl]

end Cert.LibWholeStoreLoad

end
-- ==== Proof.KIRetPieces.lean ====
import proofs.«171527_j60000693125637_2_alg».proof.Proof.KIRetData
import proofs.«171527_j60000693125637_2_alg».proof.Proof.LibWholeStoreLoad
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! Region 2: what each control case leaves, read back as the kernel body's named payloads of the input blocks. -/

theorem hz2 : (![0, 0] : Fin 2 → Nat) = fun _ => 0 := by
  funext a; match a with | ⟨0, _⟩ => rfl | ⟨1, _⟩ => rfl

/-- The accumulator's first column, as a rectangle of its shape. -/
abbrev rcol : Rect S512x128 := Rect.unit (s := S512x128) ![0, 0] S512x1.size inb_S512x128_S512x1_0_0

/-- Case A leaves the accumulator at the block's term added to the zero splat. -/
theorem sout2_A_eq (c : Dev nD) (i : grid2.Coords) (arg2 : Memref sig .tc .vmem S512x512 .bf16) (harg2 : arg2.IsWhole) (arg3 : Memref sig .tc .vmem S4096x512 .bf16) (harg3 : arg3.IsWhole) (arg4 : Memref sig .tc .vmem S4096x128 .bf16) (harg4 : arg4.IsWhole) (arg5 : Memref sig .tc .vmem S512x1 .f32) (harg5 : arg5.IsWhole) (arg6 : Memref sig .tc .vmem S512x1 .f32) (harg6 : arg6.IsWhole) (arg7 : Memref sig .tc .vmem S512x128 .f32) (harg7 : arg7.IsWhole) (hc0 : cond2_0 i) (hc1 : ¬cond2_1 i) (x0 : Vec F S512x512 .bf16) (x1 : Vec F S4096x512 .bf16) (x2 : Vec F S4096x128 .bf16) :
    sout2_A c i arg2 harg2 arg3 harg3 arg4 harg4 arg5 harg5 arg6 harg6 arg7 harg7 hc0 hc1 x0 x1 x2 = k2_pay2 x0 x1 x2 (k2_pay1 (F := F)) := by
  unfold sout2_A
  rw [View.read_writes_eq_canon _ _ _ (scover2_A c i arg2 harg2 arg3 harg3 arg4 harg4 arg5 harg5 arg6 harg6 arg7 harg7 hc0 hc1 x0 x1 x2)]
  unfold kernelRun2_A
  dsimp only
  sl_unfold_words
  rw [View.canon_cons_unit_zero hz2]
  simp only [View.readAt_eq_ld, harg2.read_unread, harg3.read_unread, harg4.read_unread, harg7.read_unread, View.ld_unit_zero (S := S512x512) hz2, View.ld_unit_zero (S := S4096x512) hz2, View.ld_unit_zero (S := S4096x128) hz2, View.ld_unit_zero (S := S512x128) hz2]
  exact congrArg (k2_pay2 x0 x1 x2) (View.readCov_unit_zero arg7.view hz2 _ _)

/-- Case B leaves it at the block's term added to what the point before left. -/
theorem sout2_B_eq (c : Dev nD) (i : grid2.Coords) (arg2 : Memref sig .tc .vmem S512x512 .bf16) (harg2 : arg2.IsWhole) (arg3 : Memref sig .tc .vmem S4096x512 .bf16) (harg3 : arg3.IsWhole) (arg4 : Memref sig .tc .vmem S4096x128 .bf16) (harg4 : arg4.IsWhole) (arg5 : Memref sig .tc .vmem S512x1 .f32) (harg5 : arg5.IsWhole) (arg6 : Memref sig .tc .vmem S512x1 .f32) (harg6 : arg6.IsWhole) (arg7 : Memref sig .tc .vmem S512x128 .f32) (harg7 : arg7.IsWhole) (hc0 : ¬cond2_0 i) (hc1 : ¬cond2_1 i) (x0 : Vec F S512x512 .bf16) (x1 : Vec F S4096x512 .bf16) (x2 : Vec F S4096x128 .bf16) (xs0 : Vec F S512x128 .f32) :
    sout2_B c i arg2 harg2 arg3 harg3 arg4 harg4 arg5 harg5 arg6 harg6 arg7 harg7 hc0 hc1 x0 x1 x2 xs0 = k2_pay2 x0 x1 x2 xs0 := by
  unfold sout2_B
  rw [View.read_writes_eq_canon _ _ _ (scover2_B c i arg2 harg2 arg3 harg3 arg4 harg4 arg5 harg5 arg6 harg6 arg7 harg7 hc0 hc1 x0 x1 x2 xs0)]
  unfold kernelRun2_B
  dsimp only
  sl_unfold_words
  rw [View.canon_unit_zero hz2]
  simp only [View.readAt_eq_ld, harg2.read_unread, harg3.read_unread, harg4.read_unread, harg7.read_unread, View.ld_unit_zero (S := S512x512) hz2, View.ld_unit_zero (S := S4096x512) hz2, View.ld_unit_zero (S := S4096x128) hz2, View.ld_unit_zero (S := S512x128) hz2]

/-- Case C likewise; -/
theorem sout2_C_eq (c : Dev nD) (i : grid2.Coords) (arg2 : Memref sig .tc .vmem S512x512 .bf16) (harg2 : arg2.IsWhole) (arg3 : Memref sig .tc .vmem S4096x512 .bf16) (harg3 : arg3.IsWhole) (arg4 : Memref sig .tc .vmem S4096x128 .bf16) (harg4 : arg4.IsWhole) (arg5 : Memref sig .tc .vmem S512x1 .f32) (harg5 : arg5.IsWhole) (arg6 : Memref sig .tc .vmem S512x1 .f32) (harg6 : arg6.IsWhole) (arg7 : Memref sig .tc .vmem S512x128 .f32) (harg7 : arg7.IsWhole) (hc0 : ¬cond2_0 i) (hc1 : cond2_1 i) (x0 : Vec F S512x512 .bf16) (x1 : Vec F S4096x512 .bf16) (x2 : Vec F S4096x128 .bf16) (xs0 : Vec F S512x128 .f32) :
    sout2_C c i arg2 harg2 arg3 harg3 arg4 harg4 arg5 harg5 arg6 harg6 arg7 harg7 hc0 hc1 x0 x1 x2 xs0 = k2_pay2 x0 x1 x2 xs0 := by
  unfold sout2_C
  rw [View.read_writes_eq_canon _ _ _ (scover2_C c i arg2 harg2 arg3 harg3 arg4 harg4 arg5 harg5 arg6 harg6 arg7 harg7 hc0 hc1 x0 x1 x2 xs0)]
  unfold kernelRun2_C
  dsimp only
  sl_unfold_words
  rw [View.canon_unit_zero hz2]
  simp only [View.readAt_eq_ld, harg2.read_unread, harg3.read_unread, harg4.read_unread, harg7.read_unread, View.ld_unit_zero (S := S512x512) hz2, View.ld_unit_zero (S := S4096x512) hz2, View.ld_unit_zero (S := S4096x128) hz2, View.ld_unit_zero (S := S512x128) hz2]

/-- its first result is the updated accumulator's first column, -/
theorem out2_C_3_eq (c : Dev nD) (i : grid2.Coords) (arg2 : Memref sig .tc .vmem S512x512 .bf16) (harg2 : arg2.IsWhole) (arg3 : Memref sig .tc .vmem S4096x512 .bf16) (harg3 : arg3.IsWhole) (arg4 : Memref sig .tc .vmem S4096x128 .bf16) (harg4 : arg4.IsWhole) (arg5 : Memref sig .tc .vmem S512x1 .f32) (harg5 : arg5.IsWhole) (arg6 : Memref sig .tc .vmem S512x1 .f32) (harg6 : arg6.IsWhole) (arg7 : Memref sig .tc .vmem S512x128 .f32) (harg7 : arg7.IsWhole) (hc0 : ¬cond2_0 i) (hc1 : cond2_1 i) (x0 : Vec F S512x512 .bf16) (x1 : Vec F S4096x512 .bf16) (x2 : Vec F S4096x128 .bf16) (xs0 : Vec F S512x128 .f32) :
    out2_C_3 c i arg2 harg2 arg3 harg3 arg4 harg4 arg5 harg5 arg6 harg6 arg7 harg7 hc0 hc1 x0 x1 x2 xs0 = View.ld (k2_pay2 x0 x1 x2 xs0) rcol := by
  unfold out2_C_3
  rw [View.read_writes_eq_canon _ _ _ (cover2_C_3 c i arg2 harg2 arg3 harg3 arg4 harg4 arg5 harg5 arg6 harg6 arg7 harg7 hc0 hc1 x0 x1 x2 xs0)]
  unfold kernelRun2_C
  dsimp only
  sl_unfold_words
  rw [View.canon_unit_zero hz2]
  simp only [View.readAt_eq_ld, harg2.read_unread, harg3.read_unread, harg4.read_unread, harg7.read_unread, View.ld_unit_zero (S := S512x512) hz2, View.ld_unit_zero (S := S4096x512) hz2, View.ld_unit_zero (S := S4096x128) hz2, View.ld_unit_zero (S := S512x128) hz2]
  exact (Cert.LibWholeStoreLoad.readCov_whole_piece arg7.view hz2 _ _ _).trans rfl

/-- and its second the logistic image of that column. -/
theorem out2_C_4_eq (c : Dev nD) (i : grid2.Coords) (arg2 : Memref sig .tc .vmem S512x512 .bf16) (harg2 : arg2.IsWhole) (arg3 : Memref sig .tc .vmem S4096x512 .bf16) (harg3 : arg3.IsWhole) (arg4 : Memref sig .tc .vmem S4096x128 .bf16) (harg4 : arg4.IsWhole) (arg5 : Memref sig .tc .vmem S512x1 .f32) (harg5 : arg5.IsWhole) (arg6 : Memref sig .tc .vmem S512x1 .f32) (harg6 : arg6.IsWhole) (arg7 : Memref sig .tc .vmem S512x128 .f32) (harg7 : arg7.IsWhole) (hc0 : ¬cond2_0 i) (hc1 : cond2_1 i) (x0 : Vec F S512x512 .bf16) (x1 : Vec F S4096x512 .bf16) (x2 : Vec F S4096x128 .bf16) (xs0 : Vec F S512x128 .f32) :
    out2_C_4 c i arg2 harg2 arg3 harg3 arg4 harg4 arg5 harg5 arg6 harg6 arg7 harg7 hc0 hc1 x0 x1 x2 xs0 = k2_pay3 (View.ld (k2_pay2 x0 x1 x2 xs0) rcol) := by
  unfold out2_C_4
  rw [View.read_writes_eq_canon _ _ _ (cover2_C_4 c i arg2 harg2 arg3 harg3 arg4 harg4 arg5 harg5 arg6 harg6 arg7 harg7 hc0 hc1 x0 x1 x2 xs0)]
  unfold kernelRun2_C
  dsimp only
  sl_unfold_words
  rw [View.canon_unit_zero hz2]
  simp only [View.readAt_eq_ld, harg2.read_unread, harg3.read_unread, harg4.read_unread, harg7.read_unread, View.ld_unit_zero (S := S512x512) hz2, View.ld_unit_zero (S := S4096x512) hz2, View.ld_unit_zero (S := S4096x128) hz2, View.ld_unit_zero (S := S512x128) hz2]
  exact congrArg k2_pay3 ((Cert.LibWholeStoreLoad.readCov_whole_piece arg7.view hz2 _ _ _).trans rfl)

end Cert.KernelIdeal.Hand

end
-- ==== Proof.Spec.lean ====
/-
  The two shapes of the retrieval result, as functions of the argument arrays on the extended reals.

  Both programs embed a row `x` by a linear layer and normalise it: `lin x e = (∑ₖ x k · g_w e k) + g_b e`,
  `emb x e = lin x e / max (√(∑ₑ (lin x e)²)) ε`, with `ε` the single-precision word both programs spell.
  The weight of exemplar `n` is `(r n · 2 − 1) · h_w + h_b`.

  The reference sums, over the 20000 exemplars, `sign a · |a| ^ 3` times the weight, `a` the inner product of
  the two embedded rows, and applies `1 / (1 + e^(−x))`.

  The kernel pads the exemplars with 480 zero rows and the weights with 480 zeros, takes the plain cube
  `a · a · a`, and accumulates five consecutive blocks of 4096 exemplars onto zero, one after the other; its
  second result is the logistic function of that sum.
-/
import Idealize.ShloMosaic.PureOps.Ideal

noncomputable section

namespace Cert.Spec

open Idealize.ShloMosaic

/-- The small positive word both programs take the maximum of a norm with. -/
def eps : EReal := Ideal.ofBits .f32 0x2B8CBCCC#32
/-- The words for 1, 2 and 3. -/
def one : EReal := Ideal.ofBits .f32 0x3F800000#32
def two : EReal := Ideal.ofBits .f32 0x40000000#32
def three : EReal := Ideal.ofBits .f32 0x40400000#32

variable {ι : Type}

/-- The linear layer on row `i`: feature `e` of `x i · g_wᵀ + g_b`. -/
def lin (x : ι → Fin 768 → EReal) (gw : Fin 512 → Fin 768 → EReal) (gb : Fin 512 → EReal) (i : ι) (e : Fin 512) : EReal :=
  (∑ k : Fin 768, x i k * gw e k) + gb e

/-- The length a row is divided by: the larger of its Euclidean norm and `eps`. -/
def len (y : ι → Fin 512 → EReal) (i : ι) : EReal :=
  max (Ideal.sqrt (∑ e : Fin 512, y i e * y i e)) eps

/-- The embedded, normalised row. -/
def emb (x : ι → Fin 768 → EReal) (gw : Fin 512 → Fin 768 → EReal) (gb : Fin 512 → EReal) (i : ι) (e : Fin 512) : EReal :=
  Ideal.div (lin x gw gb i e) (len (lin x gw gb) i)

/-- The weight of exemplar `n`. -/
def wt (r : Fin 20000 → EReal) (hw hb : EReal) (n : Fin 20000) : EReal :=
  (r n * two - one) * hw + hb

/-- The inner product of two embedded rows. -/
def inner (u v : Fin 512 → EReal) : EReal := ∑ e : Fin 512, u e * v e

/-- The reference's activation: the sign times the third power of the absolute value. -/
def act (a : EReal) : EReal := Ideal.sign a * Ideal.pow (max a (-a)) three

/-- The reference's first result at query `b`. -/
def refLogit (X : Fin 4096 → Fin 768 → EReal) (D : Fin 20000 → Fin 768 → EReal) (r : Fin 20000 → EReal)
    (gw : Fin 512 → Fin 768 → EReal) (gb : Fin 512 → EReal) (hw hb : EReal) (b : Fin 4096) : EReal :=
  ∑ n : Fin 20000, act (inner (emb X gw gb b) (emb D gw gb n)) * wt r hw hb n

/-- The reference's second result at query `b`. -/
def refPred (X : Fin 4096 → Fin 768 → EReal) (D : Fin 20000 → Fin 768 → EReal) (r : Fin 20000 → EReal)
    (gw : Fin 512 → Fin 768 → EReal) (gb : Fin 512 → EReal) (hw hb : EReal) (b : Fin 4096) : EReal :=
  Ideal.div one (one + Ideal.exp (-(refLogit X D r gw gb hw hb b)))

/-- The exemplars padded with zero rows, indexed by a natural number. -/
def padRows (D : Fin 20000 → Fin 768 → EReal) : ℕ → Fin 768 → EReal :=
  fun n k => if h : n < 20000 then D ⟨n, h⟩ k else 0

/-- The weights padded with zeros, indexed by a natural number. -/
def padWt (w : Fin 20000 → EReal) : ℕ → EReal :=
  fun n => if h : n < 20000 then w ⟨n, h⟩ else 0

/-- The kernel's activation: the plain cube. -/
def cube (a : EReal) : EReal := a * a * a

/-- What block `j` of 4096 exemplars adds to a query's accumulator. -/
def blockTerm (xe : Fin 512 → EReal) (de : ℕ → Fin 512 → EReal) (w : ℕ → EReal) (j : ℕ) : EReal :=
  ∑ n : Fin 4096, cube (inner xe (de (4096 * j + n.val))) * w (4096 * j + n.val)

/-- The accumulator after `j` blocks, from zero. -/
def acc (xe : Fin 512 → EReal) (de : ℕ → Fin 512 → EReal) (w : ℕ → EReal) : ℕ → EReal
  | 0 => 0
  | j + 1 => acc xe de w j + blockTerm xe de w j

/-- The kernel's first result at query `b`: the accumulator after the five blocks. -/
def kerLogit (X : Fin 4096 → Fin 768 → EReal) (D : Fin 20000 → Fin 768 → EReal) (r : Fin 20000 → EReal)
    (gw : Fin 512 → Fin 768 → EReal) (gb : Fin 512 → EReal) (hw hb : EReal) (b : Fin 4096) : EReal :=
  acc (emb X gw gb b) (emb (padRows D) gw gb) (padWt (wt r hw hb)) 5

/-- The kernel's second result at query `b`. -/
def kerPred (X : Fin 4096 → Fin 768 → EReal) (D : Fin 20000 → Fin 768 → EReal) (r : Fin 20000 → EReal)
    (gw : Fin 512 → Fin 768 → EReal) (gb : Fin 512 → EReal) (hw hb : EReal) (b : Fin 4096) : EReal :=
  Ideal.logistic (kerLogit X D r gw gb hw hb b)

end Cert.Spec

end
-- ==== Proof.KIPayRetrieve.lean ====
/-
  The retrieval kernel's three stored values, read at an index on the extended reals: the zero array, the
  accumulator plus a block's weighted cubes of inner products, and the logistic function.
-/
import proofs.«171527_j60000693125637_2_alg».proof.Proof.Spec
import proofs.«171527_j60000693125637_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx

/-! ## The two products -/

/-- Entry `(p, e)` of the product that contracts the second axis of both operands: the sum over `k` of
    the left operand at `(p, k)` times the right operand at `(e, k)`. -/
theorem matmul_inner_apply (l : FVec Ideal S512x512 .bf16) (r : FVec Ideal S4096x512 .bf16) (p : Fin 512) (e : Fin 4096) :
    matmul dot_S512x512_S4096x512_S512x4096_1_1_0_0_n_n none l r (constant S512x4096 .f32 0x00000000#32) (ix2 p e)
      = ∑ k : Fin 512, l (ix2 p k) * r (ix2 e k) := by
  refine (Ideal.matmul_constant_zero_apply dot_S512x512_S4096x512_S512x4096_1_1_0_0_n_n none l r (ix2 p e)).trans ?_
  rw [← Equiv.sum_comp (contrEquiv1 dot_S512x512_S4096x512_S512x4096_1_1_0_0_n_n 512 rfl rfl).symm]
  refine Finset.sum_congr rfl fun k _ => ?_
  have hk := contrEquiv1_symm_val dot_S512x512_S4096x512_S512x4096_1_1_0_0_n_n 512 rfl rfl k
  have l0 : ∀ q : (dot_S512x512_S4096x512_S512x4096_1_1_0_0_n_n).contr.Idx, ((dot_S512x512_S4096x512_S512x4096_1_1_0_0_n_n).lhsIdx (ix2 p e) q 0).val = p.val := fun q => by
    unfold DotDims.lhsIdx
    rw [dif_neg (show ¬(0 : Fin (S512x512).rank) ∈ (dot_S512x512_S4096x512_S512x4096_1_1_0_0_n_n).lhsBatch by decide), dif_pos (show (0 : Fin (S512x512).rank) ∈ (dot_S512x512_S4096x512_S512x4096_1_1_0_0_n_n).lhsNonContracting by decide)]
    rfl
  have r0 : ∀ q : (dot_S512x512_S4096x512_S512x4096_1_1_0_0_n_n).contr.Idx, ((dot_S512x512_S4096x512_S512x4096_1_1_0_0_n_n).rhsIdx (ix2 p e) q 0).val = e.val := fun q => by
    unfold DotDims.rhsIdx
    rw [dif_neg (show ¬(0 : Fin (S4096x512).rank) ∈ (dot_S512x512_S4096x512_S512x4096_1_1_0_0_n_n).rhsBatch by decide), dif_pos (show (0 : Fin (S4096x512).rank) ∈ (dot_S512x512_S4096x512_S512x4096_1_1_0_0_n_n).rhsNonContracting by decide)]
    rfl
  have el : (dot_S512x512_S4096x512_S512x4096_1_1_0_0_n_n).lhsIdx (ix2 p e) ((contrEquiv1 dot_S512x512_S4096x512_S512x4096_1_1_0_0_n_n 512 rfl rfl).symm k) = ix2 p k := funext fun a => Fin.ext (by
    match a with
    | ⟨0, _⟩ => exact l0 _
    | ⟨1, _⟩ => exact ((dot_S512x512_S4096x512_S512x4096_1_1_0_0_n_n).lhsIdx_val_of_single rfl _ _).trans hk)
  have er : (dot_S512x512_S4096x512_S512x4096_1_1_0_0_n_n).rhsIdx (ix2 p e) ((contrEquiv1 dot_S512x512_S4096x512_S512x4096_1_1_0_0_n_n 512 rfl rfl).symm k) = ix2 e k := funext fun a => Fin.ext (by
    match a with
    | ⟨0, _⟩ => exact r0 _
    | ⟨1, _⟩ => exact ((dot_S512x512_S4096x512_S512x4096_1_1_0_0_n_n).rhsIdx_val_of_single rfl _ _).trans hk)
  rw [el, er]

/-- Entry `(p, q)` of the plain product of a `512 × 4096` by a `4096 × 128` array. -/
theorem matmul_weight_apply (l : FVec Ideal S512x4096 .bf16) (r : FVec Ideal S4096x128 .bf16) (p : Fin 512) (q : Fin 128) :
    matmul dot_S512x4096_S4096x128_S512x128_1_0_0_1_n_n none l r (constant S512x128 .f32 0x00000000#32) (ix2 p q)
      = ∑ n : Fin 4096, l (ix2 p n) * r (ix2 n q) := by
  refine (Ideal.matmul_constant_zero_apply dot_S512x4096_S4096x128_S512x128_1_0_0_1_n_n none l r (ix2 p q)).trans ?_
  rw [← Equiv.sum_comp (contrEquiv1 dot_S512x4096_S4096x128_S512x128_1_0_0_1_n_n 4096 rfl rfl).symm]
  refine Finset.sum_congr rfl fun n _ => ?_
  have hn := contrEquiv1_symm_val dot_S512x4096_S4096x128_S512x128_1_0_0_1_n_n 4096 rfl rfl n
  have l0 : ∀ c : (dot_S512x4096_S4096x128_S512x128_1_0_0_1_n_n).contr.Idx, ((dot_S512x4096_S4096x128_S512x128_1_0_0_1_n_n).lhsIdx (ix2 p q) c 0).val = p.val := fun c => by
    unfold DotDims.lhsIdx
    rw [dif_neg (show ¬(0 : Fin S512x4096.rank) ∈ (dot_S512x4096_S4096x128_S512x128_1_0_0_1_n_n).lhsBatch by decide), dif_pos (show (0 : Fin S512x4096.rank) ∈ (dot_S512x4096_S4096x128_S512x128_1_0_0_1_n_n).lhsNonContracting by decide)]
    rfl
  have r1 : ∀ c : (dot_S512x4096_S4096x128_S512x128_1_0_0_1_n_n).contr.Idx, ((dot_S512x4096_S4096x128_S512x128_1_0_0_1_n_n).rhsIdx (ix2 p q) c 1).val = q.val := fun c => by
    unfold DotDims.rhsIdx
    rw [dif_neg (show ¬(1 : Fin S4096x128.rank) ∈ (dot_S512x4096_S4096x128_S512x128_1_0_0_1_n_n).rhsBatch by decide), dif_pos (show (1 : Fin S4096x128.rank) ∈ (dot_S512x4096_S4096x128_S512x128_1_0_0_1_n_n).rhsNonContracting by decide)]
    rfl
  have el : (dot_S512x4096_S4096x128_S512x128_1_0_0_1_n_n).lhsIdx (ix2 p q) ((contrEquiv1 dot_S512x4096_S4096x128_S512x128_1_0_0_1_n_n 4096 rfl rfl).symm n) = ix2 p n := funext fun a => Fin.ext (by
    match a with
    | ⟨0, _⟩ => exact l0 _
    | ⟨1, _⟩ => exact ((dot_S512x4096_S4096x128_S512x128_1_0_0_1_n_n).lhsIdx_val_of_single rfl _ _).trans hn)
  have er : (dot_S512x4096_S4096x128_S512x128_1_0_0_1_n_n).rhsIdx (ix2 p q) ((contrEquiv1 dot_S512x4096_S4096x128_S512x128_1_0_0_1_n_n 4096 rfl rfl).symm n) = ix2 n q := funext fun a => Fin.ext (by
    match a with
    | ⟨0, _⟩ => exact ((dot_S512x4096_S4096x128_S512x128_1_0_0_1_n_n).rhsIdx_val_of_single rfl _ _).trans hn
    | ⟨1, _⟩ => exact r1 _)
  rw [el, er]

/-! ## The three payloads of the retrieval kernel -/

/-- The first block's store: the zero array. -/
theorem pay_zero (p : Fin 512) (q : Fin 128) : k2_pay1 (F := Ideal) (ix2 p q) = 0 := by
  unfold k2_pay1
  rw [shapeCast_self]
  exact Ideal.ofBits_zero_f32

/-- Every block's store: the accumulator plus, over the block's 4096 exemplars, the cube of the inner product
    of the query's embedded row with the exemplar's, times the exemplar's weight. -/
theorem pay_acc (v3 : Vec Ideal S512x512 .bf16) (v5 : Vec Ideal S4096x512 .bf16) (v11 : Vec Ideal S4096x128 .bf16)
    (v13 : Vec Ideal S512x128 .f32) (p : Fin 512) (q : Fin 128) :
    k2_pay2 (F := Ideal) v3 v5 v11 v13 (ix2 p q)
      = v13 (ix2 p q) + ∑ n : Fin 4096, Cert.Spec.cube (Cert.Spec.inner (fun (e : Fin 512) => v3 (ix2 p e)) (fun (e : Fin 512) => v5 (ix2 n e))) * v11 (ix2 n q) := by
  unfold k2_pay2
  simp only [shapeCast_self]
  refine congrArg (v13 (ix2 p q) + ·) ?_
  refine (matmul_weight_apply _ _ p q).trans ?_
  refine Finset.sum_congr rfl fun n _ => ?_
  refine congrArg (· * v11 (ix2 n q)) ?_
  refine Eq.trans ?_ (congrArg Cert.Spec.cube (matmul_inner_apply v3 v5 p n))
  rfl

/-- The last block's second store: the logistic function of the accumulated sum. -/
theorem pay_logistic (v22 : Vec Ideal S512x1 .f32) (p : Fin 512) :
    k2_pay3 (F := Ideal) v22 (ix2 p 0) = Ideal.logistic (v22 (ix2 p 0)) := rfl

end Cert.KernelIdeal.Pay

end
-- ==== Proof.KIRetValue.lean ====
import proofs.«171527_j60000693125637_2_alg».proof.Proof.KIRetPieces
import proofs.«171527_j60000693125637_2_alg».proof.Proof.KIPayRetrieve
import proofs.«171527_j60000693125637_2_alg».proof.Proof.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! Region 2 at the extended reals: the accumulator's first column after each point, and the two result arrays. -/

open Idealize.ShloMosaic.ValueIdx

section
variable (V : (c : Dev nD) → (b : Ref sig .tc) → Buf (Elt Ideal) ((c : Thread nD τ).loc b)) (c : Dev nD)

/-- The printed index maps over the grid: point `t` is query block `t / 5` and exemplar block `t % 5`. -/
theorem idx2 : ∀ t : Fin cfg2.N, win2_0.index t (0 : Fin 2) = t.val / 5 ∧ win2_0.index t (1 : Fin 2) = 0
    ∧ win2_1.index t (0 : Fin 2) = t.val % 5 ∧ win2_1.index t (1 : Fin 2) = 0
    ∧ win2_2.index t (0 : Fin 2) = t.val % 5 ∧ win2_2.index t (1 : Fin 2) = 0
    ∧ win2_3.index t (0 : Fin 2) = t.val / 5 ∧ win2_3.index t (1 : Fin 2) = 0
    ∧ win2_4.index t (0 : Fin 2) = t.val / 5 ∧ win2_4.index t (1 : Fin 2) = 0 :=
  (by decide +kernel : ∀ t : Fin grid2.N, _)

/-- The embedded queries, the embedded (padded) exemplars and the (padded) weights as the region finds them. -/
def xeOf (b : Fin 4096) (e : Fin 512) : EReal := (V c main_v1 : S4096x512.Idx → EReal) (ix2 b e)
def deOf (n : ℕ) (e : Fin 512) : EReal := if h : n < 20480 then (V c main_v3 : S20480x512.Idx → EReal) (ix2 ⟨n, h⟩ e) else 0
def wOf (n : ℕ) : EReal := if h : n < 20480 then (V c main_v19 : S20480x128.Idx → EReal) (ix2 ⟨n, h⟩ (0 : Fin 128)) else 0

/-- The query block at point `t`: rows `512 · (t / 5) + p`. -/
theorem blk0_apply (t : Fin cfg2.N) (p e : Fin 512) (hb : 512 * (t.val / 5) + p.val < 4096) :
    (iblk2 V c 0 t : S512x512.Idx → EReal) (ix2 p e) = xeOf V c ⟨512 * (t.val / 5) + p.val, hb⟩ e := by
  obtain ⟨e0, e1, -⟩ := idx2 t
  show (V c main_v1 : S4096x512.Idx → EReal) (((cfg2.win 0).blk t).view.emb (ix2 p e)) = (V c main_v1 : S4096x512.Idx → EReal) _
  refine congrArg _ ?_
  funext a; apply Fin.ext
  match a with
  | ⟨0, _⟩ => show win2_0.index t (0 : Fin 2) * 512 + 1 * p.val = 512 * (t.val / 5) + p.val; omega
  | ⟨1, _⟩ => show win2_0.index t (1 : Fin 2) * 512 + 1 * e.val = e.val; omega

/-- The exemplar block at point `t`: rows `4096 · (t % 5) + n`. -/
theorem blk1_apply (t : Fin cfg2.N) (n : Fin 4096) (e : Fin 512) :
    (iblk2 V c 1 t : S4096x512.Idx → EReal) (ix2 n e) = deOf V c (4096 * (t.val % 5) + n.val) e := by
  obtain ⟨-, -, e0, e1, -⟩ := idx2 t
  have hb : 4096 * (t.val % 5) + n.val < 20480 := by have := n.isLt; omega
  unfold deOf; rw [dif_pos hb]
  show (V c main_v3 : S20480x512.Idx → EReal) (((cfg2.win 1).blk t).view.emb (ix2 n e)) = (V c main_v3 : S20480x512.Idx → EReal) _
  refine congrArg _ ?_
  funext a; apply Fin.ext
  match a with
  | ⟨0, _⟩ => show win2_1.index t (0 : Fin 2) * 4096 + 1 * n.val = 4096 * (t.val % 5) + n.val; omega
  | ⟨1, _⟩ => show win2_1.index t (1 : Fin 2) * 512 + 1 * e.val = e.val; omega

/-- The weight block at point `t`, first column. -/
theorem blk2_apply (t : Fin cfg2.N) (n : Fin 4096) :
    (iblk2 V c 2 t : S4096x128.Idx → EReal) (ix2 n (0 : Fin 128)) = wOf V c (4096 * (t.val % 5) + n.val) := by
  obtain ⟨-, -, -, -, e0, e1, -⟩ := idx2 t
  have hb : 4096 * (t.val % 5) + n.val < 20480 := by have := n.isLt; omega
  unfold wOf; rw [dif_pos hb]
  show (V c main_v19 : S20480x128.Idx → EReal) (((cfg2.win 2).blk t).view.emb (ix2 n (0 : Fin 128))) = (V c main_v19 : S20480x128.Idx → EReal) _
  refine congrArg _ ?_
  funext a; apply Fin.ext
  match a with
  | ⟨0, _⟩ => show win2_2.index t (0 : Fin 2) * 4096 + 1 * n.val = 4096 * (t.val % 5) + n.val; omega
  | ⟨1, _⟩ => show win2_2.index t (1 : Fin 2) * 128 + 1 * 0 = 0; omega

/-- ONE STEP: the accumulator's first column after the body at point `t` is what it held plus the point's block term. -/
theorem step_col (t : Fin cfg2.N) (xs : Vec Ideal S512x128 .f32) (p : Fin 512) (hb : 512 * (t.val / 5) + p.val < 4096) :
    k2_pay2 (F := Ideal) (iblk2 V c 0 t) (iblk2 V c 1 t) (iblk2 V c 2 t) xs (ix2 p (0 : Fin 128))
      = xs (ix2 p (0 : Fin 128)) + Cert.Spec.blockTerm (xeOf V c ⟨512 * (t.val / 5) + p.val, hb⟩) (deOf V c) (wOf V c) (t.val % 5) := by
  refine (Cert.KernelIdeal.Pay.pay_acc (iblk2 V c 0 t) (iblk2 V c 1 t) (iblk2 V c 2 t) xs p 0).trans ?_
  refine congrArg (xs (ix2 p (0 : Fin 128)) + ·) ?_
  unfold Cert.Spec.blockTerm
  refine Finset.sum_congr rfl fun n _ => ?_
  rw [blk2_apply V c t n]
  refine congrArg (· * _) (congrArg Cert.Spec.cube ?_)
  unfold Cert.Spec.inner
  refine Finset.sum_congr rfl fun e _ => ?_
  exact congrArg₂ (· * ·) (blk0_apply V c t p e hb) (blk1_apply V c t n e)

end

end Cert.KernelIdeal.Hand

end
-- ==== Proof.KIRetValue2.lean ====
import proofs.«171527_j60000693125637_2_alg».proof.Proof.KIRetValue

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! Region 2 at the extended reals, continued: the accumulation over the points, and the two result arrays. -/

open Idealize.ShloMosaic.ValueIdx

section
variable (V : (c : Dev nD) → (b : Ref sig .tc) → Buf (Elt Ideal) ((c : Thread nD τ).loc b)) (c : Dev nD)

/-- The first column's rectangle reads the accumulator at column 0. -/
theorem rcol_idx (p : Fin 512) : rcol.idx (ix2 p (0 : Fin 1)) = ix2 p (0 : Fin 128) := by
  funext a; apply Fin.ext
  match a with
  | ⟨0, _⟩ => show 0 + 1 * p.val = p.val; omega
  | ⟨1, _⟩ => show 0 + 1 * 0 = 0; rfl

/-- THE ACCUMULATION, first column: after the point of query block `n / 5` and exemplar block `n % 5` the accumulator
    holds, for each query of the block, the sum of the first `n % 5 + 1` block terms onto zero. -/
theorem acc_inv : ∀ (n : ℕ) (hn : n < cfg2.N) (p : Fin 512) (hb : 512 * (n / 5) + p.val < 4096),
    (outsAt2 V c n hn).2.2 (ix2 p (0 : Fin 128))
      = Cert.Spec.acc (xeOf V c ⟨512 * (n / 5) + p.val, hb⟩) (deOf V c) (wOf V c) (n % 5 + 1) := by
  intro n
  induction n using Nat.strong_induction_on with
  | _ n ih =>
    intro hn p hb
    by_cases h0 : n % 5 = 0
    · have h1 : ¬n % 5 = 4 := by omega
      rw [show outsAt2 V c n hn = _ from outsAt2_A V c ⟨n, hn⟩ h0 h1]
      dsimp only
      rw [sout2_A_eq]
      refine (step_col V c ⟨n, hn⟩ _ p hb).trans ?_
      dsimp only
      rw [Cert.KernelIdeal.Pay.pay_zero p 0, h0]
      rfl
    · have hpos : n ≠ 0 := fun h => h0 (by rw [h])
      have hb' : 512 * ((n - 1) / 5) + p.val < 4096 := by omega
      have e1 : (n - 1) / 5 = n / 5 := by omega
      have e2 : (n - 1) % 5 + 1 = n % 5 := by omega
      have ex : (⟨512 * ((n - 1) / 5) + p.val, hb'⟩ : Fin 4096) = ⟨512 * (n / 5) + p.val, hb⟩ := Fin.ext (by show 512 * ((n - 1) / 5) + p.val = 512 * (n / 5) + p.val; omega)
      have hih := ih (n - 1) (by omega) (by omega) p hb'
      rw [ex, e2] at hih
      by_cases h1 : n % 5 = 4
      · rw [show outsAt2 V c n hn = _ from outsAt2_C V c ⟨n, hn⟩ h0 h1]
        dsimp only
        rw [sout2_C_eq]
        refine (step_col V c ⟨n, hn⟩ _ p hb).trans ?_
        dsimp only
        rw [hih]
        rfl
      · rw [show outsAt2 V c n hn = _ from outsAt2_B V c ⟨n, hn⟩ h0 h1]
        dsimp only
        rw [sout2_B_eq]
        refine (step_col V c ⟨n, hn⟩ _ p hb).trans ?_
        dsimp only
        rw [hih]
        rfl

/-- At a last-block point the first result window holds the accumulator's first column, -/
theorem out3_val (n : ℕ) (hn : n < cfg2.N) (h4 : n % 5 = 4) (p : Fin 512) (hb : 512 * (n / 5) + p.val < 4096) :
    (outsAt2 V c n hn).1 (ix2 p (0 : Fin 1))
      = Cert.Spec.acc (xeOf V c ⟨512 * (n / 5) + p.val, hb⟩) (deOf V c) (wOf V c) 5 := by
  have h0 : ¬n % 5 = 0 := by omega
  have hs := acc_inv V c n hn p hb
  rw [h4] at hs
  rw [← hs]
  rw [show outsAt2 V c n hn = _ from outsAt2_C V c ⟨n, hn⟩ h0 h4]
  dsimp only
  rw [out2_C_3_eq, sout2_C_eq]
  show k2_pay2 _ _ _ _ (rcol.idx (ix2 p (0 : Fin 1))) = _
  rw [rcol_idx]

/-- and the second its logistic image. -/
theorem out4_val (n : ℕ) (hn : n < cfg2.N) (h4 : n % 5 = 4) (p : Fin 512) (hb : 512 * (n / 5) + p.val < 4096) :
    (outsAt2 V c n hn).2.1 (ix2 p (0 : Fin 1))
      = Ideal.logistic (Cert.Spec.acc (xeOf V c ⟨512 * (n / 5) + p.val, hb⟩) (deOf V c) (wOf V c) 5) := by
  have h0 : ¬n % 5 = 0 := by omega
  have hs := acc_inv V c n hn p hb
  rw [h4] at hs
  rw [← hs]
  rw [show outsAt2 V c n hn = _ from outsAt2_C V c ⟨n, hn⟩ h0 h4]
  dsimp only
  rw [out2_C_4_eq, sout2_C_eq]
  refine (Cert.KernelIdeal.Pay.pay_logistic _ p).trans ?_
  refine congrArg Ideal.logistic ?_
  show k2_pay2 _ _ _ _ (rcol.idx (ix2 p (0 : Fin 1))) = _
  rw [rcol_idx]

end

end Cert.KernelIdeal.Hand

end
-- ==== Proof.KIRetValue3.lean ====
import proofs.«171527_j60000693125637_2_alg».proof.Proof.KIRetValue2

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! Region 2 at the extended reals, concluded: each result array as one function of what the region finds. -/

open Idealize.ShloMosaic.ValueIdx

section
variable (V : (c : Dev nD) → (b : Ref sig .tc) → Buf (Elt Ideal) ((c : Thread nD τ).loc b)) (c : Dev nD)

/-- The first result: for each query, the five block terms summed onto zero. -/
def G3 : S4096x1.Idx → EReal := fun i => Cert.Spec.acc (xeOf V c (i 0)) (deOf V c) (wOf V c) 5
/-- The second result: its logistic image. -/
def G4 : S4096x1.Idx → EReal := fun i => Ideal.logistic (Cert.Spec.acc (xeOf V c (i 0)) (deOf V c) (wOf V c) 5)

/-- An index of result array 1 is in point `t`'s block iff each coordinate is in the block's range. -/
theorem mem_blk3 (t : Fin cfg2.N) (i : S4096x1.Idx) :
    i ∈ ((cfg2.win 3).blk t).view.set ↔ ∀ a : Fin 2, win2_3.index t a * S512x1.size a ≤ (i a).val ∧ (i a).val < win2_3.index t a * S512x1.size a + S512x1.size a := by
  show i ∈ ((View.whole main_v20_0).slice (win2_3.rect t)).set ↔ _
  rw [View.set_slice_whole, Rect.mem_set_unit]
  exact Iff.rfl

/-- Query row `r` is written back at the last exemplar block of its query block. -/
theorem cover3 (i : S4096x1.Idx) : ∃ t : Fin cfg2.N, (cfg2.win 3).flush t = true ∧ i ∈ ((cfg2.win 3).blk t).view.set := by
  have hi0 : (i 0).val < 4096 := (i 0).isLt
  have hi1 : (i 1).val < 1 := (i 1).isLt
  have hN : cfg2.N = 40 := N_2
  have ht : 5 * ((i 0).val / 512) + 4 < cfg2.N := by rw [hN]; omega
  refine ⟨⟨5 * ((i 0).val / 512) + 4, ht⟩, (flush2_3 _).mpr (by show (5 * ((i 0).val / 512) + 4) % 5 = 4; omega), ?_⟩
  rw [mem_blk3]
  obtain ⟨-, -, -, -, -, -, e0, e1, -⟩ := idx2 (⟨5 * ((i 0).val / 512) + 4, ht⟩ : Fin cfg2.N)
  have e0' : win2_3.index (⟨5 * ((i 0).val / 512) + 4, ht⟩ : Fin cfg2.N) (0 : Fin 2) = (5 * ((i 0).val / 512) + 4) / 5 := e0
  intro a
  match a with
  | ⟨0, _⟩ =>
    show win2_3.index _ (0 : Fin 2) * 512 ≤ (i 0).val ∧ (i 0).val < win2_3.index _ (0 : Fin 2) * 512 + 512
    rw [e0']; omega
  | ⟨1, _⟩ =>
    show win2_3.index _ (1 : Fin 2) * 1 ≤ (i 1).val ∧ (i 1).val < win2_3.index _ (1 : Fin 2) * 1 + 1
    rw [e1]; omega

/-- What a last-block point writes back is its block of `G3`. -/
theorem flushed3_eq (t : Fin cfg2.N) (hf : (cfg2.win 3).flush t = true) :
    (dat2 (F := Ideal) V c).flushed 3 t = ((cfg2.win 3).blk t).view.read (Elt Ideal) (G3 V c) := by
  have h4 : t.val % 5 = 4 := (flush2_3 t).mp hf
  have hN : t.val < 40 := lt_of_lt_of_eq t.isLt (show cfg2.N = 40 from N_2)
  obtain ⟨-, -, -, -, -, -, e0, e1, -⟩ := idx2 t
  show (cfg2.win 3).cut (grid2.coords t) ((dat2 V c).after 3 t) = _
  rw [after2_3]
  funext j
  obtain ⟨p, q, rfl⟩ : ∃ (p : Fin 512) (q : Fin 1), j = (ix2 p q : S512x1.Idx) := ⟨j 0, j 1, eq_ix2 (n0 := 512) (n1 := 1) j⟩
  obtain rfl : q = 0 := Subsingleton.elim _ _
  have hb : 512 * (t.val / 5) + p.val < 4096 := by have := p.isLt; omega
  show (outsAt2 V c t.val t.isLt).1 (ix2 p (0 : Fin 1)) = G3 V c (((cfg2.win 3).blk t).view.emb (ix2 p (0 : Fin 1)))
  rw [out3_val V c t.val t.isLt h4 p hb]
  unfold G3
  refine congrArg (fun b => Cert.Spec.acc (xeOf V c b) (deOf V c) (wOf V c) 5) ?_
  apply Fin.ext
  show 512 * (t.val / 5) + p.val = win2_3.index t (0 : Fin 2) * 512 + 1 * p.val
  omega

/-- THE RESULT ARRAY after the region. -/
theorem final3 : (dat2 (F := Ideal) V c).arrAt 3 cfg2.N = G3 V c :=
  (dat2 V c).arrAt_eq_of_cover 3 (G3 V c) (fun t hf => flushed3_eq V c t hf) (cover3)

/-- An index of result array 2 is in point `t`'s block iff each coordinate is in the block's range. -/
theorem mem_blk4 (t : Fin cfg2.N) (i : S4096x1.Idx) :
    i ∈ ((cfg2.win 4).blk t).view.set ↔ ∀ a : Fin 2, win2_4.index t a * S512x1.size a ≤ (i a).val ∧ (i a).val < win2_4.index t a * S512x1.size a + S512x1.size a := by
  show i ∈ ((View.whole main_v20_1).slice (win2_4.rect t)).set ↔ _
  rw [View.set_slice_whole, Rect.mem_set_unit]
  exact Iff.rfl

/-- Query row `r` is written back at the last exemplar block of its query block. -/
theorem cover4 (i : S4096x1.Idx) : ∃ t : Fin cfg2.N, (cfg2.win 4).flush t = true ∧ i ∈ ((cfg2.win 4).blk t).view.set := by
  have hi0 : (i 0).val < 4096 := (i 0).isLt
  have hi1 : (i 1).val < 1 := (i 1).isLt
  have hN : cfg2.N = 40 := N_2
  have ht : 5 * ((i 0).val / 512) + 4 < cfg2.N := by rw [hN]; omega
  refine ⟨⟨5 * ((i 0).val / 512) + 4, ht⟩, (flush2_4 _).mpr (by show (5 * ((i 0).val / 512) + 4) % 5 = 4; omega), ?_⟩
  rw [mem_blk4]
  obtain ⟨-, -, -, -, -, -, -, -, e0, e1⟩ := idx2 (⟨5 * ((i 0).val / 512) + 4, ht⟩ : Fin cfg2.N)
  have e0' : win2_4.index (⟨5 * ((i 0).val / 512) + 4, ht⟩ : Fin cfg2.N) (0 : Fin 2) = (5 * ((i 0).val / 512) + 4) / 5 := e0
  intro a
  match a with
  | ⟨0, _⟩ =>
    show win2_4.index _ (0 : Fin 2) * 512 ≤ (i 0).val ∧ (i 0).val < win2_4.index _ (0 : Fin 2) * 512 + 512
    rw [e0']; omega
  | ⟨1, _⟩ =>
    show win2_4.index _ (1 : Fin 2) * 1 ≤ (i 1).val ∧ (i 1).val < win2_4.index _ (1 : Fin 2) * 1 + 1
    rw [e1]; omega

/-- What a last-block point writes back is its block of `G4`. -/
theorem flushed4_eq (t : Fin cfg2.N) (hf : (cfg2.win 4).flush t = true) :
    (dat2 (F := Ideal) V c).flushed 4 t = ((cfg2.win 4).blk t).view.read (Elt Ideal) (G4 V c) := by
  have h4 : t.val % 5 = 4 := (flush2_4 t).mp hf
  have hN : t.val < 40 := lt_of_lt_of_eq t.isLt (show cfg2.N = 40 from N_2)
  obtain ⟨-, -, -, -, -, -, -, -, e0, e1⟩ := idx2 t
  show (cfg2.win 4).cut (grid2.coords t) ((dat2 V c).after 4 t) = _
  rw [after2_4]
  funext j
  obtain ⟨p, q, rfl⟩ : ∃ (p : Fin 512) (q : Fin 1), j = (ix2 p q : S512x1.Idx) := ⟨j 0, j 1, eq_ix2 (n0 := 512) (n1 := 1) j⟩
  obtain rfl : q = 0 := Subsingleton.elim _ _
  have hb : 512 * (t.val / 5) + p.val < 4096 := by have := p.isLt; omega
  show (outsAt2 V c t.val t.isLt).2.1 (ix2 p (0 : Fin 1)) = G4 V c (((cfg2.win 4).blk t).view.emb (ix2 p (0 : Fin 1)))
  rw [out4_val V c t.val t.isLt h4 p hb]
  unfold G4
  refine congrArg (fun b => Ideal.logistic (Cert.Spec.acc (xeOf V c b) (deOf V c) (wOf V c) 5)) ?_
  apply Fin.ext
  show 512 * (t.val / 5) + p.val = win2_4.index t (0 : Fin 2) * 512 + 1 * p.val
  omega

/-- THE RESULT ARRAY after the region. -/
theorem final4 : (dat2 (F := Ideal) V c).arrAt 4 cfg2.N = G4 V c :=
  (dat2 V c).arrAt_eq_of_cover 4 (G4 V c) (fun t hf => flushed4_eq V c t hf) (cover4)

end

end Cert.KernelIdeal.Hand

end
-- ==== Proof.LawConsts.lean ====
/-
  The two words of the specification whose values the law needs, evaluated once: the single-precision
  patterns `0x3F800000` and `0x40400000` denote the reals `1` and `3`.
-/
import proofs.«171527_j60000693125637_2_alg».proof.Proof.Spec

noncomputable section

namespace Cert.Law

open Idealize.ShloMosaic

/-- The word for one denotes `1`. -/
theorem one_eq : Cert.Spec.one = 1 := by
  unfold Cert.Spec.one
  simp [Ideal.ofBits, Ideal.ieee, -EReal.coe_mul]; norm_num

/-- The word for three denotes the real `3`. -/
theorem three_eq : Cert.Spec.three = ((3 : ℝ) : EReal) := by
  unfold Cert.Spec.three
  simp [Ideal.ofBits, Ideal.ieee, -EReal.coe_mul]; norm_num

end Cert.Law

end
-- ==== Proof.LawAct.lean ====
/-
  The reference's activation is the plain cube at every extended real: `sign a · |a| ^ 3 = a · a · a`.

  At `⊥`: the sign is `-1`, the absolute value `⊤`, its third power `⊤`, and `-1 · ⊤ = ⊥ = ⊥ · ⊥ · ⊥`.
  At `⊤`: `1 · ⊤ = ⊤ = ⊤ · ⊤ · ⊤`. At a real `x`: `sign x · |x| ^ 3 = x ^ 3` by the sign of `x`.
-/
import proofs.«171527_j60000693125637_2_alg».proof.Proof.LawConsts

noncomputable section

namespace Cert.Law

open Idealize.ShloMosaic

/-- On the reals: the sign times the cube of the absolute value is the cube. -/
theorem real_sign_mul_abs_cube (x : ℝ) : (SignType.sign x : ℝ) * Real.rpow |x| 3 = x * x * x := by
  have h3 : Real.rpow |x| 3 = |x| ^ 3 := by
    have h := Real.rpow_natCast |x| 3
    simpa using h
  rw [h3]
  rcases lt_trichotomy x 0 with hx | hx | hx
  · rw [sign_neg hx, abs_of_neg hx]; simp; ring
  · subst hx; simp
  · rw [sign_pos hx, abs_of_pos hx]; simp; ring

/-- The reference's activation is the cube, at every extended real. -/
theorem act_eq_cube (a : EReal) : Cert.Spec.act a = Cert.Spec.cube a := by
  unfold Cert.Spec.act Cert.Spec.cube
  rw [three_eq]
  induction a using EReal.rec with
  | bot =>
    have h : max (⊥ : EReal) (-⊥) = ⊤ := by simp
    have h3 : (0 : EReal) < ((3 : ℝ) : EReal) := by exact_mod_cast (by norm_num : (0 : ℝ) < 3)
    rw [h, Ideal.sign_bot, Ideal.pow_top, if_pos h3]
    simp
  | top =>
    have h : max (⊤ : EReal) (-⊤) = ⊤ := by simp
    have h3 : (0 : EReal) < ((3 : ℝ) : EReal) := by exact_mod_cast (by norm_num : (0 : ℝ) < 3)
    rw [h, Ideal.sign_top, Ideal.pow_top, if_pos h3]
    simp
  | coe x =>
    have h : max (x : EReal) (-(x : EReal)) = ((|x| : ℝ) : EReal) := by
      rw [← EReal.coe_neg, abs_eq_max_neg]
      exact (EReal.coe_strictMono.monotone.map_max (a := x) (b := -x)).symm
    rw [h, Ideal.sign_coe, Ideal.pow_coe_coe, ← EReal.coe_mul, ← EReal.coe_mul, ← EReal.coe_mul,
      real_sign_mul_abs_cube]

end Cert.Law

end
-- ==== Proof.Law.lean ====
/-
  The law that joins the two shapes of the retrieval result, at every extended real.

  The accumulator after `j` blocks is the sum of the first `j` block terms; a sum over `k` consecutive blocks
  of `b` indices is the sum over the first `b · k` indices. Of the `20480 = 4096 · 5` padded exemplars, the
  first `20000` read the exemplar's own row and weight — the embedding of a row reads that row only — and the
  last `480` carry the weight `0`, and `x · 0 = 0` for every extended real. The reference's activation is the
  cube (LawAct), and the logistic function is `1 / (1 + e^(−x))` by definition.
-/
import proofs.«171527_j60000693125637_2_alg».proof.Proof.LawAct

noncomputable section

namespace Cert.Law

open Idealize.ShloMosaic Cert.Spec

/-- The accumulator after `j` blocks is the sum of the first `j` block terms. -/
theorem acc_eq_sum (xe : Fin 512 → EReal) (de : ℕ → Fin 512 → EReal) (w : ℕ → EReal) (j : ℕ) :
    acc xe de w j = ∑ i ∈ Finset.range j, blockTerm xe de w i := by
  induction j with
  | zero => simp [acc]
  | succ j ih => rw [acc, ih, Finset.sum_range_succ]

/-- A sum over `k` consecutive blocks of `b` indices is the sum over the first `b · k` indices. -/
theorem sum_blocks {M : Type} [AddCommMonoid M] (g : ℕ → M) (b k : ℕ) :
    ∑ i ∈ Finset.range k, ∑ n ∈ Finset.range b, g (b * i + n) = ∑ m ∈ Finset.range (b * k), g m := by
  induction k with
  | zero => simp
  | succ k ih => rw [Finset.sum_range_succ, ih, Nat.mul_succ, Finset.sum_range_add]

/-- The linear layer on a row reads that row only. -/
theorem lin_congr {ι κ : Type} (x : ι → Fin 768 → EReal) (y : κ → Fin 768 → EReal)
    (gw : Fin 512 → Fin 768 → EReal) (gb : Fin 512 → EReal) (i : ι) (j : κ) (h : x i = y j) :
    lin x gw gb i = lin y gw gb j := by
  funext e
  unfold lin
  rw [h]

/-- The embedding of a row reads that row only. -/
theorem emb_congr {ι κ : Type} (x : ι → Fin 768 → EReal) (y : κ → Fin 768 → EReal)
    (gw : Fin 512 → Fin 768 → EReal) (gb : Fin 512 → EReal) (i : ι) (j : κ) (h : x i = y j) :
    emb x gw gb i = emb y gw gb j := by
  funext e
  unfold emb len
  rw [lin_congr x y gw gb i j h]

/-- A padded row below `20000` is the exemplar's row. -/
theorem padRows_lt (D : Fin 20000 → Fin 768 → EReal) (n : Fin 20000) : padRows D n.val = D n := by
  funext k
  simp [padRows, n.isLt]

/-- A padded weight below `20000` is the exemplar's weight. -/
theorem padWt_lt (w : Fin 20000 → EReal) (n : Fin 20000) : padWt w n.val = w n := by
  simp [padWt, n.isLt]

/-- A padded weight from `20000` on is zero. -/
theorem padWt_ge (w : Fin 20000 → EReal) (m : ℕ) : padWt w (20000 + m) = 0 := by
  have h : ¬ (20000 + m < 20000) := by omega
  simp [padWt, h]

/-- The kernel's first result is the reference's. -/
theorem kerLogit_eq_refLogit (X : Fin 4096 → Fin 768 → EReal) (D : Fin 20000 → Fin 768 → EReal)
    (r : Fin 20000 → EReal) (gw : Fin 512 → Fin 768 → EReal) (gb : Fin 512 → EReal) (hw hb : EReal)
    (b : Fin 4096) :
    kerLogit X D r gw gb hw hb b = refLogit X D r gw gb hw hb b := by
  unfold kerLogit refLogit
  rw [acc_eq_sum]
  unfold blockTerm
  -- the term of padded exemplar `m`
  set g : ℕ → EReal := fun m =>
    cube (Spec.inner (emb X gw gb b) (emb (padRows D) gw gb m)) * padWt (wt r hw hb) m with hg
  have hblk : ∀ i : ℕ, (∑ n : Fin 4096, g (4096 * i + n.val)) = ∑ n ∈ Finset.range 4096, g (4096 * i + n) :=
    fun i => Fin.sum_univ_eq_sum_range (fun n => g (4096 * i + n)) 4096
  have h1 : (∑ i ∈ Finset.range 5, ∑ n : Fin 4096, g (4096 * i + n.val))
      = ∑ m ∈ Finset.range (20000 + 480), g m := by
    rw [Finset.sum_congr rfl (fun i _ => hblk i), sum_blocks g 4096 5]
  have h2 : (∑ m ∈ Finset.range 480, g (20000 + m)) = 0 := by
    apply Finset.sum_eq_zero
    intro m _
    simp only [hg, padWt_ge, mul_zero]
  have h3 : (∑ m ∈ Finset.range 20000, g m)
      = ∑ n : Fin 20000, act (Spec.inner (emb X gw gb b) (emb D gw gb n)) * wt r hw hb n := by
    rw [← Fin.sum_univ_eq_sum_range g 20000]
    apply Finset.sum_congr rfl
    intro n _
    simp only [hg]
    rw [emb_congr (padRows D) D gw gb n.val n (padRows_lt D n), padWt_lt, act_eq_cube]
  change (∑ i ∈ Finset.range 5, ∑ n : Fin 4096, g (4096 * i + n.val)) = _
  rw [h1, Finset.sum_range_add, h2, add_zero, h3]

/-- The kernel's second result is the reference's. -/
theorem kerPred_eq_refPred (X : Fin 4096 → Fin 768 → EReal) (D : Fin 20000 → Fin 768 → EReal)
    (r : Fin 20000 → EReal) (gw : Fin 512 → Fin 768 → EReal) (gb : Fin 512 → EReal) (hw hb : EReal)
    (b : Fin 4096) :
    kerPred X D r gw gb hw hb b = refPred X D r gw gb hw hb b := by
  unfold kerPred refPred
  rw [kerLogit_eq_refLogit, one_eq]
  rfl

end Cert.Law

end
-- ==== Proof.KIFinal.lean ====
import proofs.«171527_j60000693125637_2_alg».proof.Proof.KIRun
import proofs.«171527_j60000693125637_2_alg».proof.Proof.KIRetValue3
import proofs.«171527_j60000693125637_2_alg».proof.Proof.Law
import proofs.«171527_j60000693125637_2_alg».proof.Proof.Spec

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! The kernel program's two results as functions of the launch memory: the run leaves, in the two result buffers, the
    reference's two results. What region 2 finds in its three input arrays is taken as hypotheses here and supplied
    by the module that reads the earlier items of @main. -/

open Idealize.ShloMosaic.ValueIdx

/-- The accumulator only consults the exemplars and the weights below the padded length. -/
theorem acc_congr (xe : Fin 512 → EReal) (de de' : ℕ → Fin 512 → EReal) (w w' : ℕ → EReal)
    (h : ∀ n, n < 20480 → de n = de' n ∧ w n = w' n) :
    ∀ j, j ≤ 5 → Cert.Spec.acc xe de w j = Cert.Spec.acc xe de' w' j := by
  intro j
  induction j with
  | zero => intro _; rfl
  | succ k ih =>
    intro hk
    show Cert.Spec.acc xe de w k + Cert.Spec.blockTerm xe de w k = Cert.Spec.acc xe de' w' k + Cert.Spec.blockTerm xe de' w' k
    rw [ih (by omega)]
    refine congrArg (Cert.Spec.acc xe de' w' k + ·) ?_
    unfold Cert.Spec.blockTerm
    refine Finset.sum_congr rfl fun n _ => ?_
    obtain ⟨h1, h2⟩ := h (4096 * k + n.val) (by have := n.isLt; omega)
    rw [h1, h2]

section
variable (m : (ℓ : Loc nD τ sig) → Buf (Elt Ideal) ℓ) (c : Dev nD)

/-- The seven argument arrays of the launch memory, by coordinates. -/
abbrev aX : Fin 4096 → Fin 768 → EReal := fun b k => (m ((c.tc : Thread nD τ).loc main_arg0) : S4096x768.Idx → EReal) (ix2 b k)
abbrev aD : Fin 20000 → Fin 768 → EReal := fun n k => (m ((c.tc : Thread nD τ).loc main_arg1) : S20000x768.Idx → EReal) (ix2 n k)
abbrev aR : Fin 20000 → EReal := fun n => (m ((c.tc : Thread nD τ).loc main_arg2) : S20000x1.Idx → EReal) (ix2 n 0)
abbrev aGw : Fin 512 → Fin 768 → EReal := fun e k => (m ((c.tc : Thread nD τ).loc main_arg3) : S512x768.Idx → EReal) (ix2 e k)
abbrev aGb : Fin 512 → EReal := fun e => (m ((c.tc : Thread nD τ).loc main_arg4) : S512.Idx → EReal) (ix1 e)
abbrev aHw : EReal := (m ((c.tc : Thread nD τ).loc main_arg5) : S1x1.Idx → EReal) (ix2 0 0)
abbrev aHb : EReal := (m ((c.tc : Thread nD τ).loc main_arg6) : S1.Idx → EReal) (ix1 0)

/-- What region 2 finds: the embedded queries, the embedded padded exemplars, the padded weights in column 0. -/
def Finds : Prop :=
  ((E8 m c main_v1 : S4096x512.Idx → EReal) = fun i => Cert.Spec.emb (aX m c) (aGw m c) (aGb m c) (i 0) (i 1))
  ∧ ((E8 m c main_v3 : S20480x512.Idx → EReal) = fun i => Cert.Spec.emb (Cert.Spec.padRows (aD m c)) (aGw m c) (aGb m c) (i 0).val (i 1))
  ∧ ((E8 m c main_v19 : S20480x128.Idx → EReal) = fun i => if (i 1).val = 0 then Cert.Spec.padWt (Cert.Spec.wt (aR m c) (aHw m c) (aHb m c)) (i 0).val else 0)

/-- Under it, the five block terms summed onto zero are the kernel's form of the first result. -/
theorem acc_eq_kerLogit (hF : Finds m c) (b : Fin 4096) :
    Cert.Spec.acc (xeOf (E8 m) c b) (deOf (E8 m) c) (wOf (E8 m) c) 5 = Cert.Spec.kerLogit (aX m c) (aD m c) (aR m c) (aGw m c) (aGb m c) (aHw m c) (aHb m c) b := by
  obtain ⟨hq, he, hwt⟩ := hF
  unfold Cert.Spec.kerLogit
  have hx : xeOf (E8 m) c b = Cert.Spec.emb (aX m c) (aGw m c) (aGb m c) b := by
    funext e; unfold xeOf; rw [hq]; rfl
  rw [hx]
  refine acc_congr _ _ _ _ _ (fun n hn => ⟨?_, ?_⟩) 5 le_rfl
  · funext e; unfold deOf; rw [dif_pos hn, he]; rfl
  · unfold wOf; rw [dif_pos hn, hwt]; exact if_pos rfl

/-- THE FIRST RESULT BUFFER after the run: the reference's first result. -/
theorem B9_logits (hF : Finds m c) :
    (B9 m c (Proc.devRef .tc main_v20_0) : S4096x1.Idx → EReal) = fun i => Cert.Spec.refLogit (aX m c) (aD m c) (aR m c) (aGw m c) (aGb m c) (aHw m c) (aHb m c) (i 0) := by
  refine (B9_arr m c 3).trans ((final3 (E8 m) c).trans ?_)
  funext i
  unfold G3
  exact (acc_eq_kerLogit m c hF (i 0)).trans (Cert.Law.kerLogit_eq_refLogit _ _ _ _ _ _ _ _)

/-- THE SECOND RESULT BUFFER after the run: the reference's second result. -/
theorem B9_preds (hF : Finds m c) :
    (B9 m c (Proc.devRef .tc main_v20_1) : S4096x1.Idx → EReal) = fun i => Cert.Spec.refPred (aX m c) (aD m c) (aR m c) (aGw m c) (aGb m c) (aHw m c) (aHb m c) (i 0) := by
  refine (B9_arr m c 4).trans ((final4 (E8 m) c).trans ?_)
  funext i
  unfold G4
  exact (congrArg Ideal.logistic (acc_eq_kerLogit m c hF (i 0))).trans (Cert.Law.kerPred_eq_refPred _ _ _ _ _ _ _ (i 0))

end

end Cert.KernelIdeal.Hand

end
-- ==== Proof.KIPayEmbed.lean ====
/-
  The two embedding kernels' stored value, read at an index on the extended reals: the row's linear layer
  divided by the larger of its norm and the small word, as the specification's embedded row.
-/
import proofs.«171527_j60000693125637_2_alg».proof.Proof.Spec
import proofs.«171527_j60000693125637_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx

/-! ## Layout operations of the two embedding kernels, read at an index -/

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Layout

/-- The sum along the second axis of an `[a, b]` array, at row `p`: the sum over `k` of the array at `(p, k)`. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src _ h hφ hacc (ix1 p)).trans ?_
  refine Finset.sum_congr rfl fun k _ => congrArg src (funext fun ax => Fin.ext ?_)
  match ax with
  | ⟨0, _⟩ => rfl
  | ⟨1, _⟩ => rfl

/-! ## The two products -/

/-- Entry `(p, e)` of the product that contracts the second axis of both operands: the sum over `k` of
    the left operand at `(p, k)` times the right operand at `(e, k)`. -/
theorem matmul_embed0_apply (l : FVec Ideal S512x768 .bf16) (r : FVec Ideal S512x768 .bf16) (p : Fin 512) (e : Fin 512) :
    matmul dot_S512x768_S512x768_S512x512_1_1_0_0_n_n none l r (constant S512x512 .f32 0x00000000#32) (ix2 p e)
      = ∑ k : Fin 768, l (ix2 p k) * r (ix2 e k) := by
  refine (Ideal.matmul_constant_zero_apply dot_S512x768_S512x768_S512x512_1_1_0_0_n_n none l r (ix2 p e)).trans ?_
  rw [← Equiv.sum_comp (contrEquiv1 dot_S512x768_S512x768_S512x512_1_1_0_0_n_n 768 rfl rfl).symm]
  refine Finset.sum_congr rfl fun k _ => ?_
  have hk := contrEquiv1_symm_val dot_S512x768_S512x768_S512x512_1_1_0_0_n_n 768 rfl rfl k
  have l0 : ∀ q : (dot_S512x768_S512x768_S512x512_1_1_0_0_n_n).contr.Idx, ((dot_S512x768_S512x768_S512x512_1_1_0_0_n_n).lhsIdx (ix2 p e) q 0).val = p.val := fun q => by
    unfold DotDims.lhsIdx
    rw [dif_neg (show ¬(0 : Fin (S512x768).rank) ∈ (dot_S512x768_S512x768_S512x512_1_1_0_0_n_n).lhsBatch by decide), dif_pos (show (0 : Fin (S512x768).rank) ∈ (dot_S512x768_S512x768_S512x512_1_1_0_0_n_n).lhsNonContracting by decide)]
    rfl
  have r0 : ∀ q : (dot_S512x768_S512x768_S512x512_1_1_0_0_n_n).contr.Idx, ((dot_S512x768_S512x768_S512x512_1_1_0_0_n_n).rhsIdx (ix2 p e) q 0).val = e.val := fun q => by
    unfold DotDims.rhsIdx
    rw [dif_neg (show ¬(0 : Fin (S512x768).rank) ∈ (dot_S512x768_S512x768_S512x512_1_1_0_0_n_n).rhsBatch by decide), dif_pos (show (0 : Fin (S512x768).rank) ∈ (dot_S512x768_S512x768_S512x512_1_1_0_0_n_n).rhsNonContracting by decide)]
    rfl
  have el : (dot_S512x768_S512x768_S512x512_1_1_0_0_n_n).lhsIdx (ix2 p e) ((contrEquiv1 dot_S512x768_S512x768_S512x512_1_1_0_0_n_n 768 rfl rfl).symm k) = ix2 p k := funext fun a => Fin.ext (by
    match a with
    | ⟨0, _⟩ => exact l0 _
    | ⟨1, _⟩ => exact ((dot_S512x768_S512x768_S512x512_1_1_0_0_n_n).lhsIdx_val_of_single rfl _ _).trans hk)
  have er : (dot_S512x768_S512x768_S512x512_1_1_0_0_n_n).rhsIdx (ix2 p e) ((contrEquiv1 dot_S512x768_S512x768_S512x512_1_1_0_0_n_n 768 rfl rfl).symm k) = ix2 e k := funext fun a => Fin.ext (by
    match a with
    | ⟨0, _⟩ => exact r0 _
    | ⟨1, _⟩ => exact ((dot_S512x768_S512x768_S512x512_1_1_0_0_n_n).rhsIdx_val_of_single rfl _ _).trans hk)
  rw [el, er]

/-- Entry `(p, e)` of the product that contracts the second axis of both operands: the sum over `k` of
    the left operand at `(p, k)` times the right operand at `(e, k)`. -/
theorem matmul_embed1_apply (l : FVec Ideal S2048x768 .bf16) (r : FVec Ideal S512x768 .bf16) (p : Fin 2048) (e : Fin 512) :
    matmul dot_S2048x768_S512x768_S2048x512_1_1_0_0_n_n none l r (constant S2048x512 .f32 0x00000000#32) (ix2 p e)
      = ∑ k : Fin 768, l (ix2 p k) * r (ix2 e k) := by
  refine (Ideal.matmul_constant_zero_apply dot_S2048x768_S512x768_S2048x512_1_1_0_0_n_n none l r (ix2 p e)).trans ?_
  rw [← Equiv.sum_comp (contrEquiv1 dot_S2048x768_S512x768_S2048x512_1_1_0_0_n_n 768 rfl rfl).symm]
  refine Finset.sum_congr rfl fun k _ => ?_
  have hk := contrEquiv1_symm_val dot_S2048x768_S512x768_S2048x512_1_1_0_0_n_n 768 rfl rfl k
  have l0 : ∀ q : (dot_S2048x768_S512x768_S2048x512_1_1_0_0_n_n).contr.Idx, ((dot_S2048x768_S512x768_S2048x512_1_1_0_0_n_n).lhsIdx (ix2 p e) q 0).val = p.val := fun q => by
    unfold DotDims.lhsIdx
    rw [dif_neg (show ¬(0 : Fin (S2048x768).rank) ∈ (dot_S2048x768_S512x768_S2048x512_1_1_0_0_n_n).lhsBatch by decide), dif_pos (show (0 : Fin (S2048x768).rank) ∈ (dot_S2048x768_S512x768_S2048x512_1_1_0_0_n_n).lhsNonContracting by decide)]
    rfl
  have r0 : ∀ q : (dot_S2048x768_S512x768_S2048x512_1_1_0_0_n_n).contr.Idx, ((dot_S2048x768_S512x768_S2048x512_1_1_0_0_n_n).rhsIdx (ix2 p e) q 0).val = e.val := fun q => by
    unfold DotDims.rhsIdx
    rw [dif_neg (show ¬(0 : Fin (S512x768).rank) ∈ (dot_S2048x768_S512x768_S2048x512_1_1_0_0_n_n).rhsBatch by decide), dif_pos (show (0 : Fin (S512x768).rank) ∈ (dot_S2048x768_S512x768_S2048x512_1_1_0_0_n_n).rhsNonContracting by decide)]
    rfl
  have el : (dot_S2048x768_S512x768_S2048x512_1_1_0_0_n_n).lhsIdx (ix2 p e) ((contrEquiv1 dot_S2048x768_S512x768_S2048x512_1_1_0_0_n_n 768 rfl rfl).symm k) = ix2 p k := funext fun a => Fin.ext (by
    match a with
    | ⟨0, _⟩ => exact l0 _
    | ⟨1, _⟩ => exact ((dot_S2048x768_S512x768_S2048x512_1_1_0_0_n_n).lhsIdx_val_of_single rfl _ _).trans hk)
  have er : (dot_S2048x768_S512x768_S2048x512_1_1_0_0_n_n).rhsIdx (ix2 p e) ((contrEquiv1 dot_S2048x768_S512x768_S2048x512_1_1_0_0_n_n 768 rfl rfl).symm k) = ix2 e k := funext fun a => Fin.ext (by
    match a with
    | ⟨0, _⟩ => exact r0 _
    | ⟨1, _⟩ => exact ((dot_S2048x768_S512x768_S2048x512_1_1_0_0_n_n).rhsIdx_val_of_single rfl _ _).trans hk)
  rw [el, er]

/-! ## The two payloads -/

/-- The kernel's embedded row `p` at feature `e`: the linear layer divided by the larger of the row's norm and
    the small word. -/
theorem pay_embed0 (x0 : Vec Ideal S512x768 .f32) (x1 : Vec Ideal S512x768 .f32) (x2 : Vec Ideal S1x512 .f32)
    (p : Fin 512) (e : Fin 512) :
    k0_pay1 (F := Ideal) x0 x1 x2 (ix2 p e)
      = Cert.Spec.emb (fun (i : Fin 512) (k : Fin 768) => x0 (ix2 i k)) (fun (e : Fin 512) (k : Fin 768) => x1 (ix2 e k))
          (fun (e : Fin 512) => x2 (ix2 0 e)) p e := by
  -- the linear layer, as the kernel's array
  let y : FVec Ideal S512x512 .f32 :=
    addf (matmul dot_S512x768_S512x768_S512x512_1_1_0_0_n_n none (truncf .bf16 (x0 : FVec Ideal S512x768 .f32) bitsLt_bf16_f32)
        (truncf .bf16 (x1 : FVec Ideal S512x768 .f32) bitsLt_bf16_f32) (constant S512x512 .f32 0x00000000#32))
      (broadcastTo S512x512 (x2 : FVec Ideal S1x512 .f32) broadcasts_S1x512_S512x512)
  have hy : ∀ (p' : Fin 512) (e' : Fin 512), y (ix2 p' e')
      = Cert.Spec.lin (fun (i : Fin 512) (k : Fin 768) => x0 (ix2 i k)) (fun (e : Fin 512) (k : Fin 768) => x1 (ix2 e k))
          (fun (e : Fin 512) => x2 (ix2 0 e)) p' e' := fun p' e' => by
    show matmul dot_S512x768_S512x768_S512x512_1_1_0_0_n_n none _ _ _ (ix2 p' e') + broadcastTo S512x512 _ _ (ix2 p' e') = _
    rw [matmul_embed0_apply, broadcastTo_1b_ab_apply]
    rfl
  -- the length the row is divided by
  have hlen : (maximumf (sqrt (shapeCast S512x1 (multiReduction .add [1] S512 (mulf y y) 0x00000000#32 reduces_S512x512_S512 (.inl rfl) rfl)
        shapeCasts_S512_S512x1)) (broadcast S512x1 (Scalar.ofBits .f32 0x2B8CBCCC#32)) : FVec Ideal S512x1 .f32) (ix2 p (0 : Fin 1))
      = Cert.Spec.len (Cert.Spec.lin (fun (i : Fin 512) (k : Fin 768) => x0 (ix2 i k)) (fun (e : Fin 512) (k : Fin 768) => x1 (ix2 e k))
          (fun (e : Fin 512) => x2 (ix2 0 e))) p := by
    show max (Ideal.sqrt (shapeCast S512x1 _ shapeCasts_S512_S512x1 (ix2 p (0 : Fin 1)))) (Ideal.ofBits .f32 0x2B8CBCCC#32) = _
    rw [shapeCast_a_a1_apply]
    refine (congrArg (fun t => max (Ideal.sqrt t) (Ideal.ofBits .f32 0x2B8CBCCC#32))
      (rowSum_apply (mulf y y) reduces_S512x512_S512 (.inl rfl) rfl p)).trans ?_
    simp only [mulf_apply, hy]
    rfl
  unfold k0_pay1
  simp only [shapeCast_self]
  show Ideal.div (y (ix2 p e)) (broadcastTo S512x512 _ broadcasts_S512x1_S512x512 (ix2 p e)) = _
  rw [broadcastTo_a1_ab_apply, hlen, hy]
  rfl

/-- The kernel's embedded row `p` at feature `e`: the linear layer divided by the larger of the row's norm and
    the small word. -/
theorem pay_embed1 (x0 : Vec Ideal S2048x768 .f32) (x1 : Vec Ideal S512x768 .f32) (x2 : Vec Ideal S1x512 .f32)
    (p : Fin 2048) (e : Fin 512) :
    k1_pay1 (F := Ideal) x0 x1 x2 (ix2 p e)
      = Cert.Spec.emb (fun (i : Fin 2048) (k : Fin 768) => x0 (ix2 i k)) (fun (e : Fin 512) (k : Fin 768) => x1 (ix2 e k))
          (fun (e : Fin 512) => x2 (ix2 0 e)) p e := by
  -- the linear layer, as the kernel's array
  let y : FVec Ideal S2048x512 .f32 :=
    addf (matmul dot_S2048x768_S512x768_S2048x512_1_1_0_0_n_n none (truncf .bf16 (x0 : FVec Ideal S2048x768 .f32) bitsLt_bf16_f32)
        (truncf .bf16 (x1 : FVec Ideal S512x768 .f32) bitsLt_bf16_f32) (constant S2048x512 .f32 0x00000000#32))
      (broadcastTo S2048x512 (x2 : FVec Ideal S1x512 .f32) broadcasts_S1x512_S2048x512)
  have hy : ∀ (p' : Fin 2048) (e' : Fin 512), y (ix2 p' e')
      = Cert.Spec.lin (fun (i : Fin 2048) (k : Fin 768) => x0 (ix2 i k)) (fun (e : Fin 512) (k : Fin 768) => x1 (ix2 e k))
          (fun (e : Fin 512) => x2 (ix2 0 e)) p' e' := fun p' e' => by
    show matmul dot_S2048x768_S512x768_S2048x512_1_1_0_0_n_n none _ _ _ (ix2 p' e') + broadcastTo S2048x512 _ _ (ix2 p' e') = _
    rw [matmul_embed1_apply, broadcastTo_1b_ab_apply]
    rfl
  -- the length the row is divided by
  have hlen : (maximumf (sqrt (shapeCast S2048x1 (multiReduction .add [1] S2048 (mulf y y) 0x00000000#32 reduces_S2048x512_S2048 (.inl rfl) rfl)
        shapeCasts_S2048_S2048x1)) (broadcast S2048x1 (Scalar.ofBits .f32 0x2B8CBCCC#32)) : FVec Ideal S2048x1 .f32) (ix2 p (0 : Fin 1))
      = Cert.Spec.len (Cert.Spec.lin (fun (i : Fin 2048) (k : Fin 768) => x0 (ix2 i k)) (fun (e : Fin 512) (k : Fin 768) => x1 (ix2 e k))
          (fun (e : Fin 512) => x2 (ix2 0 e))) p := by
    show max (Ideal.sqrt (shapeCast S2048x1 _ shapeCasts_S2048_S2048x1 (ix2 p (0 : Fin 1)))) (Ideal.ofBits .f32 0x2B8CBCCC#32) = _
    rw [shapeCast_a_a1_apply]
    refine (congrArg (fun t => max (Ideal.sqrt t) (Ideal.ofBits .f32 0x2B8CBCCC#32))
      (rowSum_apply (mulf y y) reduces_S2048x512_S2048 (.inl rfl) rfl p)).trans ?_
    simp only [mulf_apply, hy]
    rfl
  unfold k1_pay1
  simp only [shapeCast_self]
  show Ideal.div (y (ix2 p e)) (broadcastTo S2048x512 _ broadcasts_S2048x1_S2048x512 (ix2 p e)) = _
  rw [broadcastTo_a1_ab_apply, hlen, hy]
  rfl

end Cert.KernelIdeal.Pay

end
-- ==== Proof.KIArr0.lean ====
/-
  The query rows' embedding region: the array its output window ends holding is, row by row, the
  specification's embedded row of the region-entry contents. Every point writes back one block of 512 rows; a
  block's row is embedded from the same row of the input block, the weight matrix and the bias being read whole;
  the 8 blocks cover the 4096 rows.
-/
import proofs.«171527_j60000693125637_2_alg».proof.Proof.Spec
import proofs.«171527_j60000693125637_2_alg».proof.Proof.KIEmbed0
import proofs.«171527_j60000693125637_2_alg».proof.Proof.KIPayEmbed
import Idealize.ShloMosaic.Lib.Pipeline.Value
import Idealize.ShloMosaic.Lib.ValueIdx

set_option maxRecDepth 16384

noncomputable section

namespace Cert.KernelIdeal.Arr

open Idealize.ShloMosaic Idealize.ShloMosaic.TcCoe Idealize.SL.Sem
open Idealize.ShloMosaic.Pipeline (Dat Cfg Window)
open Cert.KernelIdeal Cert.KernelIdeal.Gen Cert.KernelIdeal.Hand Cert.KernelIdeal.Pay
open Idealize.ShloMosaic.ValueIdx

/-- Every access of the body starts at the block's origin. -/
theorem origin0 : (![0, 0] : Fin 2 → Nat) = fun _ => 0 := funext fun a => by fin_cases a <;> rfl

/-- The embedded row depends on the rows only through the row it embeds. -/
theorem emb_congr0 {ι ι' : Type} (x : ι → Fin 768 → EReal) (x' : ι' → Fin 768 → EReal)
    (gw gw' : Fin 512 → Fin 768 → EReal) (gb gb' : Fin 512 → EReal) (i : ι) (i' : ι') (e e' : Fin 512)
    (hx : x i = x' i') (hw : gw = gw') (hb : gb = gb') (he : e = e') :
    Cert.Spec.emb x gw gb i e = Cert.Spec.emb x' gw' gb' i' e' := by
  subst hw hb he
  unfold Cert.Spec.emb Cert.Spec.len Cert.Spec.lin
  simp only [hx]

/-- The whole output array: row `i 0`, feature `i 1` of the embedded rows. -/
abbrev G0 (a0 : S4096x768.Idx → EReal) (a1 : S512x768.Idx → EReal) (a2 : S1x512.Idx → EReal) : S4096x512.Idx → EReal :=
  fun i => Cert.Spec.emb (fun (b : Fin 4096) (k : Fin 768) => a0 (ix2 b k)) (fun (e : Fin 512) (k : Fin 768) => a1 (ix2 e k)) (fun (e : Fin 512) => a2 (ix2 0 e)) (i 0) (i 1)

/-- One element of a block: the payload of three blocks, at `j`, is the array's element at `i` when the input
    block's row `j 0` is the array's row `i 0`, the other two blocks are the whole arrays, and `i` and `j` have
    the same second coordinate. -/
theorem block_emb0 (x0 : Vec Ideal S512x768 .f32) (x1 : Vec Ideal S512x768 .f32) (x2 : Vec Ideal S1x512 .f32)
    (a0 : S4096x768.Idx → EReal) (a1 : S512x768.Idx → EReal) (a2 : S1x512.Idx → EReal) (j : S512x512.Idx) (i : S4096x512.Idx)
    (h0 : ∀ k : Fin 768, x0 (ix2 (j 0) k) = a0 (ix2 (i 0) k))
    (h1 : ∀ (e : Fin 512) (k : Fin 768), x1 (ix2 e k) = a1 (ix2 e k))
    (h2 : ∀ e : Fin 512, x2 (ix2 0 e) = a2 (ix2 0 e))
    (hi : (i 1).val = (j 1).val) :
    k0_pay1 (F := Ideal) x0 x1 x2 j = G0 a0 a1 a2 i := by
  obtain ⟨p, e, rfl⟩ : ∃ (p : Fin 512) (e : Fin 512), j = ix2 p e := ⟨j 0, j 1, eq_ix2 j⟩
  rw [pay_embed0]
  exact emb_congr0 _ _ _ _ _ _ p (i 0) e (i 1) (funext fun k => h0 k) (funext fun e => funext fun k => h1 e k)
    (funext fun e => h2 e) (Fin.ext hi.symm)

/-- The printed index maps, decided over the grid: the input block of rows moves with the output block, which is
    the point's own; the weight matrix and the bias are the whole arrays at every point. -/
theorem idx_facts0 : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

section
variable (V : (c : Dev nD) → (b : Ref sig .tc) → Buf (Elt Ideal) ((c : Thread nD τ).loc b))

/-- What point `t` writes back is block `t` of the embedded rows of the arrays as the region finds them. -/
theorem flushed0_eq (c : Dev nD) (t : Fin cfg0.N) :
    (dat0 (F := Ideal) V c).flushed 3 t
      = ((cfg0.win 3).blk t).view.read (Elt Ideal) (G0 (V c main_arg0) (V c main_arg3) (V c main_v0)) := by
  show (cfg0.win 3).cut (grid0.coords t) ((dat0 V c).after 3 t) = _
  rw [after0_3]
  unfold out0_3
  rw [View.canon_unit_zero origin0]
  simp only [View.ld_unit_zero (S := S512x768) origin0, View.ld_unit_zero (S := S512x768) origin0, View.ld_unit_zero (S := S1x512) origin0]
  obtain ⟨e0, e1, e2, e3, e4, e5, e6, e7⟩ := idx_facts0 t
  funext j
  show k0_pay1 (F := Ideal) (iblk0 V c 0 t) (iblk0 V c 1 t) (iblk0 V c 2 t) j
    = G0 (V c main_arg0) (V c main_arg3) (V c main_v0) (((cfg0.win 3).blk t).view.emb j)
  refine block_emb0 _ _ _ (V c main_arg0) (V c main_arg3) (V c main_v0) j _ (fun k => ?_) (fun e k => ?_) (fun e => ?_) ?_
  · show V c main_arg0 (((cfg0.win 0).blk t).view.emb (ix2 (j 0) k)) = V c main_arg0 (ix2 ((((cfg0.win 3).blk t).view.emb j) 0) k)
    refine congrArg (V c main_arg0) (funext fun a => Fin.ext ?_)
    match a with
    | ⟨0, _⟩ =>
      show win0_0.index t (0 : Fin 2) * 512 + 1 * (j 0).val = win0_3.index t (0 : Fin 2) * 512 + 1 * (j 0).val
      omega
    | ⟨1, _⟩ =>
      show win0_0.index t (1 : Fin 2) * 768 + 1 * k.val = k.val
      omega
  · show V c main_arg3 (((cfg0.win 1).blk t).view.emb (ix2 e k)) = V c main_arg3 (ix2 e k)
    refine congrArg (V c main_arg3) (funext fun a => Fin.ext ?_)
    match a with
    | ⟨0, _⟩ =>
      show win0_1.index t (0 : Fin 2) * 512 + 1 * e.val = e.val
      omega
    | ⟨1, _⟩ =>
      show win0_1.index t (1 : Fin 2) * 768 + 1 * k.val = k.val
      omega
  · show V c main_v0 (((cfg0.win 2).blk t).view.emb (ix2 (0 : Fin 1) e)) = V c main_v0 (ix2 (0 : Fin 1) e)
    refine congrArg (V c main_v0) (funext fun a => Fin.ext ?_)
    match a with
    | ⟨0, _⟩ =>
      show win0_2.index t (0 : Fin 2) * 1 + 1 * 0 = 0
      omega
    | ⟨1, _⟩ =>
      show win0_2.index t (1 : Fin 2) * 512 + 1 * e.val = e.val
      omega
  · show win0_3.index t (1 : Fin 2) * 512 + 1 * (j 1).val = (j 1).val
    omega

/-- An index of the array is in point `t`'s block iff each coordinate is in the block's range on its axis. -/
theorem mem_blk0 (t : Fin cfg0.N) (i : S4096x512.Idx) :
    i ∈ ((cfg0.win 3).blk t).view.set ↔ ∀ a : Fin 2, win0_3.index t a * S512x512.size a ≤ (i a).val
      ∧ (i a).val < win0_3.index t a * S512x512.size a + S512x512.size a := by
  show i ∈ ((View.whole main_v1).slice (win0_3.rect t)).set ↔ _
  rw [View.set_slice_whole, Rect.mem_set_unit]
  exact Iff.rfl

/-- Row `r` is in the block of point `r / 512`: the 8 blocks cover the array. -/
theorem cover0 (i : S4096x512.Idx) :
    ∃ t : Fin cfg0.N, (cfg0.win 3).flush t = true ∧ i ∈ ((cfg0.win 3).blk t).view.set := by
  have hi0 : (i 0).val < 4096 := (i 0).isLt
  have hi1 : (i 1).val < 512 := (i 1).isLt
  have hN : grid0.N = 8 := N_0
  have ht : (i 0).val / 512 < cfg0.N := by show (i 0).val / 512 < grid0.N; omega
  obtain ⟨-, -, -, -, -, -, e6, e7⟩ := idx_facts0 ⟨(i 0).val / 512, ht⟩
  refine ⟨⟨(i 0).val / 512, ht⟩, flush0_3 _, ?_⟩
  rw [mem_blk0]
  intro a
  match a with
  | ⟨0, _⟩ =>
    show win0_3.index ⟨(i 0).val / 512, ht⟩ (0 : Fin 2) * 512 ≤ (i 0).val
      ∧ (i 0).val < win0_3.index ⟨(i 0).val / 512, ht⟩ (0 : Fin 2) * 512 + 512
    have e6' : win0_3.index ⟨(i 0).val / 512, ht⟩ (0 : Fin 2) = (i 0).val / 512 := e6
    omega
  | ⟨1, _⟩ =>
    show win0_3.index ⟨(i 0).val / 512, ht⟩ (1 : Fin 2) * 512 ≤ (i 1).val
      ∧ (i 1).val < win0_3.index ⟨(i 0).val / 512, ht⟩ (1 : Fin 2) * 512 + 512
    omega

/-- The output array after the region: the embedded rows of the arrays as the region finds them. -/
theorem arr0 (c : Dev nD) :
    (dat0 (F := Ideal) V c).arrAt 3 cfg0.N
      = fun (i : S4096x512.Idx) => Cert.Spec.emb (fun (b : Fin 4096) (k : Fin 768) => V c main_arg0 (ix2 b k))
          (fun (e : Fin 512) (k : Fin 768) => V c main_arg3 (ix2 e k)) (fun (e : Fin 512) => V c main_v0 (ix2 0 e)) (i 0) (i 1) :=
  (dat0 V c).arrAt_eq_of_cover 3 (G0 (V c main_arg0) (V c main_arg3) (V c main_v0)) (fun t _ => flushed0_eq V c t) (cover0)

end

end Cert.KernelIdeal.Arr

end
-- ==== Proof.KIArr1.lean ====
/-
  The exemplar rows' embedding region: the array its output window ends holding is, row by row, the
  specification's embedded row of the region-entry contents. Every point writes back one block of 2048 rows; a
  block's row is embedded from the same row of the input block, the weight matrix and the bias being read whole;
  the 10 blocks cover the 20480 rows.
-/
import proofs.«171527_j60000693125637_2_alg».proof.Proof.Spec
import proofs.«171527_j60000693125637_2_alg».proof.Proof.KIEmbed1
import proofs.«171527_j60000693125637_2_alg».proof.Proof.KIPayEmbed
import Idealize.ShloMosaic.Lib.Pipeline.Value
import Idealize.ShloMosaic.Lib.ValueIdx

set_option maxRecDepth 16384

noncomputable section

namespace Cert.KernelIdeal.Arr

open Idealize.ShloMosaic Idealize.ShloMosaic.TcCoe Idealize.SL.Sem
open Idealize.ShloMosaic.Pipeline (Dat Cfg Window)
open Cert.KernelIdeal Cert.KernelIdeal.Gen Cert.KernelIdeal.Hand Cert.KernelIdeal.Pay
open Idealize.ShloMosaic.ValueIdx

/-- Every access of the body starts at the block's origin. -/
theorem origin1 : (![0, 0] : Fin 2 → Nat) = fun _ => 0 := funext fun a => by fin_cases a <;> rfl

/-- The embedded row depends on the rows only through the row it embeds. -/
theorem emb_congr1 {ι ι' : Type} (x : ι → Fin 768 → EReal) (x' : ι' → Fin 768 → EReal)
    (gw gw' : Fin 512 → Fin 768 → EReal) (gb gb' : Fin 512 → EReal) (i : ι) (i' : ι') (e e' : Fin 512)
    (hx : x i = x' i') (hw : gw = gw') (hb : gb = gb') (he : e = e') :
    Cert.Spec.emb x gw gb i e = Cert.Spec.emb x' gw' gb' i' e' := by
  subst hw hb he
  unfold Cert.Spec.emb Cert.Spec.len Cert.Spec.lin
  simp only [hx]

/-- The whole output array: row `i 0`, feature `i 1` of the embedded rows. -/
abbrev G1 (a0 : S20480x768.Idx → EReal) (a1 : S512x768.Idx → EReal) (a2 : S1x512.Idx → EReal) : S20480x512.Idx → EReal :=
  fun i => Cert.Spec.emb (fun (b : Fin 20480) (k : Fin 768) => a0 (ix2 b k)) (fun (e : Fin 512) (k : Fin 768) => a1 (ix2 e k)) (fun (e : Fin 512) => a2 (ix2 0 e)) (i 0) (i 1)

/-- One element of a block: the payload of three blocks, at `j`, is the array's element at `i` when the input
    block's row `j 0` is the array's row `i 0`, the other two blocks are the whole arrays, and `i` and `j` have
    the same second coordinate. -/
theorem block_emb1 (x0 : Vec Ideal S2048x768 .f32) (x1 : Vec Ideal S512x768 .f32) (x2 : Vec Ideal S1x512 .f32)
    (a0 : S20480x768.Idx → EReal) (a1 : S512x768.Idx → EReal) (a2 : S1x512.Idx → EReal) (j : S2048x512.Idx) (i : S20480x512.Idx)
    (h0 : ∀ k : Fin 768, x0 (ix2 (j 0) k) = a0 (ix2 (i 0) k))
    (h1 : ∀ (e : Fin 512) (k : Fin 768), x1 (ix2 e k) = a1 (ix2 e k))
    (h2 : ∀ e : Fin 512, x2 (ix2 0 e) = a2 (ix2 0 e))
    (hi : (i 1).val = (j 1).val) :
    k1_pay1 (F := Ideal) x0 x1 x2 j = G1 a0 a1 a2 i := by
  obtain ⟨p, e, rfl⟩ : ∃ (p : Fin 2048) (e : Fin 512), j = ix2 p e := ⟨j 0, j 1, eq_ix2 j⟩
  rw [pay_embed1]
  exact emb_congr1 _ _ _ _ _ _ p (i 0) e (i 1) (funext fun k => h0 k) (funext fun e => funext fun k => h1 e k)
    (funext fun e => h2 e) (Fin.ext hi.symm)

/-- The printed index maps, decided over the grid: the input block of rows moves with the output block, which is
    the point's own; the weight matrix and the bias are the whole arrays at every point. -/
theorem idx_facts1 : ∀ t : Fin cfg1.N,
    win1_0.index t (0 : Fin 2) = win1_3.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

section
variable (V : (c : Dev nD) → (b : Ref sig .tc) → Buf (Elt Ideal) ((c : Thread nD τ).loc b))

/-- What point `t` writes back is block `t` of the embedded rows of the arrays as the region finds them. -/
theorem flushed1_eq (c : Dev nD) (t : Fin cfg1.N) :
    (dat1 (F := Ideal) V c).flushed 3 t
      = ((cfg1.win 3).blk t).view.read (Elt Ideal) (G1 (V c main_v2) (V c main_arg3) (V c main_v0)) := by
  show (cfg1.win 3).cut (grid1.coords t) ((dat1 V c).after 3 t) = _
  rw [after1_3]
  unfold out1_3
  rw [View.canon_unit_zero origin1]
  simp only [View.ld_unit_zero (S := S2048x768) origin1, View.ld_unit_zero (S := S512x768) origin1, View.ld_unit_zero (S := S1x512) origin1]
  obtain ⟨e0, e1, e2, e3, e4, e5, e6, e7⟩ := idx_facts1 t
  funext j
  show k1_pay1 (F := Ideal) (iblk1 V c 0 t) (iblk1 V c 1 t) (iblk1 V c 2 t) j
    = G1 (V c main_v2) (V c main_arg3) (V c main_v0) (((cfg1.win 3).blk t).view.emb j)
  refine block_emb1 _ _ _ (V c main_v2) (V c main_arg3) (V c main_v0) j _ (fun k => ?_) (fun e k => ?_) (fun e => ?_) ?_
  · show V c main_v2 (((cfg1.win 0).blk t).view.emb (ix2 (j 0) k)) = V c main_v2 (ix2 ((((cfg1.win 3).blk t).view.emb j) 0) k)
    refine congrArg (V c main_v2) (funext fun a => Fin.ext ?_)
    match a with
    | ⟨0, _⟩ =>
      show win1_0.index t (0 : Fin 2) * 2048 + 1 * (j 0).val = win1_3.index t (0 : Fin 2) * 2048 + 1 * (j 0).val
      omega
    | ⟨1, _⟩ =>
      show win1_0.index t (1 : Fin 2) * 768 + 1 * k.val = k.val
      omega
  · show V c main_arg3 (((cfg1.win 1).blk t).view.emb (ix2 e k)) = V c main_arg3 (ix2 e k)
    refine congrArg (V c main_arg3) (funext fun a => Fin.ext ?_)
    match a with
    | ⟨0, _⟩ =>
      show win1_1.index t (0 : Fin 2) * 512 + 1 * e.val = e.val
      omega
    | ⟨1, _⟩ =>
      show win1_1.index t (1 : Fin 2) * 768 + 1 * k.val = k.val
      omega
  · show V c main_v0 (((cfg1.win 2).blk t).view.emb (ix2 (0 : Fin 1) e)) = V c main_v0 (ix2 (0 : Fin 1) e)
    refine congrArg (V c main_v0) (funext fun a => Fin.ext ?_)
    match a with
    | ⟨0, _⟩ =>
      show win1_2.index t (0 : Fin 2) * 1 + 1 * 0 = 0
      omega
    | ⟨1, _⟩ =>
      show win1_2.index t (1 : Fin 2) * 512 + 1 * e.val = e.val
      omega
  · show win1_3.index t (1 : Fin 2) * 512 + 1 * (j 1).val = (j 1).val
    omega

/-- An index of the array is in point `t`'s block iff each coordinate is in the block's range on its axis. -/
theorem mem_blk1 (t : Fin cfg1.N) (i : S20480x512.Idx) :
    i ∈ ((cfg1.win 3).blk t).view.set ↔ ∀ a : Fin 2, win1_3.index t a * S2048x512.size a ≤ (i a).val
      ∧ (i a).val < win1_3.index t a * S2048x512.size a + S2048x512.size a := by
  show i ∈ ((View.whole main_v3).slice (win1_3.rect t)).set ↔ _
  rw [View.set_slice_whole, Rect.mem_set_unit]
  exact Iff.rfl

/-- Row `r` is in the block of point `r / 2048`: the 10 blocks cover the array. -/
theorem cover1 (i : S20480x512.Idx) :
    ∃ t : Fin cfg1.N, (cfg1.win 3).flush t = true ∧ i ∈ ((cfg1.win 3).blk t).view.set := by
  have hi0 : (i 0).val < 20480 := (i 0).isLt
  have hi1 : (i 1).val < 512 := (i 1).isLt
  have hN : grid1.N = 10 := N_1
  have ht : (i 0).val / 2048 < cfg1.N := by show (i 0).val / 2048 < grid1.N; omega
  obtain ⟨-, -, -, -, -, -, e6, e7⟩ := idx_facts1 ⟨(i 0).val / 2048, ht⟩
  refine ⟨⟨(i 0).val / 2048, ht⟩, flush1_3 _, ?_⟩
  rw [mem_blk1]
  intro a
  match a with
  | ⟨0, _⟩ =>
    show win1_3.index ⟨(i 0).val / 2048, ht⟩ (0 : Fin 2) * 2048 ≤ (i 0).val
      ∧ (i 0).val < win1_3.index ⟨(i 0).val / 2048, ht⟩ (0 : Fin 2) * 2048 + 2048
    have e6' : win1_3.index ⟨(i 0).val / 2048, ht⟩ (0 : Fin 2) = (i 0).val / 2048 := e6
    omega
  | ⟨1, _⟩ =>
    show win1_3.index ⟨(i 0).val / 2048, ht⟩ (1 : Fin 2) * 512 ≤ (i 1).val
      ∧ (i 1).val < win1_3.index ⟨(i 0).val / 2048, ht⟩ (1 : Fin 2) * 512 + 512
    omega

/-- The output array after the region: the embedded rows of the arrays as the region finds them. -/
theorem arr1 (c : Dev nD) :
    (dat1 (F := Ideal) V c).arrAt 3 cfg1.N
      = fun (i : S20480x512.Idx) => Cert.Spec.emb (fun (b : Fin 20480) (k : Fin 768) => V c main_v2 (ix2 b k))
          (fun (e : Fin 512) (k : Fin 768) => V c main_arg3 (ix2 e k)) (fun (e : Fin 512) => V c main_v0 (ix2 0 e)) (i 0) (i 1) :=
  (dat1 V c).arrAt_eq_of_cover 3 (G1 (V c main_v2) (V c main_arg3) (V c main_v0)) (fun t _ => flushed1_eq V c t) (cover1)

end

end Cert.KernelIdeal.Arr

end
-- ==== Proof.KIBridge.lean ====
/-
  What the retrieval region finds in its three input arrays, as functions of the launch memory: the embedded
  query rows, the embedded rows of the exemplars padded with zero rows, and the padded weights in the first of
  128 columns. Each is the value an earlier region or host stretch left there, read through the later stretches
  and regions that do not write it, with the arrays those read traced back to the launch memory the same way.
-/
import proofs.«171527_j60000693125637_2_alg».proof.Proof.Spec
import proofs.«171527_j60000693125637_2_alg».proof.Proof.KIRun
import proofs.«171527_j60000693125637_2_alg».proof.Proof.KIArr0
import proofs.«171527_j60000693125637_2_alg».proof.Proof.KIArr1

set_option maxRecDepth 16384

noncomputable section

namespace Cert.KernelIdeal.Bridge

open Idealize.ShloMosaic Idealize.ShloMosaic.TcCoe Idealize.SL.Sem
open Cert.KernelIdeal Cert.KernelIdeal.Gen Cert.KernelIdeal.Hand Cert.KernelIdeal.Arr
open Idealize.ShloMosaic.ValueIdx

/-! ## The three host stretches read at an index, as statements -/

/-- The bias viewed as one row: entry `(u, e)` is the bias at `e`. -/
abbrev HostBias : Prop := ∀ W : Valuation τ sig (Elt Ideal),
  (StableHlo.after hostOps0 W (Proc.devRef .tc main_v0) : S1x512.Idx → EReal)
    = fun (i : S1x512.Idx) => (W (Proc.devRef .tc main_arg4) : S512.Idx → EReal) (ix1 (i 1))

/-- The exemplars padded with zero rows. -/
abbrev HostPadRows : Prop := ∀ W : Valuation τ sig (Elt Ideal),
  (StableHlo.after hostOps1_1 (StableHlo.after hostOps1 W) (Proc.devRef .tc main_v2) : S20480x768.Idx → EReal)
    = fun (i : S20480x768.Idx) => Cert.Spec.padRows (fun (n : Fin 20000) (k : Fin 768) => (W (Proc.devRef .tc main_arg1) : S20000x768.Idx → EReal) (ix2 n k)) (i 0).val (i 1)

/-- The padded weights in the first of 128 columns, zero in the others. -/
abbrev HostWeights : Prop := ∀ W : Valuation τ sig (Elt Ideal),
  (StableHlo.after hostOps2_2 (StableHlo.after hostOps2_1 (StableHlo.after hostOps2 W)) (Proc.devRef .tc main_v19) : S20480x128.Idx → EReal)
    = fun (i : S20480x128.Idx) => if (i 1).val = 0 then
        Cert.Spec.padWt (Cert.Spec.wt (fun (n : Fin 20000) => (W (Proc.devRef .tc main_arg2) : S20000x1.Idx → EReal) (ix2 n 0))
          ((W (Proc.devRef .tc main_arg5) : S1x1.Idx → EReal) (ix2 0 0)) ((W (Proc.devRef .tc main_arg6) : S1.Idx → EReal) (ix1 0))) (i 0).val
      else 0

section
variable (m : (ℓ : Loc nD τ sig) → Buf (Elt Ideal) ℓ) (c : Dev nD)

/-! ## The seven arguments at launch, by coordinates -/

/-- The query rows. -/
abbrev X : Fin 4096 → Fin 768 → EReal := fun b k => (m ((c : Thread nD τ).loc main_arg0) : S4096x768.Idx → EReal) (ix2 b k)
/-- The exemplar rows. -/
abbrev D : Fin 20000 → Fin 768 → EReal := fun n k => (m ((c : Thread nD τ).loc main_arg1) : S20000x768.Idx → EReal) (ix2 n k)
/-- The exemplars' correctness column. -/
abbrev r : Fin 20000 → EReal := fun n => (m ((c : Thread nD τ).loc main_arg2) : S20000x1.Idx → EReal) (ix2 n 0)
/-- The linear layer's weight matrix. -/
abbrev gw : Fin 512 → Fin 768 → EReal := fun e k => (m ((c : Thread nD τ).loc main_arg3) : S512x768.Idx → EReal) (ix2 e k)
/-- The linear layer's bias. -/
abbrev gb : Fin 512 → EReal := fun e => (m ((c : Thread nD τ).loc main_arg4) : S512.Idx → EReal) (ix1 e)
/-- The weight's scale. -/
abbrev hw : EReal := (m ((c : Thread nD τ).loc main_arg5) : S1x1.Idx → EReal) (ix2 0 0)
/-- The weight's offset. -/
abbrev hb : EReal := (m ((c : Thread nD τ).loc main_arg6) : S1.Idx → EReal) (ix1 0)

/-! ## The arrays the two embedding regions read, traced back to the launch memory -/

/-- Region 0 finds the query rows as launched. -/
theorem in0_rows : (B1 m c (Proc.devRef .tc main_arg0) : S4096x768.Idx → EReal) = m ((c : Thread nD τ).loc main_arg0) :=
  (B1_keep m c main_arg0 (by decide)).trans rfl
/-- Region 0 finds the weight matrix as launched. -/
theorem in0_weight : (B1 m c (Proc.devRef .tc main_arg3) : S512x768.Idx → EReal) = m ((c : Thread nD τ).loc main_arg3) :=
  (B1_keep m c main_arg3 (by decide)).trans rfl
/-- Region 0 finds the bias row: the launched bias. -/
theorem in0_bias (hb0 : HostBias) (e : Fin 512) :
    (B1 m c (Proc.devRef .tc main_v0) : S1x512.Idx → EReal) (ix2 0 e) = gb m c e :=
  congrFun (hb0 (B0 m c)) (ix2 0 e)

/-- Region 1 finds the padded exemplar rows. -/
theorem in1_rows (hpad : HostPadRows) (n : Fin 20480) :
    (fun (k : Fin 768) => (B4 m c (Proc.devRef .tc main_v2) : S20480x768.Idx → EReal) (ix2 n k)) = Cert.Spec.padRows (D m c) n.val := by
  have h1 : (B2 m c (Proc.devRef .tc main_arg1) : S20000x768.Idx → EReal) = m ((c : Thread nD τ).loc main_arg1) :=
    (B2_of_ne m c main_arg1 (by decide)).trans ((B1_keep m c main_arg1 (by decide)).trans rfl)
  funext k
  refine (congrFun (hpad (B2 m c)) (ix2 n k)).trans ?_
  show Cert.Spec.padRows (fun (n : Fin 20000) (k : Fin 768) => (B2 m c (Proc.devRef .tc main_arg1) : S20000x768.Idx → EReal) (ix2 n k)) n.val k = _
  rw [h1]
/-- Region 1 finds the weight matrix as launched. -/
theorem in1_weight : (B4 m c (Proc.devRef .tc main_arg3) : S512x768.Idx → EReal) = m ((c : Thread nD τ).loc main_arg3) :=
  (B4_keep m c main_arg3 (by decide)).trans <| (B3_keep m c main_arg3 (by decide)).trans <|
  (B2_in m c 1 rfl).trans <| (B1_keep m c main_arg3 (by decide)).trans rfl
/-- Region 1 finds the bias row: the launched bias. -/
theorem in1_bias (hb0 : HostBias) (e : Fin 512) :
    (B4 m c (Proc.devRef .tc main_v0) : S1x512.Idx → EReal) (ix2 0 e) = gb m c e := by
  have h : (B4 m c (Proc.devRef .tc main_v0) : S1x512.Idx → EReal) = B1 m c (Proc.devRef .tc main_v0) :=
    (B4_keep m c main_v0 (by decide)).trans <| (B3_keep m c main_v0 (by decide)).trans (B2_in m c 2 rfl)
  rw [h]
  exact in0_bias m c hb0 e

/-! ## What region 2 finds -/

/-- The embedded query rows. -/
theorem find_queries (hb0 : HostBias) :
    (E8 m c main_v1 : S4096x512.Idx → EReal) = fun (i : S4096x512.Idx) => Cert.Spec.emb (X m c) (gw m c) (gb m c) (i 0) (i 1) := by
  have hchain : (B8 m c (Proc.devRef .tc main_v1) : S4096x512.Idx → EReal) = (dat0 (E1 m) c).arrAt 3 cfg0.N :=
    (B8_keep m c main_v1 (by decide)).trans <| (B7_keep m c main_v1 (by decide)).trans <| (B6_keep m c main_v1 (by decide)).trans <|
    (B5_of_ne m c main_v1 (by decide)).trans <| (B4_keep m c main_v1 (by decide)).trans <| (B3_keep m c main_v1 (by decide)).trans <|
    (B2_arr m c 3)
  refine hchain.trans ((arr0 (E1 m) c).trans ?_)
  funext i
  refine emb_congr0 _ _ _ _ _ _ (i 0) (i 0) (i 1) (i 1) ?_ ?_ ?_ rfl
  · funext k; exact congrFun (in0_rows m c) (ix2 (i 0) k)
  · funext e k; exact congrFun (in0_weight m c) (ix2 e k)
  · funext e; exact in0_bias m c hb0 e

/-- The embedded rows of the padded exemplars. -/
theorem find_exemplars (hb0 : HostBias) (hpad : HostPadRows) :
    (E8 m c main_v3 : S20480x512.Idx → EReal)
      = fun (i : S20480x512.Idx) => Cert.Spec.emb (Cert.Spec.padRows (D m c)) (gw m c) (gb m c) (i 0).val (i 1) := by
  have hchain : (B8 m c (Proc.devRef .tc main_v3) : S20480x512.Idx → EReal) = (dat1 (E4 m) c).arrAt 3 cfg1.N :=
    (B8_keep m c main_v3 (by decide)).trans <| (B7_keep m c main_v3 (by decide)).trans <| (B6_keep m c main_v3 (by decide)).trans <|
    (B5_arr m c 3)
  refine hchain.trans ((arr1 (E4 m) c).trans ?_)
  funext i
  refine emb_congr1 _ _ _ _ _ _ (i 0) (i 0).val (i 1) (i 1) ?_ ?_ ?_ rfl
  · exact in1_rows m c hpad (i 0)
  · funext e k; exact congrFun (in1_weight m c) (ix2 e k)
  · funext e; exact in1_bias m c hb0 e

/-- The padded weights in the first of 128 columns. -/
theorem find_weights (hwt : HostWeights) :
    (E8 m c main_v19 : S20480x128.Idx → EReal)
      = fun (i : S20480x128.Idx) => if (i 1).val = 0 then Cert.Spec.padWt (Cert.Spec.wt (r m c) (hw m c) (hb m c)) (i 0).val else 0 := by
  have h2 : (B5 m c (Proc.devRef .tc main_arg2) : S20000x1.Idx → EReal) = m ((c : Thread nD τ).loc main_arg2) :=
    (B5_of_ne m c main_arg2 (by decide)).trans <| (B4_keep m c main_arg2 (by decide)).trans <| (B3_keep m c main_arg2 (by decide)).trans <|
    (B2_of_ne m c main_arg2 (by decide)).trans <| (B1_keep m c main_arg2 (by decide)).trans rfl
  have h5 : (B5 m c (Proc.devRef .tc main_arg5) : S1x1.Idx → EReal) = m ((c : Thread nD τ).loc main_arg5) :=
    (B5_of_ne m c main_arg5 (by decide)).trans <| (B4_keep m c main_arg5 (by decide)).trans <| (B3_keep m c main_arg5 (by decide)).trans <|
    (B2_of_ne m c main_arg5 (by decide)).trans <| (B1_keep m c main_arg5 (by decide)).trans rfl
  have h6 : (B5 m c (Proc.devRef .tc main_arg6) : S1.Idx → EReal) = m ((c : Thread nD τ).loc main_arg6) :=
    (B5_of_ne m c main_arg6 (by decide)).trans <| (B4_keep m c main_arg6 (by decide)).trans <| (B3_keep m c main_arg6 (by decide)).trans <|
    (B2_of_ne m c main_arg6 (by decide)).trans <| (B1_keep m c main_arg6 (by decide)).trans rfl
  refine (hwt (B5 m c)).trans ?_
  rw [h2, h5, h6]

end

end Cert.KernelIdeal.Bridge

end
-- ==== Proof.LibScatterSet.lean ====
/-
  A scatter that SETS (its body returns the update) is a left fold of point updates over the update indices, in
  row-major order, whenever every update lands inside the operand; and a fold of point updates, read at an index,
  is the operand's value where no update lands and the one update's value where exactly one does. Any shapes, any
  scatter dimension numbers, any element type: what `x.at[idx].set(v)` lowers to, read entry by entry.
-/
import Idealize.ShloMosaic.Lib.StableHlo.Run
import Idealize.ShloMosaic.Lib.ValueIdx
import Idealize.ShloMosaic.Lib.Pipeline.Value
import Idealize.ShloMosaic.Lib.KernelVsHost

noncomputable section

namespace Cert.LibScatterSet

open Idealize.ShloMosaic

/-! ## A fold of point updates, read at an index -/

section Fold
variable {ι κ α : Type} [DecidableEq κ]

/-- Updates that all land elsewhere leave the value at an index alone. -/
theorem foldl_update_of_forall_ne (g : ι → κ) (v : ι → α) (i' : κ) :
    ∀ (l : List ι) (x : κ → α), (∀ n ∈ l, g n ≠ i') →
      (l.foldl (fun r n => fun j => if j = g n then v n else r j) x) i' = x i'
  | [], x, _ => rfl
  | a :: l, x, h => by
    rw [List.foldl_cons, foldl_update_of_forall_ne g v i' l _ (fun n hn => h n (List.mem_cons_of_mem _ hn))]
    exact if_neg (fun e => h a List.mem_cons_self e.symm)

/-- Where exactly one update of a duplicate-free list lands at an index, the fold holds that update's value there. -/
theorem foldl_update_of_mem (g : ι → κ) (v : ι → α) (n0 : ι) :
    ∀ (l : List ι) (x : κ → α), l.Nodup → (∀ n ∈ l, g n = g n0 → n = n0) → n0 ∈ l →
      (l.foldl (fun r n => fun j => if j = g n then v n else r j) x) (g n0) = v n0
  | [], x, _, _, h => absurd h List.not_mem_nil
  | a :: l, x, hnd, hinj, hm => by
    rw [List.foldl_cons]
    rcases List.mem_cons.1 hm with rfl | hm'
    · rw [foldl_update_of_forall_ne g v (g n0) l _ (fun n hn e => (List.nodup_cons.1 hnd).1 (hinj n (List.mem_cons_of_mem _ hn) e ▸ hn))]
      exact if_pos rfl
    · exact foldl_update_of_mem g v n0 l _ (List.nodup_cons.1 hnd).2 (fun n hn => hinj n (List.mem_cons_of_mem _ hn)) hm'
end Fold

/-- A scatter whose body returns the update, every update landing inside the operand at `g n`, is the fold of the
    point updates at `g`. -/
theorem scatter_set_eq_foldl {α : Type} {s si u : Shape} {w : Nat} (d : ScatterDims s si u) (x : s.Idx → α) (idx : IVec si w) (upd : u.Idx → α)
    (g : Fin u.numel → s.Idx) (hg : ∀ n, d.resultIdx? (u.rowMajor.symm n) idx = some (g n)) :
    Host.scatter d (fun _ b => b) x idx upd
      = (List.finRange u.numel).foldl (fun r n => fun j => if j = g n then upd (u.rowMajor.symm n) else r j) x := by
  unfold Host.scatter
  congr 1
  funext r n
  rw [hg n]

end Cert.LibScatterSet

end
-- ==== Proof.KIHost.lean ====
/-
  The host stretches of the kernel program between its three kernel calls, read at an index on the extended reals.

  Stretch 0 casts the bias `[512]` to a row `[1, 512]`: entry `(u, q)` is entry `q`.
  Stretch 1 pads the exemplars `[20000, 768]` with 480 rows of the padding value, the conversion of the integer 0,
  which is 0: row `p` is exemplar `p` below 20000 and zero from there on.
  Stretch 2 computes the weight column `(r · 2 − 1) · h_w + h_b`, pads it with 480 zeros, and scatters it, at the one
  scatter index 0, into column 0 of a `[20480, 128]` array of zeros: update `p` lands at `(p, 0)`, the landing points
  are pairwise distinct, so entry `(p, q)` is the padded weight `p` when `q = 0` and zero otherwise. The scatter is a
  left fold of point updates over the update indices; a fold of point updates at pairwise distinct points holds, at
  a point, the one update that lands there, and the operand's value where none does.
-/
import proofs.«171527_j60000693125637_2_alg».proof.Proof.Spec
import proofs.«171527_j60000693125637_2_alg».proof.Proof.LibScatterSet
import proofs.«171527_j60000693125637_2_alg».proof.Proof.Gen.KernelIdeal.Launch
import Idealize.ShloMosaic.Lib.StableHlo.Run
import Idealize.ShloMosaic.Lib.ValueIdx
import Idealize.ShloMosaic.Lib.Pipeline.Value
import Idealize.ShloMosaic.Lib.ValueLayout
import Idealize.ShloMosaic.Lib.KernelVsHost
import Idealize.ShloMosaic.PureOps.Ideal

noncomputable section

namespace Cert.KernelIdeal.Host

open Idealize.ShloMosaic Idealize.ShloMosaic.TcCoe Idealize.ShloMosaic.ValueIdx
open Idealize.SL.Sem
open Cert.KernelIdeal Cert.KernelIdeal.Gen Cert.LibScatterSet

/-! ## The scatter of a column vector into column 0 -/

/-- With the one scatter index zero, update `j` lands at row `j`, column 0. -/
theorem resultIdx_col0 (idx : IVec S1 32) (hidx : ∀ k, idx k = 0#32) (j : S20480.Idx) :
    scatter_S20480x128_S1_S20480_0_1_1_0.resultIdx? j idx = some (ix2 (j 0) (0 : Fin 128)) := by
  have hs : ∀ a, scatter_S20480x128_S1_S20480_0_1_1_0.start j idx a = 0 := fun a => by
    unfold ScatterDims.start
    split
    · rw [hidx]; rfl
    · rfl
  have hw0 : scatter_S20480x128_S1_S20480_0_1_1_0.window j (0 : Fin 2) = (j 0).val := rfl
  have hw1 : scatter_S20480x128_S1_S20480_0_1_1_0.window j (1 : Fin 2) = 0 := rfl
  have hj : (j 0).val < 20480 := (j 0).isLt
  have h : ∀ a, 0 ≤ scatter_S20480x128_S1_S20480_0_1_1_0.start j idx a + scatter_S20480x128_S1_S20480_0_1_1_0.window j a
      ∧ scatter_S20480x128_S1_S20480_0_1_1_0.start j idx a + scatter_S20480x128_S1_S20480_0_1_1_0.window j a < S20480x128.size a := fun a => by
    match a with
    | ⟨0, _⟩ =>
      rw [hs]
      show (0 : ℤ) ≤ 0 + ((scatter_S20480x128_S1_S20480_0_1_1_0.window j (0 : Fin 2) : ℕ) : ℤ)
        ∧ (0 : ℤ) + ((scatter_S20480x128_S1_S20480_0_1_1_0.window j (0 : Fin 2) : ℕ) : ℤ) < ((20480 : ℕ) : ℤ)
      rw [hw0]; omega
    | ⟨1, _⟩ =>
      rw [hs]
      show (0 : ℤ) ≤ 0 + ((scatter_S20480x128_S1_S20480_0_1_1_0.window j (1 : Fin 2) : ℕ) : ℤ)
        ∧ (0 : ℤ) + ((scatter_S20480x128_S1_S20480_0_1_1_0.window j (1 : Fin 2) : ℕ) : ℤ) < ((128 : ℕ) : ℤ)
      rw [hw1]; omega
  unfold ScatterDims.resultIdx?
  rw [dif_pos h]
  congr 1
  funext a
  match a with
  | ⟨0, _⟩ =>
    refine Fin.ext ?_
    show (scatter_S20480x128_S1_S20480_0_1_1_0.start j idx (0 : Fin 2)
      + ((scatter_S20480x128_S1_S20480_0_1_1_0.window j (0 : Fin 2) : ℕ) : ℤ)).toNat = (j 0).val
    rw [hs, hw0]; omega
  | ⟨1, _⟩ =>
    refine Fin.ext ?_
    show (scatter_S20480x128_S1_S20480_0_1_1_0.start j idx (1 : Fin 2)
      + ((scatter_S20480x128_S1_S20480_0_1_1_0.window j (1 : Fin 2) : ℕ) : ℤ)).toNat = 0
    rw [hs, hw1]; omega

/-- Where update `n` (in row-major order) lands. -/
def col0 (n : Fin S20480.numel) : S20480x128.Idx := ix2 ((S20480.rowMajor.symm n) 0) (0 : Fin 128)

theorem col0_rowMajor (p : Fin 20480) : col0 (S20480.rowMajor (ix1 p)) = ix2 p (0 : Fin 128) := by
  unfold col0; rw [Equiv.symm_apply_apply]

theorem col0_inj (n m : Fin S20480.numel) (e : col0 n = col0 m) : n = m := by
  apply S20480.rowMajor.symm.injective
  rw [eq_ix1 (S20480.rowMajor.symm n), eq_ix1 (S20480.rowMajor.symm m)]
  exact congrArg ix1 (congrFun e 0)

theorem col0_ne (n : Fin S20480.numel) (p : Fin 20480) (q : Fin 128) (hq : ¬q.val = 0) : col0 n ≠ ix2 p q := fun e =>
  hq (by have h1 : (0 : Fin 128) = q := congrFun e 1
         rw [← h1]; rfl)

/-- The scatter of `upd` into column 0 of `x`, read at `(p, q)`. -/
theorem scatter_col0_apply {α : Type} (x : S20480x128.Idx → α) (idx : IVec S1 32) (hidx : ∀ k, idx k = 0#32) (upd : S20480.Idx → α)
    (p : Fin 20480) (q : Fin 128) :
    Host.scatter scatter_S20480x128_S1_S20480_0_1_1_0 (fun _ b => b) x idx upd (ix2 p q)
      = if q.val = 0 then upd (ix1 p) else x (ix2 p q) := by
  rw [scatter_set_eq_foldl _ x idx upd col0 (fun n => resultIdx_col0 idx hidx _)]
  by_cases h : q.val = 0
  · rw [if_pos h]
    obtain rfl : q = 0 := Fin.ext h
    rw [← col0_rowMajor p]
    refine (foldl_update_of_mem col0 (fun n => upd (S20480.rowMajor.symm n)) (S20480.rowMajor (ix1 p)) _ x
      (List.nodup_finRange _) (fun n _ e => col0_inj _ _ e) (List.mem_finRange _)).trans ?_
    show upd (S20480.rowMajor.symm (S20480.rowMajor (ix1 p))) = _
    rw [Equiv.symm_apply_apply]
  · rw [if_neg h]
    exact foldl_update_of_forall_ne col0 _ _ _ x (fun n _ => col0_ne n p q h)

/-! ## Scalars broadcast and cast -/

/-- A rank-0 operand broadcast to any shape reads its one element everywhere. -/
theorem bcast_scalar_apply {α : Type} {t : Shape} (dims : Fin S_.rank → Fin t.rank) (h : S_.BroadcastsInDim t dims) (x : S_.Idx → α)
    (j : t.Idx) : broadcastInDim t dims h x j = x ix0 :=
  broadcastInDim_apply dims h x j ix0 (fun a => a.elim0)

/-- A `[1, 1]` array cast to rank 0 reads its one element. -/
theorem shapeCast_11_scalar_apply {α : Type} (x : S1x1.Idx → α) (h : S1x1.ShapeCasts S_) :
    shapeCast S_ x h ix0 = x (ix2 (0 : Fin 1) (0 : Fin 1)) :=
  shapeCast_apply x h ix0 (ix2 (0 : Fin 1) (0 : Fin 1)) (by
    have h0 : (S_.rowMajor ix0).val < 1 := (S_.rowMajor ix0).isLt
    rw [Shape.rowMajor_val_two]
    show 0 * 1 + 0 = (S_.rowMajor ix0).val
    omega)

/-- A `[1]` array cast to rank 0 reads its one element. -/
theorem shapeCast_1_scalar_apply {α : Type} (x : S1.Idx → α) (h : S1.ShapeCasts S_) :
    shapeCast S_ x h ix0 = x (ix1 (0 : Fin 1)) :=
  shapeCast_apply x h ix0 (ix1 (0 : Fin 1)) (by
    have h0 : (S_.rowMajor ix0).val < 1 := (S_.rowMajor ix0).isLt
    rw [Shape.rowMajor_val_one]
    show 0 = (S_.rowMajor ix0).val
    omega)

/-! ## The padding value -/

/-- The padding value both pads spell, the conversion of the integer 0, is 0. -/
theorem sitofp_zero_apply (k : S_.Idx) : (sitofp .f32 (constantI S_ 32 0#32) : FVec Ideal S_ .f32) k = (0 : EReal) := by
  show (((0#32 : BitVec 32).toInt : ℝ) : EReal) = 0
  have h : (0#32 : BitVec 32).toInt = 0 := by decide
  rw [h, Int.cast_zero, EReal.coe_zero]

/-! ## Stretch 0: the bias as a row -/

theorem host_bias_at (W : Valuation τ sig (Elt Ideal)) (u : Fin 1) (q : Fin 512) :
    (StableHlo.after (hostOps0 (F := Ideal)) W (Proc.devRef .tc main_v0) : S1x512.Idx → EReal) (ix2 u q)
      = (W (Proc.devRef .tc main_arg4) : S512.Idx → EReal) (ix1 q) := by
  have e : (StableHlo.after (hostOps0 (F := Ideal)) W (Proc.devRef .tc main_v0) : S1x512.Idx → EReal)
      = shapeCast S1x512 (W (Proc.devRef .tc main_arg4) : S512.Idx → EReal) shapeCasts_S512_S1x512 := by
    dsimp only [hostOps0]; after_results; rfl
  rw [e]
  exact shapeCast_a_1a_apply _ _ u q

theorem host_bias (W : Valuation τ sig (Elt Ideal)) :
    (StableHlo.after (hostOps0 (F := Ideal)) W (Proc.devRef .tc main_v0) : S1x512.Idx → EReal)
      = fun i => (W (Proc.devRef .tc main_arg4) : S512.Idx → EReal) (ix1 (i 1)) := by
  funext i
  obtain ⟨u, q, rfl⟩ : ∃ (u : Fin 1) (q : Fin 512), i = ix2 u q := ⟨i 0, i 1, eq_ix2 i⟩
  exact host_bias_at W u q

/-! ## Stretch 1: the exemplars padded with zero rows -/

theorem host_padD_at (W : Valuation τ sig (Elt Ideal)) (p : Fin 20480) (k : Fin 768) :
    (StableHlo.after (hostOps1_1 (F := Ideal)) (StableHlo.after (hostOps1 (F := Ideal)) W) (Proc.devRef .tc main_v2) : S20480x768.Idx → EReal) (ix2 p k)
      = Cert.Spec.padRows (fun n k => (W (Proc.devRef .tc main_arg1) : S20000x768.Idx → EReal) (ix2 n k)) p.val k := by
  have e : (StableHlo.after (hostOps1_1 (F := Ideal)) (StableHlo.after (hostOps1 (F := Ideal)) W) (Proc.devRef .tc main_v2) : S20480x768.Idx → EReal)
      = pad S20480x768 ![0, 0] ![480, 0] ![0, 0] (W (Proc.devRef .tc main_arg1) : S20000x768.Idx → EReal)
          (sitofp .f32 (constantI S_ 32 0#32) : FVec Ideal S_ .f32) pads_S20000x768_S20480x768_04800_000 h_S_ := by
    dsimp only [hostOps1_1, hostOps1]; after_results; rfl
  rw [e]
  unfold Cert.Spec.padRows
  by_cases h : p.val < 20000
  · rw [dif_pos h]
    refine pad_apply_of_inside _ _ _ _ _ _ _ (ix2 p k) (ix2 (⟨p.val, h⟩ : Fin 20000) k) ?_
    intro a
    match a with
    | ⟨0, _⟩ => show p.val = 0 + p.val * (0 + 1); omega
    | ⟨1, _⟩ => show k.val = 0 + k.val * (0 + 1); omega
  · rw [dif_neg h]
    rw [pad_apply_of_not_inside _ _ _ _ _ _ _ (ix2 p k) (0 : Fin 2) (by
      show ¬(0 ≤ p.val ∧ (p.val - 0) % (0 + 1) = 0 ∧ (p.val - 0) / (0 + 1) < 20000)
      omega)]
    exact sitofp_zero_apply _

theorem host_padD (W : Valuation τ sig (Elt Ideal)) :
    (StableHlo.after (hostOps1_1 (F := Ideal)) (StableHlo.after (hostOps1 (F := Ideal)) W) (Proc.devRef .tc main_v2) : S20480x768.Idx → EReal)
      = fun i => Cert.Spec.padRows (fun n k => (W (Proc.devRef .tc main_arg1) : S20000x768.Idx → EReal) (ix2 n k)) (i 0).val (i 1) := by
  funext i
  obtain ⟨p, k, rfl⟩ : ∃ (p : Fin 20480) (k : Fin 768), i = ix2 p k := ⟨i 0, i 1, eq_ix2 i⟩
  exact host_padD_at W p k

/-! ## Stretch 2: the weights, padded with zeros, as column 0 of an array of zeros -/

/-- The weight column the first part of the stretch computes. -/
theorem after2_v13 (W : Valuation τ sig (Elt Ideal)) :
    (StableHlo.after (hostOps2 (F := Ideal)) W (Proc.devRef .tc main_v13) : S20000x1.Idx → EReal)
      = addf (mulf (subf (mulf (W (Proc.devRef .tc main_arg2) : S20000x1.Idx → EReal)
              (broadcastInDim S20000x1 ![] bcast_S_S20000x1 (constant (F := Ideal) S_ .f32 0x40000000#32)))
            (broadcastInDim S20000x1 ![] bcast_S_S20000x1 (constant (F := Ideal) S_ .f32 0x3F800000#32)))
          (broadcastInDim S20000x1 ![] bcast_S_S20000x1 (shapeCast S_ (W (Proc.devRef .tc main_arg5) : S1x1.Idx → EReal) shapeCasts_S1x1_S_)))
        (broadcastInDim S20000x1 ![] bcast_S_S20000x1 (shapeCast S_ (W (Proc.devRef .tc main_arg6) : S1.Idx → EReal) shapeCasts_S1_S_)) := by
  dsimp only [hostOps2]; after_results; rfl

/-- The integer the pad's value is converted from. -/
theorem after2_c1 (W : Valuation τ sig (Elt Ideal)) :
    (StableHlo.after (hostOps2 (F := Ideal)) W (Proc.devRef .tc main_c_1) : S_.Idx → BitVec 32) = constantI S_ 32 0#32 := by
  dsimp only [hostOps2]; after_results

/-- The pad of the weight column. -/
theorem after21_v14 (V : Valuation τ sig (Elt Ideal)) :
    (StableHlo.after (hostOps2_1 (F := Ideal)) V (Proc.devRef .tc main_v14) : S20480x1.Idx → EReal)
      = pad S20480x1 ![0, 0] ![480, 0] ![0, 0] (V (Proc.devRef .tc main_v13) : S20000x1.Idx → EReal)
          (sitofp .f32 (V (Proc.devRef .tc main_c_1) : S_.Idx → BitVec 32) : FVec Ideal S_ .f32) pads_S20000x1_S20480x1_04800_000 h_S_ := by
  dsimp only [hostOps2_1]; after_results; rfl

/-- The scatter of the padded column into the zeros. -/
theorem after22_v19 (V : Valuation τ sig (Elt Ideal)) :
    (StableHlo.after (hostOps2_2 (F := Ideal)) V (Proc.devRef .tc main_v19) : S20480x128.Idx → EReal)
      = truncf .bf16 (Host.scatter scatter_S20480x128_S1_S20480_0_1_1_0 (fun _ b => b)
          (broadcastInDim S20480x128 ![] bcast_S_S20480x128 (constant (F := Ideal) S_ .f32 0x00000000#32))
          (broadcastInDim S1 ![] bcast_S_S1 (constantI S_ 32 0#32))
          (shapeCast S20480 (V (Proc.devRef .tc main_v14) : S20480x1.Idx → EReal) shapeCasts_S20480x1_S20480) : FVec Ideal S20480x128 .f32) bitsLt_bf16_f32 := by
  dsimp only [hostOps2_2]; after_results; rfl

theorem host_weights_at (W : Valuation τ sig (Elt Ideal)) (p : Fin 20480) (q : Fin 128) :
    (StableHlo.after (hostOps2_2 (F := Ideal)) (StableHlo.after (hostOps2_1 (F := Ideal)) (StableHlo.after (hostOps2 (F := Ideal)) W))
        (Proc.devRef .tc main_v19) : S20480x128.Idx → EReal) (ix2 p q)
      = if q.val = 0 then
          Cert.Spec.padWt (Cert.Spec.wt (fun n => (W (Proc.devRef .tc main_arg2) : S20000x1.Idx → EReal) (ix2 n 0))
            ((W (Proc.devRef .tc main_arg5) : S1x1.Idx → EReal) (ix2 0 0)) ((W (Proc.devRef .tc main_arg6) : S1.Idx → EReal) (ix1 0))) p.val
        else 0 := by
  rw [after22_v19, after21_v14, after2_v13, after2_c1]
  rw [truncf_apply, scatter_col0_apply _ (broadcastInDim S1 ![] bcast_S_S1 (constantI S_ 32 0#32)) (fun k => rfl)]
  by_cases h : q.val = 0
  · rw [if_pos h, if_pos h]
    rw [shapeCast_apply _ shapeCasts_S20480x1_S20480 (ix1 p) (ix2 p (0 : Fin 1)) (by
      rw [Shape.rowMajor_val_two, Shape.rowMajor_val_one]; show p.val * 1 + 0 = p.val; omega)]
    unfold Cert.Spec.padWt
    by_cases hp : p.val < 20000
    · rw [dif_pos hp]
      rw [pad_apply_of_inside _ _ _ _ _ _ _ (ix2 p (0 : Fin 1)) (ix2 (⟨p.val, hp⟩ : Fin 20000) (0 : Fin 1)) (by
        intro a
        match a with
        | ⟨0, _⟩ => show p.val = 0 + p.val * (0 + 1); omega
        | ⟨1, _⟩ => show 0 = 0 + 0 * (0 + 1); omega)]
      rw [addf_apply, mulf_apply, subf_apply, mulf_apply, bcast_scalar_apply, bcast_scalar_apply, bcast_scalar_apply,
        bcast_scalar_apply, constant_apply, constant_apply, shapeCast_11_scalar_apply, shapeCast_1_scalar_apply]
      rfl
    · rw [dif_neg hp]
      rw [pad_apply_of_not_inside _ _ _ _ _ _ _ (ix2 p (0 : Fin 1)) (0 : Fin 2) (by
        show ¬(0 ≤ p.val ∧ (p.val - 0) % (0 + 1) = 0 ∧ (p.val - 0) / (0 + 1) < 20000)
        omega)]
      exact sitofp_zero_apply _
  · rw [if_neg h, if_neg h]
    rw [bcast_scalar_apply, constant_apply]
    exact Ideal.ofBits_zero_f32

theorem host_weights (W : Valuation τ sig (Elt Ideal)) :
    (StableHlo.after (hostOps2_2 (F := Ideal)) (StableHlo.after (hostOps2_1 (F := Ideal)) (StableHlo.after (hostOps2 (F := Ideal)) W))
        (Proc.devRef .tc main_v19) : S20480x128.Idx → EReal)
      = fun i => if (i 1).val = 0 then
          Cert.Spec.padWt (Cert.Spec.wt (fun n => (W (Proc.devRef .tc main_arg2) : S20000x1.Idx → EReal) (ix2 n 0))
            ((W (Proc.devRef .tc main_arg5) : S1x1.Idx → EReal) (ix2 0 0)) ((W (Proc.devRef .tc main_arg6) : S1.Idx → EReal) (ix1 0))) (i 0).val
        else 0 := by
  funext i
  obtain ⟨p, q, rfl⟩ : ∃ (p : Fin 20480) (q : Fin 128), i = ix2 p q := ⟨i 0, i 1, eq_ix2 i⟩
  exact host_weights_at W p q

end Cert.KernelIdeal.Host

end
-- ==== Proof.RefEmb.lean ====
/-
  The reference's embedded rows, read at an index: the linear layer, the length each row is divided by,
  and the normalised rows of the queries and of the exemplars, each as the specification states it.
-/
import proofs.«171527_j60000693125637_2_alg».proof.Proof.Spec
import proofs.«171527_j60000693125637_2_alg».proof.Proof.Gen.ReferenceIdeal.Read
import Idealize.ShloMosaic.Lib.ValueIdx
import Idealize.ShloMosaic.PureOps.Ideal.Laws

noncomputable section

namespace Cert.RefValue

open Cert.ReferenceIdeal Cert.ReferenceIdeal.Read Idealize.ShloMosaic Idealize.ShloMosaic.ValueIdx

variable (X : S4096x768.Idx → EReal) (D : S20000x768.Idx → EReal) (r : S20000x1.Idx → EReal)
  (gw : S512x768.Idx → EReal) (gb : S512.Idx → EReal) (hw : S1x1.Idx → EReal) (hb : S1.Idx → EReal)

/-! ## The linear layer -/

/-- Feature `e` of query row `b` after the linear layer. -/
theorem lin_X (b : Fin 4096) (e : Fin 512) :
    val_main_v8 (F := Ideal) X gw gb (ix2 b e)
      = Cert.Spec.lin (fun (b : Fin 4096) (k : Fin 768) => X (ix2 b k)) (fun (e : Fin 512) (k : Fin 768) => gw (ix2 e k)) (fun (e : Fin 512) => gb (ix1 e)) b e := by
  have e1 : ∀ k, lidx_main_v5 (ix2 b e) k = ix2 b k := fun k => funext fun a => Fin.ext (by
    match a with | ⟨0, _⟩ => rfl | ⟨1, _⟩ => rfl)
  have e2 : ∀ k, idx_main_v4 (ridx_main_v5 (ix2 b e) k) = ix2 e k := fun k => funext fun a => Fin.ext (by
    match a with | ⟨0, _⟩ => rfl | ⟨1, _⟩ => rfl)
  have e3 : idx_main_v6 (idx_main_v7 (ix2 b e)) = ix1 e := funext fun a => Fin.ext (by
    match a with | ⟨0, _⟩ => rfl)
  rw [val_main_v8_apply, val_main_v5_apply, val_main_v7_apply, val_main_v6_apply]
  simp only [val_main_v4_apply, Ideal.addf_def, e1, e2, e3]
  rfl

/-- Feature `e` of exemplar row `n` after the linear layer. -/
theorem lin_D (n : Fin 20000) (e : Fin 512) :
    val_main_v13 (F := Ideal) D gw gb (ix2 n e)
      = Cert.Spec.lin (fun (n : Fin 20000) (k : Fin 768) => D (ix2 n k)) (fun (e : Fin 512) (k : Fin 768) => gw (ix2 e k)) (fun (e : Fin 512) => gb (ix1 e)) n e := by
  have e1 : ∀ k, lidx_main_v10 (ix2 n e) k = ix2 n k := fun k => funext fun a => Fin.ext (by
    match a with | ⟨0, _⟩ => rfl | ⟨1, _⟩ => rfl)
  have e2 : ∀ k, idx_main_v9 (ridx_main_v10 (ix2 n e) k) = ix2 e k := fun k => funext fun a => Fin.ext (by
    match a with | ⟨0, _⟩ => rfl | ⟨1, _⟩ => rfl)
  have e3 : idx_main_v11 (idx_main_v12 (ix2 n e)) = ix1 e := funext fun a => Fin.ext (by
    match a with | ⟨0, _⟩ => rfl)
  rw [val_main_v13_apply, val_main_v10_apply, val_main_v12_apply, val_main_v11_apply]
  simp only [val_main_v9_apply, Ideal.addf_def, e1, e2, e3]
  rfl

/-! ## The length a row is divided by -/

/-- The larger of the norm of query row `b` and the small word. -/
theorem len_X (b : Fin 4096) :
    val_main_v24 (F := Ideal) X gw gb (ix2 b 0)
      = Cert.Spec.len (Cert.Spec.lin (fun (b : Fin 4096) (k : Fin 768) => X (ix2 b k)) (fun (e : Fin 512) (k : Fin 768) => gw (ix2 e k)) (fun (e : Fin 512) => gb (ix1 e))) b := by
  have e1 : ∀ k, idx_main_v20 (idx_main_v21 (ix2 b (0 : Fin 1))) k = ix2 b k := fun k => funext fun a => Fin.ext (by
    match a with | ⟨0, _⟩ => rfl | ⟨1, _⟩ => rfl)
  rw [val_main_v24_apply, val_main_v22_apply, val_main_v21_apply, val_main_v20_apply, val_main_v23_apply]
  simp only [val_main_v19_apply, val_main_cst_1_apply, val_main_cst_2_apply, e1, lin_X,
    Ideal.maximumf_def, Ideal.hostUnary_sqrt_def, Ideal.mulf_def, Ideal.ofBits_def, Ideal.ofBits_zero_f32, zero_add]
  rfl

/-- The larger of the norm of exemplar row `n` and the small word. -/
theorem len_D (n : Fin 20000) :
    val_main_v32 (F := Ideal) D gw gb (ix2 n 0)
      = Cert.Spec.len (Cert.Spec.lin (fun (n : Fin 20000) (k : Fin 768) => D (ix2 n k)) (fun (e : Fin 512) (k : Fin 768) => gw (ix2 e k)) (fun (e : Fin 512) => gb (ix1 e))) n := by
  have e1 : ∀ k, idx_main_v28 (idx_main_v29 (ix2 n (0 : Fin 1))) k = ix2 n k := fun k => funext fun a => Fin.ext (by
    match a with | ⟨0, _⟩ => rfl | ⟨1, _⟩ => rfl)
  rw [val_main_v32_apply, val_main_v30_apply, val_main_v29_apply, val_main_v28_apply, val_main_v31_apply]
  simp only [val_main_v27_apply, val_main_cst_3_apply, val_main_cst_4_apply, e1, lin_D,
    Ideal.maximumf_def, Ideal.hostUnary_sqrt_def, Ideal.mulf_def, Ideal.ofBits_def, Ideal.ofBits_zero_f32, zero_add]
  rfl

/-! ## The embedded, normalised rows -/

/-- Feature `e` of the embedded query row `b`. -/
theorem emb_X (b : Fin 4096) (e : Fin 512) :
    val_main_v26 (F := Ideal) X gw gb (ix2 b e)
      = Cert.Spec.emb (fun (b : Fin 4096) (k : Fin 768) => X (ix2 b k)) (fun (e : Fin 512) (k : Fin 768) => gw (ix2 e k)) (fun (e : Fin 512) => gb (ix1 e)) b e := by
  have e1 : idx_main_v25 (ix2 b e) = ix2 b (0 : Fin 1) := funext fun a => Fin.ext (by
    match a with | ⟨0, _⟩ => rfl | ⟨1, _⟩ => rfl)
  rw [val_main_v26_apply, val_main_v25_apply, e1, lin_X, len_X, Ideal.hostDivf_def]
  rfl

/-- Feature `e` of the embedded exemplar row `n`. -/
theorem emb_D (n : Fin 20000) (e : Fin 512) :
    val_main_v34 (F := Ideal) D gw gb (ix2 n e)
      = Cert.Spec.emb (fun (n : Fin 20000) (k : Fin 768) => D (ix2 n k)) (fun (e : Fin 512) (k : Fin 768) => gw (ix2 e k)) (fun (e : Fin 512) => gb (ix1 e)) n e := by
  have e1 : idx_main_v33 (ix2 n e) = ix2 n (0 : Fin 1) := funext fun a => Fin.ext (by
    match a with | ⟨0, _⟩ => rfl | ⟨1, _⟩ => rfl)
  rw [val_main_v34_apply, val_main_v33_apply, e1, lin_D, len_D, Ideal.hostDivf_def]
  rfl

/-- The transposed embedded exemplars read at feature `e`, exemplar `n`. -/
theorem embT_D (e : Fin 512) (n : Fin 20000) :
    val_main_v35 (F := Ideal) D gw gb (ix2 e n)
      = Cert.Spec.emb (fun (n : Fin 20000) (k : Fin 768) => D (ix2 n k)) (fun (e : Fin 512) (k : Fin 768) => gw (ix2 e k)) (fun (e : Fin 512) => gb (ix1 e)) n e := by
  have e1 : idx_main_v35 (ix2 e n) = ix2 n e := funext fun a => Fin.ext (by
    match a with | ⟨0, _⟩ => rfl | ⟨1, _⟩ => rfl)
  rw [val_main_v35_apply, e1, emb_D]

end Cert.RefValue

end
-- ==== Proof.RefValue.lean ====
/-
  The reference's two results, read at an index: the weight of each exemplar, the activation of each inner
  product of two embedded rows, the weighted sum over the exemplars, and the logistic function of that sum,
  each as the specification states it.
-/
import proofs.«171527_j60000693125637_2_alg».proof.Proof.Spec
import proofs.«171527_j60000693125637_2_alg».proof.Proof.Gen.ReferenceIdeal.Read
import proofs.«171527_j60000693125637_2_alg».proof.Proof.RefEmb
import Idealize.ShloMosaic.Lib.ValueIdx
import Idealize.ShloMosaic.PureOps.Ideal.Laws

noncomputable section

namespace Cert.RefValue

open Cert.ReferenceIdeal Cert.ReferenceIdeal.Read Idealize.ShloMosaic Idealize.ShloMosaic.ValueIdx

variable (X : S4096x768.Idx → EReal) (D : S20000x768.Idx → EReal) (r : S20000x1.Idx → EReal)
  (gw : S512x768.Idx → EReal) (gb : S512.Idx → EReal) (hw : S1x1.Idx → EReal) (hb : S1.Idx → EReal)

/-! ## The weights -/

/-- The weight of exemplar `n`. -/
theorem wt_eq (n : Fin 20000) :
    val_main_v18 (F := Ideal) r hw hb (ix2 n 0)
      = Cert.Spec.wt (fun (n : Fin 20000) => r (ix2 n 0)) (hw (ix2 0 0)) (hb (ix1 0)) n := by
  have e1 : lidx_main_v15 (ix2 n (0 : Fin 1)) 0 = ix2 n (0 : Fin 1) := funext fun a => Fin.ext (by
    match a with | ⟨0, _⟩ => rfl | ⟨1, _⟩ => rfl)
  have e2 : idx_main_v14 (ridx_main_v15 (ix2 n (0 : Fin 1)) 0) = ix2 (0 : Fin 1) (0 : Fin 1) := funext fun a => Fin.ext (by
    match a with | ⟨0, _⟩ => rfl | ⟨1, _⟩ => rfl)
  have e3 : idx_main_v16 (idx_main_v17 (ix2 n (0 : Fin 1))) = ix1 (0 : Fin 1) := funext fun a => Fin.ext (by
    match a with | ⟨0, _⟩ => rfl)
  rw [val_main_v18_apply, val_main_v15_apply, Fin.sum_univ_one, val_main_v17_apply, val_main_v16_apply,
    val_main_v14_apply, val_main_v3_apply, val_main_v1_apply, val_main_v0_apply, val_main_v2_apply,
    val_main_cst_apply, val_main_cst_0_apply, e1, e2, e3]
  simp only [Ideal.addf_def, Ideal.subf_def, Ideal.mulf_def, Ideal.ofBits_def]
  rfl

/-! ## The activation -/

/-- The inner product of embedded query row `b` and embedded exemplar row `n`. -/
theorem inner_eq (b : Fin 4096) (n : Fin 20000) :
    val_main_v36 (F := Ideal) X D gw gb (ix2 b n)
      = Cert.Spec.inner (Cert.Spec.emb (fun (b : Fin 4096) (k : Fin 768) => X (ix2 b k)) (fun (e : Fin 512) (k : Fin 768) => gw (ix2 e k)) (fun (e : Fin 512) => gb (ix1 e)) b) (Cert.Spec.emb (fun (n : Fin 20000) (k : Fin 768) => D (ix2 n k)) (fun (e : Fin 512) (k : Fin 768) => gw (ix2 e k)) (fun (e : Fin 512) => gb (ix1 e)) n) := by
  have e1 : ∀ k, lidx_main_v36 (ix2 b n) k = ix2 b k := fun k => funext fun a => Fin.ext (by
    match a with | ⟨0, _⟩ => rfl | ⟨1, _⟩ => rfl)
  have e2 : ∀ k, ridx_main_v36 (ix2 b n) k = ix2 k n := fun k => funext fun a => Fin.ext (by
    match a with | ⟨0, _⟩ => rfl | ⟨1, _⟩ => rfl)
  rw [val_main_v36_apply]
  simp only [e1, e2, emb_X, embT_D]
  rfl

/-- The sign times the third power of the absolute value of that inner product. -/
theorem act_eq (b : Fin 4096) (n : Fin 20000) :
    val_main_v41 (F := Ideal) X D gw gb (ix2 b n)
      = Cert.Spec.act (Cert.Spec.inner (Cert.Spec.emb (fun (b : Fin 4096) (k : Fin 768) => X (ix2 b k)) (fun (e : Fin 512) (k : Fin 768) => gw (ix2 e k)) (fun (e : Fin 512) => gb (ix1 e)) b) (Cert.Spec.emb (fun (n : Fin 20000) (k : Fin 768) => D (ix2 n k)) (fun (e : Fin 512) (k : Fin 768) => gw (ix2 e k)) (fun (e : Fin 512) => gb (ix1 e)) n)) := by
  rw [val_main_v41_apply, val_main_v37_apply, val_main_v40_apply, val_main_v38_apply, val_main_v39_apply,
    val_main_cst_5_apply, inner_eq]
  simp only [Ideal.mulf_def, Ideal.hostUnary_sign_def, Ideal.hostPowf_def, Ideal.hostAbsf_def, Ideal.ofBits_def]
  rfl

/-! ## The two results -/

/-- The first result: at query `i 0`, the weighted sum of the activations over the exemplars. -/
theorem ref_logits :
    val_main_v42 (F := Ideal) X D r gw gb hw hb
      = fun (i : S4096x1.Idx) => Cert.Spec.refLogit (fun (b : Fin 4096) (k : Fin 768) => X (ix2 b k)) (fun (n : Fin 20000) (k : Fin 768) => D (ix2 n k)) (fun (n : Fin 20000) => r (ix2 n 0)) (fun (e : Fin 512) (k : Fin 768) => gw (ix2 e k)) (fun (e : Fin 512) => gb (ix1 e)) (hw (ix2 0 0)) (hb (ix1 0)) (i 0) := by
  funext i
  obtain ⟨b, z, rfl⟩ : ∃ (b : Fin 4096) (z : Fin 1), i = ix2 b z := ⟨i 0, i 1, eq_ix2 i⟩
  obtain rfl : z = 0 := Subsingleton.elim _ _
  have e1 : ∀ k, lidx_main_v42 (ix2 b (0 : Fin 1)) k = ix2 b k := fun k => funext fun a => Fin.ext (by
    match a with | ⟨0, _⟩ => rfl | ⟨1, _⟩ => rfl)
  have e2 : ∀ k, ridx_main_v42 (ix2 b (0 : Fin 1)) k = ix2 k (0 : Fin 1) := fun k => funext fun a => Fin.ext (by
    match a with | ⟨0, _⟩ => rfl | ⟨1, _⟩ => rfl)
  rw [val_main_v42_apply]
  simp only [e1, e2, act_eq, wt_eq]
  rfl

/-- The second result: at query `i 0`, the logistic function of the first. -/
theorem ref_preds :
    val_main_v48 (F := Ideal) X D r gw gb hw hb
      = fun (i : S4096x1.Idx) => Cert.Spec.refPred (fun (b : Fin 4096) (k : Fin 768) => X (ix2 b k)) (fun (n : Fin 20000) (k : Fin 768) => D (ix2 n k)) (fun (n : Fin 20000) => r (ix2 n 0)) (fun (e : Fin 512) (k : Fin 768) => gw (ix2 e k)) (fun (e : Fin 512) => gb (ix1 e)) (hw (ix2 0 0)) (hb (ix1 0)) (i 0) := by
  funext i
  rw [val_main_v48_apply, val_main_v47_apply, val_main_v46_apply, val_main_v45_apply, val_main_v44_apply,
    val_main_v43_apply, val_main_cst_7_apply, val_main_cst_6_apply, ref_logits]
  simp only [Ideal.hostDivf_def, Ideal.addf_def, Ideal.hostUnary_exp_def, Ideal.hostNegf_def, Ideal.negf_def,
    Ideal.ofBits_def]
  rfl

/-! ## The run's terms -/

section run
open Cert.ReferenceIdeal.Gen Idealize.ShloMosaic.TcCoe Idealize.SL.Sem Idealize.ShloMosaic.StableHlo

/-- The term the run leaves in the first result, of the launch contents of the seven arguments. -/
theorem run_logits (m : (ℓ : Loc nD τ sig) → Buf (Elt Ideal) ℓ) (c : Dev nD) :
    Cert.ReferenceIdeal.Value.res_main_v42 m c
      = fun (i : S4096x1.Idx) => Cert.Spec.refLogit
          (fun (b : Fin 4096) (k : Fin 768) => (m ((c.tc : Thread nD τ).loc main_arg0) : S4096x768.Idx → EReal) (ix2 b k))
          (fun (n : Fin 20000) (k : Fin 768) => (m ((c.tc : Thread nD τ).loc main_arg1) : S20000x768.Idx → EReal) (ix2 n k))
          (fun (n : Fin 20000) => (m ((c.tc : Thread nD τ).loc main_arg2) : S20000x1.Idx → EReal) (ix2 n 0))
          (fun (e : Fin 512) (k : Fin 768) => (m ((c.tc : Thread nD τ).loc main_arg3) : S512x768.Idx → EReal) (ix2 e k))
          (fun (e : Fin 512) => (m ((c.tc : Thread nD τ).loc main_arg4) : S512.Idx → EReal) (ix1 e))
          ((m ((c.tc : Thread nD τ).loc main_arg5) : S1x1.Idx → EReal) (ix2 0 0)) ((m ((c.tc : Thread nD τ).loc main_arg6) : S1.Idx → EReal) (ix1 0)) (i 0) :=
  (val_main_v42_eq m c).trans (ref_logits _ _ _ _ _ _ _)

/-- The term the run leaves in the second result, of the launch contents of the seven arguments. -/
theorem run_preds (m : (ℓ : Loc nD τ sig) → Buf (Elt Ideal) ℓ) (c : Dev nD) :
    Cert.ReferenceIdeal.Value.res_main_v48 m c
      = fun (i : S4096x1.Idx) => Cert.Spec.refPred
          (fun (b : Fin 4096) (k : Fin 768) => (m ((c.tc : Thread nD τ).loc main_arg0) : S4096x768.Idx → EReal) (ix2 b k))
          (fun (n : Fin 20000) (k : Fin 768) => (m ((c.tc : Thread nD τ).loc main_arg1) : S20000x768.Idx → EReal) (ix2 n k))
          (fun (n : Fin 20000) => (m ((c.tc : Thread nD τ).loc main_arg2) : S20000x1.Idx → EReal) (ix2 n 0))
          (fun (e : Fin 512) (k : Fin 768) => (m ((c.tc : Thread nD τ).loc main_arg3) : S512x768.Idx → EReal) (ix2 e k))
          (fun (e : Fin 512) => (m ((c.tc : Thread nD τ).loc main_arg4) : S512.Idx → EReal) (ix1 e))
          ((m ((c.tc : Thread nD τ).loc main_arg5) : S1x1.Idx → EReal) (ix2 0 0)) ((m ((c.tc : Thread nD τ).loc main_arg6) : S1.Idx → EReal) (ix1 0)) (i 0) :=
  (val_main_v48_eq m c).trans (ref_preds _ _ _ _ _ _ _)

end run

end Cert.RefValue

end
-- ==== Proof.lean ====
/-
  The retrieval kernel against its reference, on the extended reals.

  Both programs embed every query and every exemplar by the same normalised linear layer, weigh exemplar `n` by
  `(r n · 2 − 1) · h_w + h_b`, and sum over the exemplars an odd cubic activation of the inner product of the two
  embedded rows times the weight; the second result is the logistic function of the first.

  The reference spells the activation `sign a · |a| ^ 3` and sums the 20000 exemplars at once. The kernel pads the
  exemplars with 480 zero rows and the weights with 480 exact zeros, takes `a · a · a`, and adds five blocks of 4096
  exemplars onto a zero accumulator, one grid point after the other. On every extended real `sign a · |a| ^ 3` is
  `a · a · a` (at `±∞` too), a padded term is `x · 0 = 0` whatever the padded row embeds to, and regrouping a sum
  uses only that addition is commutative and associative: the two results agree for ALL inputs, and no finiteness of
  the inputs is used.

  The kernel program is three launches among stretches of host operations. Each launch's body is run once per control
  case, the accumulator carried from one grid point to the next by the launch's invariant; the contents of every
  buffer at the nine boundaries of @main are a fold from the launch memory, and one run over the nine items reads
  every buffer at the end. The frames of the word-level and the idealized kernel program are that run, the
  reference's its own run; the idealized kernel program is the word-level one read at the extended reals, no
  operation rewritten.
-/
import proofs.«171527_j60000693125637_2_alg».proof.Defs
import proofs.«171527_j60000693125637_2_alg».proof.Proof.Gen.Kernel
import proofs.«171527_j60000693125637_2_alg».proof.Proof.Gen.KernelIdeal
import proofs.«171527_j60000693125637_2_alg».proof.Proof.Gen.ReferenceIdeal
import proofs.«171527_j60000693125637_2_alg».proof.Proof.Gen.ReferenceIdeal.Run
import proofs.«171527_j60000693125637_2_alg».proof.Proof.Gen.ReferenceIdeal.Read
import proofs.«171527_j60000693125637_2_alg».proof.Proof.Gen.Pre_finite_inputs
import proofs.«171527_j60000693125637_2_alg».proof.Proof.KKRun
import proofs.«171527_j60000693125637_2_alg».proof.Proof.KIRun
import proofs.«171527_j60000693125637_2_alg».proof.Proof.KIFinal
import proofs.«171527_j60000693125637_2_alg».proof.Proof.KIBridge
import proofs.«171527_j60000693125637_2_alg».proof.Proof.KIHost
import proofs.«171527_j60000693125637_2_alg».proof.Proof.RefValue

noncomputable section

namespace Cert.Proof

open Idealize.ShloMosaic Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

/-- The word-level kernel program runs and leaves its arguments as launched. -/
theorem frame_k : Cert.frame_Kernel := fun m ρ _ => Cert.Kernel.Hand.frame_all (F := Bits) m ρ

/-- So does the idealized one. -/
theorem frame_ki : Cert.frame_KernelIdeal := fun m ρ _ => Cert.KernelIdeal.Hand.frame_all (F := Ideal) m ρ

/-- The reference's frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- No operation was rewritten on the way to the idealized program. -/
theorem preserves : Cert.preserves_Kernel_KernelIdeal := trivial

open Cert.KernelIdeal Cert.KernelIdeal.Hand in
/-- What the third launch finds in its three input arrays, traced through the earlier items to the launch memory. -/
theorem finds (m : (ℓ : Loc Cert.KernelIdeal.nD Cert.KernelIdeal.τ Cert.KernelIdeal.sig) → Buf (Elt Ideal) ℓ) (c : Dev Cert.KernelIdeal.nD) :
    Cert.KernelIdeal.Hand.Finds m c :=
  ⟨Cert.KernelIdeal.Bridge.find_queries m c Cert.KernelIdeal.Host.host_bias,
   Cert.KernelIdeal.Bridge.find_exemplars m c Cert.KernelIdeal.Host.host_bias Cert.KernelIdeal.Host.host_padD,
   Cert.KernelIdeal.Bridge.find_weights m c Cert.KernelIdeal.Host.host_weights⟩

open Cert.KernelIdeal Cert.KernelIdeal.Hand in
/-- From memories agreeing on the arguments both programs run, and end with the same two results: the reference's
    two functions of the argument arrays. -/
theorem algebraic : Cert.algebraic_KernelIdeal_ReferenceIdeal := by
  intro m ρ m' ρ' _ hagree
  refine ⟨fun c => (fun (i : Cert.KernelIdeal.S4096x1.Idx) => Cert.Spec.refLogit (aX m c) (aD m c) (aR m c) (aGw m c) (aGb m c) (aHw m c) (aHb m c) (i 0)),
    fun c => (fun (i : Cert.KernelIdeal.S4096x1.Idx) => Cert.Spec.refPred (aX m c) (aD m c) (aR m c) (aGw m c) (aGb m c) (aHw m c) (aHb m c) (i 0)), ?_, ?_⟩
  · exact (θ_run Cert.KernelIdeal.defs _ _).mono (fun r h c =>
      ⟨(h c _ (mem_uc main_v20_0 (by decide))).trans (B9_logits m c (finds m c)),
       (h c _ (mem_uc main_v20_1 (by decide))).trans (B9_preds m c (finds m c)),
       (h c _ (mem_uc main_arg0 (by decide))).trans (B9_main_arg0 m c),
       (h c _ (mem_uc main_arg1 (by decide))).trans (B9_main_arg1 m c),
       (h c _ (mem_uc main_arg2 (by decide))).trans (B9_main_arg2 m c),
       (h c _ (mem_uc main_arg3 (by decide))).trans (B9_main_arg3 m c),
       (h c _ (mem_uc main_arg4 (by decide))).trans (B9_main_arg4 m c),
       (h c _ (mem_uc main_arg5 (by decide))).trans (B9_main_arg5 m c),
       (h c _ (mem_uc main_arg6 (by decide))).trans (B9_main_arg6 m c)⟩) (run_all m ρ)
  · refine (θ_run Cert.ReferenceIdeal.defs _ _).mono (fun r h c => ?_) (Cert.ReferenceIdeal.Value.run (F := Ideal) m' ρ')
    obtain ⟨a0, a1, a2, a3, a4, a5, a6⟩ := hagree c
    refine ⟨?_, ?_, (h c).2.2⟩
    · rw [(h c).1, Cert.RefValue.run_logits, a0, a1, a2, a3, a4, a5, a6]
    · rw [(h c).2.1, Cert.RefValue.run_preds, a0, a1, a2, a3, a4, a5, a6]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
